-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x2048x128 .f32) (main_arg1 : FVec F S8x2048x2048 .f32) (main_arg2 : FVec F S128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S8x2048x1 : Shape := ⟨3, ![8, 2048, 1]⟩
abbrev S8x1x2048 : Shape := ⟨3, ![8, 1, 2048]⟩
abbrev S1x512x2048 : Shape := ⟨3, ![1, 512, 2048]⟩
abbrev S1x512x1 : Shape := ⟨3, ![1, 512, 1]⟩
abbrev S1x1x2048 : Shape := ⟨3, ![1, 1, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x512x512 : Shape := ⟨3, ![1, 512, 512]⟩
abbrev S512x512 : Shape := ⟨2, ![512, 512]⟩
abbrev S8x2048 : Shape := ⟨2, ![8, 2048]⟩
abbrev S_ : Shape := ⟨0, ![]⟩
abbrev S1x2048x128 : Shape := ⟨3, ![1, 2048, 128]⟩
abbrev S1x512x128 : Shape := ⟨3, ![1, 512, 128]⟩
abbrev S2048x128 : Shape := ⟨2, ![2048, 128]⟩
abbrev S512x128 : Shape := ⟨2, ![512, 128]⟩

abbrev nBuf : Space → Nat
  | .hbm => 35
  | .vmem => 19
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S8x2048x1, .f32⟩
  | .hbm, ⟨4, _⟩ => ⟨S8x2048x1, .f32⟩
  | .hbm, ⟨5, _⟩ => ⟨S8x1x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .i1⟩
  | .hbm, ⟨13, _⟩ => ⟨S_, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .i1⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x1, .f32⟩
  | .hbm, ⟨34, _⟩ => ⟨S8x2048x128, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x1x2048, .f32⟩
  | .local _ .vmem, ⟨7, _⟩ => ⟨S1x1x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x2048x128, .f32⟩
  | .local _ .vmem, ⟨11, _⟩ => ⟨S128x128, .f32⟩
  | .local _ .vmem, ⟨12, _⟩ => ⟨S1x512x1, .f32⟩
  | .local _ .vmem, ⟨13, _⟩ => ⟨S1x512x1, .f32⟩
  | .local _ .vmem, ⟨14, _⟩ => ⟨S1x512x1, .f32⟩
  | .local _ .vmem, ⟨15, _⟩ => ⟨S1x512x1, .f32⟩
  | .local _ .vmem, ⟨16, _⟩ => ⟨S1x512x128, .f32⟩
  | .local _ .vmem, ⟨17, _⟩ => ⟨S1x512x128, .f32⟩
  | .local _ .vmem, ⟨18, _⟩ => ⟨S2048x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_off1 (i : grid0.Coords) : Fin 3 → Nat :=
  let c0_13 : Index := 0#32
  let c0_14 : Index := 0#32
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  ![0, 0, v20.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c512_i32 : BitVec 32 := 512#32
  let v13 : BitVec 32 := Scalar.muli arg1 c512_i32
  v13
def k1_off1 (i : grid1.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v15 : Index := Scalar.indexCast v14
  let c0_11 : Index := 0#32
  ![v15.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x2048_S2048 : S512x2048.Reduces [0] S2048
  shapeCasts_S2048_S1x2048 : S2048.ShapeCasts S1x2048
  h_S1x512x512 : 0 < S1x512x512.numel
  shapeCasts_S1x512x512_S512x512 : S1x512x512.ShapeCasts S512x512
  iota_S512x512_d1_w32 : S512x512.Iotas .tc 32 [1]
  iota_S512x1_d0_w32 : S512x1.Iotas .tc 32 [0]
  broadcasts_S512x1_S512x512 : S512x1.Broadcasts S512x512
  reduces_S512x512_S512 : S512x512.Reduces [1] S512
  shapeCasts_S8x2048x1_S8x2048 : S8x2048x1.ShapeCasts S8x2048
  shapeCasts_S8x1x2048_S8x2048 : S8x1x2048.ShapeCasts S8x2048
  bcast_S_S8x2048 : S_.BroadcastsInDim S8x2048 (![] : Fin 0 → Fin S8x2048.rank)
  shapeCasts_S8x2048_S8x2048x1 : S8x2048.ShapeCasts S8x2048x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  broadcasts_S512x1_S512x2048 : S512x1.Broadcasts S512x2048
  h_S512x128 : 0 < S512x128.numel
  broadcasts_S512x1_S512x128 : S512x1.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S2048x128_S128x128_S2048x128_1_0_0_1_n_n_wf : DotDims.WF S2048x128 S128x128 S2048x128 [1] [0] [0] [1] [] []
  dot_S512x2048_S2048x128_S512x128_1_0_0_1_n_n_wf : DotDims.WF S512x2048 S2048x128 S512x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x512x512.size a ≤ S1x512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x2048x1.size a
  hwx0_1 : ∀ i : grid0.Coords, EltTy.bits .f32 = 32 ∨ (Rect.block (s := S8x2048x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x2048x1.size a
  hwx0_2 : ∀ i : grid0.Coords, EltTy.bits .f32 = 32 ∨ (Rect.block (s := S8x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S512x128.size a ≤ S2048x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S8x2048x2048.size a
  hwx1_0 : ∀ i : grid1.Coords, EltTy.bits .f32 = 32 ∨ (Rect.block (s := S8x2048x2048) S1x512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S8x2048x128.size a
  hwx1_1 : ∀ i : grid1.Coords, EltTy.bits .f32 = 32 ∨ (Rect.block (s := S8x2048x128) S1x2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1.size a ≤ S8x2048x1.size a
  hwx1_3 : ∀ i : grid1.Coords, EltTy.bits .f32 = 32 ∨ (Rect.block (s := S8x2048x1) S1x512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1.size a ≤ S8x2048x1.size a
  hwx1_4 : ∀ i : grid1.Coords, EltTy.bits .f32 = 32 ∨ (Rect.block (s := S8x2048x1) S1x512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x128.size a ≤ S8x2048x128.size a
  hwx1_5 : ∀ i : grid1.Coords, EltTy.bits .f32 = 32 ∨ (Rect.block (s := S8x2048x128) S1x512x128.size (cc1_transform_5 i) (hinb1_5 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩
abbrev S8x2048 : Shape := ⟨2, ![8, 2048]⟩
abbrev S2048 : Shape := ⟨1, ![2048]⟩
abbrev S2048x1 : Shape := ⟨2, ![2048, 1]⟩
abbrev S2048x2 : Shape := ⟨2, ![2048, 2]⟩
abbrev S8x2048x1 : Shape := ⟨3, ![8, 2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .i1⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048x1, .i32⟩
  | .hbm, ⟨27, _⟩ => ⟨S2048x2, .i32⟩
  | .hbm, ⟨28, _⟩ => ⟨S8x2048, .f32⟩
  | .hbm, ⟨29, _⟩ => ⟨S_, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S2048x1, .i32⟩
  | .hbm, ⟨48, _⟩ => ⟨S2048x1, .i32⟩
  | .hbm, ⟨49, _⟩ => ⟨S2048x2, .i32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .i1⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S_, .f32⟩
  | .hbm, ⟨60, _⟩ => ⟨S_, .f32⟩
  | .hbm, ⟨61, _⟩ => ⟨S8x2048, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x128, .f32⟩
  | .hbm, ⟨67, _⟩ => ⟨S_, .f32⟩
  | .hbm, ⟨68, _⟩ => ⟨S_, .f32⟩
  | .hbm, ⟨69, _⟩ => ⟨S8x2048x128, .f32⟩
  | .hbm, ⟨70, _⟩ => ⟨S8x2048x128, .i1⟩
  | .hbm, ⟨71, _⟩ => ⟨S_, .f32⟩
  | .hbm, ⟨72, _⟩ => ⟨S8x2048x128, .f32⟩
  | .hbm, ⟨73, _⟩ => ⟨S8x2048x128, .f32⟩
  | .hbm, ⟨74, _⟩ => ⟨S8x2048x128, .f32⟩
  | .hbm, ⟨75, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]

class Facts₀ : Prop where
  transposes_S8x2048x2048_S8x2048x2048_0_2_1 : S8x2048x2048.Transposes [0, 2, 1] S8x2048x2048
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x128 : S_.BroadcastsInDim S8x2048x128 (![] : Fin 0 → Fin S8x2048x128.rank)
  gather_S8x2048x2048_S2048x2_S8x2048_0_12_n_n_12_1_811_wf : GatherDims.WF S8x2048x2048 S2048x2 S8x2048 [0] [1, 2] [] [1, 2] [] 1 ![8, 1, 1]
  scatter_S8x2048x2048_S2048x2_S8x2048_0_12_12_1_wf : ScatterDims.WF S8x2048x2048 S2048x2 S8x2048 [0] [1, 2] [1, 2] 1
  dot_S8x2048x128_S128x128_S8x2048x128_2_1_01_0_n_n_wf : DotDims.WF S8x2048x128 S128x128 S8x2048x128 [2] [1] [0, 1] [0] [] []
  dot_S8x2048x2048_S8x2048x128_S8x2048x128_2_1_1_2_0_0_wf : DotDims.WF S8x2048x2048 S8x2048x128 S8x2048x128 [2] [1] [1] [2] [0] [0]

variable [Facts₀]

def gather_S8x2048x2048_S2048x2_S8x2048_0_12_n_n_12_1_811 : GatherDims S8x2048x2048 S2048x2 S8x2048 where
  offsetDims := [0]
  collapsedSliceDims := [1, 2]
  operandBatchingDims := []
  startIndicesBatchingDims := []
  startIndexMap := [1, 2]
  indexVectorDim := 1
  sliceSizes := ![8, 1, 1]
  wf := gather_S8x2048x2048_S2048x2_S8x2048_0_12_n_n_12_1_811_wf
def scatter_S8x2048x2048_S2048x2_S8x2048_0_12_12_1 : ScatterDims S8x2048x2048 S2048x2 S8x2048 where
  updateWindowDims := [0]
  insertedWindowDims := [1, 2]
  scatterDimsToOperandDims := [1, 2]
  indexVectorDim := 1
  wf := scatter_S8x2048x2048_S2048x2_S8x2048_0_12_12_1_wf
def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.SumsRuns.lean ====
/-
  The sums kernel (row sums, column sums and the diagonal of the adjacency, one batch's four row tiles
  after another): what its two cases share.

  The kernel's body branches on the second grid coordinate: at a batch's first row tile the column-sum
  block is zeroed before the tile's column sums are added to it; at the other three tiles the block
  holds what the tile before left. Here: each window's block read off the arrays the region is entered
  with, the input window's staging contents at every point, the branch condition in closed form over
  the 32 grid points, and the names of the staging memrefs the body is called on.
-/
import proofs.«129983_j84911503442515_2_alg».proof.Proof.Gen.KernelIdeal.Launch
import proofs.«129983_j84911503442515_2_alg».proof.Proof.Gen.KernelIdeal.Skeleton
import proofs.«129983_j84911503442515_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Sums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point, for any proof data
    whose array is the entry contents and whose body leaves the block in place: the window is fetched at
    every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition -/

/-- The condition of the body's conditional: the second grid coordinate, as a 32-bit word, equals zero
    (the comparison, its zero extension, and the test of that against zero, as the body computes them). -/
abbrev cond0_0 (i : grid0.Coords) : Prop := (Scalar.cmpi .ne (Scalar.extui (Scalar.cmpi .eq (BitVec.ofNat 32 (i 1).val) 0#32)) 0#32) = 1#1
/-- It holds exactly at the first row tile of each batch: the points that are multiples of four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each output window, through which its contents are stated (the choice does not matter). -/
abbrev VO0_1 : View sig .tc .vmem S1x512x1 .f32 := (Memref.whole cc0_stg1_0 : Memref sig .tc .vmem S1x512x1 .f32).view
abbrev VO0_2 : View sig .tc .vmem S1x512x1 .f32 := (Memref.whole cc0_stg2_0 : Memref sig .tc .vmem S1x512x1 .f32).view
abbrev VO0_3 : View sig .tc .vmem S1x1x2048 .f32 := (Memref.whole cc0_stg3_0 : Memref sig .tc .vmem S1x1x2048 .f32).view
/-- Each window's current staging memref at point `t`, spelled as the pipeline passes it, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)

end Cert.KernelIdeal.Sums

end
-- ==== Proof.SumsRunA.lean ====
/-
  The sums kernel at a batch's first row tile (the conditional taken): the whole body run once.

  On whole staging memrefs — the adjacency block's at its contents, the three outputs' at anything — the
  body runs to a continuation that holds the adjacency block as it was and each output's buffer with a
  list of pieces written into it (the last store first). The lists are found by the run itself: the row
  sums' and the diagonal's one store each, the column sums' two (the zero block, then the zero block plus
  the tile's column sums).
-/
import proofs.«129983_j84911503442515_2_alg».proof.Proof.SumsRuns

-- membership in a rectangle of these extents recurses once per coordinate of the long axes
set_option maxRecDepth 16384
set_option pp.maxSteps 5000
set_option pp.deepTerms false

noncomputable section

namespace Cert.KernelIdeal.Sums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref when the conditional is taken, as pieces
    (last first), with the proof that the body runs to the continuation holding them. -/
noncomputable def kernelRun0_A (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) :
    Σ' (L1 : List (View.Piece (Elt F) S1x512x1 .f32)), Σ' (L2 : List (View.Piece (Elt F) S1x512x1 .f32)), { L3 : List (View.Piece (Elt F) S1x1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__sums_kernel i arg2 harg2 arg3 harg3 arg4 harg4 arg5 harg5) K } := by
  refine ⟨?_, ?_, ?_, fun E K => ?run⟩
  case run =>
    simp only [cc0__sums_kernel_eq_skeleton]; unfold cc0__sums_kernel_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    iexists _; iexact H3

end Cert.KernelIdeal.Sums

end
-- ==== Proof.SumsRunB.lean ====
/-
  The sums kernel at a batch's later row tiles (the conditional not taken): the whole body run once.

  As at the first tile, except that the column-sum block is read before it is covered: its staging
  memref is held at the running contents the tile before left, and the one store into it adds the
  tile's column sums to those contents.
-/
import proofs.«129983_j84911503442515_2_alg».proof.Proof.SumsRunA

-- membership in a rectangle of these extents recurses once per coordinate of the long axes
set_option maxRecDepth 16384
set_option pp.maxSteps 5000
set_option pp.deepTerms false

noncomputable section

namespace Cert.KernelIdeal.Sums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref when the conditional is not taken, as
    pieces (last first), the column-sum block entered at its running contents `xo3`, with the proof that
    the body runs to the continuation holding them. -/
noncomputable def kernelRun0_B (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) :
    Σ' (L1 : List (View.Piece (Elt F) S1x512x1 .f32)), Σ' (L2 : List (View.Piece (Elt F) S1x512x1 .f32)), { L3 : List (View.Piece (Elt F) S1x1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xo3
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__sums_kernel i arg2 harg2 arg3 harg3 arg4 harg4 arg5 harg5) K } := by
  refine ⟨?_, ?_, ?_, fun E K => ?run⟩
  case run =>
    simp only [cc0__sums_kernel_eq_skeleton]; unfold cc0__sums_kernel_skel
    simp only [k0_part1_eq_skeleton]
    unfold owns
    iintro ⟨⟨%f0, %hf0, H0⟩, ⟨%d1, %f1, -, H1⟩, ⟨%d2, %f2, -, H2⟩, ⟨%f3, %hf3, H3⟩, Hk⟩
    obtain rfl := harg2.eq_unread hf0; obtain rfl := harg5.eq_unread hf3
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    iexists _; iexact H3

end Cert.KernelIdeal.Sums

end
-- ==== Proof.SumsFrame.lean ====
/-
  The sums kernel's half of the frame, at the buffer contents `V` the region is entered with.

  Per case and output, the stores found by the run cover the output's block, so the block's contents
  after the body are those pieces read back. Point by point: the row-sum and diagonal blocks hold what
  the point's case leaves; the column-sum block is an accumulator — zeroed and added to at a batch's
  first row tile, added to at the other three over what the tile before left (its buffer is not written
  back in between: it is written back at the batch's last tile only). The proof data states these as
  what the body leaves, the invariant is the class's (the scoped rest and the generator register pass
  through unread), every share is full and nothing is owed. The body obligation follows by cases on the
  point's residue modulo four.
-/
import proofs.«129983_j84911503442515_2_alg».proof.Proof.SumsRunB

-- membership in a rectangle of these extents recurses once per coordinate of the long axes
set_option maxRecDepth 16384
set_option pp.maxSteps 5000
set_option pp.deepTerms false

noncomputable section

namespace Cert.KernelIdeal.Sums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## What each case leaves in each output -/

/-- At a first tile the stores into the row-sum block tile it, so they cover it. -/
theorem cover0_A_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) (y : S1x512x1.Idx) :
    ∃ pc ∈ (kernelRun0_A c i arg2 harg2 arg3 harg3 arg4 harg4 arg5 harg5 hc0 x0).1, y ∈ pc.1.set :=
  View.cover_of_tiledL (kernelRun0_A c i arg2 harg2 arg3 harg3 arg4 harg4 arg5 harg5 hc0 x0).1 S1x512x1.size (by sl_kernel_rfl) y

/-- What a first tile leaves in the row-sum block's staging buffer: its pieces read back over anything. -/
def out0_A_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) : Vec F S1x512x1 .f32 :=
  VO0_1.read (Elt F) (VO0_1.writes (Elt F) VO0_1.junk (kernelRun0_A c i arg2 harg2 arg3 harg3 arg4 harg4 arg5 harg5 hc0 x0).1)

/-- At a later tile the stores into the row-sum block tile it, so they cover it. -/
theorem cover0_B_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) (y : S1x512x1.Idx) :
    ∃ pc ∈ (kernelRun0_B c i arg2 harg2 arg3 harg3 arg4 harg4 arg5 harg5 hc0 x0 xo3).1, y ∈ pc.1.set :=
  View.cover_of_tiledL (kernelRun0_B c i arg2 harg2 arg3 harg3 arg4 harg4 arg5 harg5 hc0 x0 xo3).1 S1x512x1.size (by sl_kernel_rfl) y

/-- What a later tile leaves in the row-sum block's staging buffer: its pieces read back over anything. -/
def out0_B_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) : Vec F S1x512x1 .f32 :=
  VO0_1.read (Elt F) (VO0_1.writes (Elt F) VO0_1.junk (kernelRun0_B c i arg2 harg2 arg3 harg3 arg4 harg4 arg5 harg5 hc0 x0 xo3).1)

/-- At a first tile the stores into the diagonal block tile it, so they cover it. -/
theorem cover0_A_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) (y : S1x512x1.Idx) :
    ∃ pc ∈ (kernelRun0_A c i arg2 harg2 arg3 harg3 arg4 harg4 arg5 harg5 hc0 x0).2.1, y ∈ pc.1.set :=
  View.cover_of_tiledL (kernelRun0_A c i arg2 harg2 arg3 harg3 arg4 harg4 arg5 harg5 hc0 x0).2.1 S1x512x1.size (by sl_kernel_rfl) y

/-- What a first tile leaves in the diagonal block's staging buffer: its pieces read back over anything. -/
def out0_A_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) : Vec F S1x512x1 .f32 :=
  VO0_2.read (Elt F) (VO0_2.writes (Elt F) VO0_2.junk (kernelRun0_A c i arg2 harg2 arg3 harg3 arg4 harg4 arg5 harg5 hc0 x0).2.1)

/-- At a later tile the stores into the diagonal block tile it, so they cover it. -/
theorem cover0_B_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) (y : S1x512x1.Idx) :
    ∃ pc ∈ (kernelRun0_B c i arg2 harg2 arg3 harg3 arg4 harg4 arg5 harg5 hc0 x0 xo3).2.1, y ∈ pc.1.set :=
  View.cover_of_tiledL (kernelRun0_B c i arg2 harg2 arg3 harg3 arg4 harg4 arg5 harg5 hc0 x0 xo3).2.1 S1x512x1.size (by sl_kernel_rfl) y

/-- What a later tile leaves in the diagonal block's staging buffer: its pieces read back over anything. -/
def out0_B_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) : Vec F S1x512x1 .f32 :=
  VO0_2.read (Elt F) (VO0_2.writes (Elt F) VO0_2.junk (kernelRun0_B c i arg2 harg2 arg3 harg3 arg4 harg4 arg5 harg5 hc0 x0 xo3).2.1)

/-- At a first tile the stores into the column-sum block tile it, so they cover it. -/
theorem cover0_A_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) (y : S1x1x2048.Idx) :
    ∃ pc ∈ (kernelRun0_A c i arg2 harg2 arg3 harg3 arg4 harg4 arg5 harg5 hc0 x0).2.2.1, y ∈ pc.1.set :=
  View.cover_of_tiledL (kernelRun0_A c i arg2 harg2 arg3 harg3 arg4 harg4 arg5 harg5 hc0 x0).2.2.1 S1x1x2048.size (by sl_kernel_rfl) y

/-- What a first tile leaves in the column-sum block's staging buffer: its pieces read back over anything. -/
def out0_A_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) : Vec F S1x1x2048 .f32 :=
  VO0_3.read (Elt F) (VO0_3.writes (Elt F) VO0_3.junk (kernelRun0_A c i arg2 harg2 arg3 harg3 arg4 harg4 arg5 harg5 hc0 x0).2.2.1)

/-- At a later tile the stores into the column-sum block tile it, so they cover it. -/
theorem cover0_B_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) (y : S1x1x2048.Idx) :
    ∃ pc ∈ (kernelRun0_B c i arg2 harg2 arg3 harg3 arg4 harg4 arg5 harg5 hc0 x0 xo3).2.2.1, y ∈ pc.1.set :=
  View.cover_of_tiledL (kernelRun0_B c i arg2 harg2 arg3 harg3 arg4 harg4 arg5 harg5 hc0 x0 xo3).2.2.1 S1x1x2048.size (by sl_kernel_rfl) y

/-- What a later tile leaves in the column-sum block's staging buffer: its pieces read back over anything. -/
def out0_B_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) : Vec F S1x1x2048 .f32 :=
  VO0_3.read (Elt F) (VO0_3.writes (Elt F) VO0_3.junk (kernelRun0_B c i arg2 harg2 arg3 harg3 arg4 harg4 arg5 harg5 hc0 x0 xo3).2.2.1)

/-! ## What the outputs hold after each point -/

/-- THE ACCUMULATION. What the column-sum block's staging buffer holds after the body at position `n`: at a
    first tile the zero block plus the tile's column sums; at a later tile the tile's column sums added to
    what this leaves at `n - 1`. -/
def outsAt0 (c : Dev nD) : (n : ℕ) → n < cfg0.N → Vec F S1x1x2048 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩)
  | n + 1, hn =>
    if h0 : (n + 1) % 4 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (outsAt0 c n (Nat.lt_of_succ_lt hn))

/-- The accumulation at a first tile. -/
theorem outsAt0_A (c : Dev nD) (t : Fin cfg0.N) (h0 : t.val % 4 = 0) :
    outsAt0 V c t.val t.isLt = out0_A_3 c (grid0.coords t) (ms0_0 t) (hs0_0 t) (ms0_1 t) (hs0_1 t) (ms0_2 t) (hs0_2 t) (ms0_3 t) (hs0_3 t) ((hcond0_0 t).mpr h0) (iblk0 V c 0 t) := by
  obtain ⟨n, hn⟩ := t
  cases n with
  | zero => exact rfl
  | succ n => exact (dif_pos h0).trans rfl

/-- The accumulation at a later tile: over what the point before left. -/
theorem outsAt0_B (c : Dev nD) (t : Fin cfg0.N) (h0 : ¬t.val % 4 = 0) :
    outsAt0 V c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the row-sum block's staging buffer holds after the body at point `t`: the case the point is in, run at the
    point's memrefs and adjacency block (and, at a later tile, at the column sums the tile before left). -/
def out1At (c : Dev nD) (t : Fin cfg0.N) : Vec F S1x512x1 .f32 :=
  if h0 : t.val % 4 = 0 then
    out0_A_1 c (grid0.coords t) (ms0_0 t) (hs0_0 t) (ms0_1 t) (hs0_1 t) (ms0_2 t) (hs0_2 t) (ms0_3 t) (hs0_3 t) ((hcond0_0 t).mpr h0) (iblk0 V c 0 t)
  else
    out0_B_1 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt))

theorem out1At_A (c : Dev nD) (t : Fin cfg0.N) (h0 : t.val % 4 = 0) :
    out1At V c t = out0_A_1 c (grid0.coords t) (ms0_0 t) (hs0_0 t) (ms0_1 t) (hs0_1 t) (ms0_2 t) (hs0_2 t) (ms0_3 t) (hs0_3 t) ((hcond0_0 t).mpr h0) (iblk0 V c 0 t) := by
  unfold out1At; exact dif_pos h0

theorem out1At_B (c : Dev nD) (t : Fin cfg0.N) (h0 : ¬t.val % 4 = 0) :
    out1At V c t = out0_B_1 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt)) := by
  unfold out1At; exact dif_neg h0

/-- What the diagonal block's staging buffer holds after the body at point `t`: the case the point is in, run at the
    point's memrefs and adjacency block (and, at a later tile, at the column sums the tile before left). -/
def out2At (c : Dev nD) (t : Fin cfg0.N) : Vec F S1x512x1 .f32 :=
  if h0 : t.val % 4 = 0 then
    out0_A_2 c (grid0.coords t) (ms0_0 t) (hs0_0 t) (ms0_1 t) (hs0_1 t) (ms0_2 t) (hs0_2 t) (ms0_3 t) (hs0_3 t) ((hcond0_0 t).mpr h0) (iblk0 V c 0 t)
  else
    out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt))

theorem out2At_A (c : Dev nD) (t : Fin cfg0.N) (h0 : t.val % 4 = 0) :
    out2At V c t = out0_A_2 c (grid0.coords t) (ms0_0 t) (hs0_0 t) (ms0_1 t) (hs0_1 t) (ms0_2 t) (hs0_2 t) (ms0_3 t) (hs0_3 t) ((hcond0_0 t).mpr h0) (iblk0 V c 0 t) := by
  unfold out2At; exact dif_pos h0

theorem out2At_B (c : Dev nD) (t : Fin cfg0.N) (h0 : ¬t.val % 4 = 0) :
    out2At V c t = out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt)) := by
  unfold out2At; exact dif_neg h0

/-! ## The proof data -/

/-- The proof data of the sums pipeline on core `c`: the arrays as the region finds them; after the body at
    point `t` the adjacency block in place and each output's buffer at what its point leaves; the class's
    invariant; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out1At V c t
    | ⟨2, _⟩ => out2At V c t
    | ⟨3, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out1At V c t := by dsimp only [dat0]
theorem after0_2 (c : Dev nD) (t : Fin cfg0.N) : (dat0 V c).after 2 t = out2At V c t := by dsimp only [dat0]
theorem after0_3 (c : Dev nD) (t : Fin cfg0.N) : (dat0 V c).after 3 t = outsAt0 V c t.val t.isLt := by dsimp only [dat0]

/-- The adjacency window's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a later tile the column-sum window's current staging buffer holds what the body left at the point
    before: the point is not the first, the buffer was not written back in between (it is written back at
    the points ≡ 3 mod 4 only), and the window is live and uncut. -/
theorem before0_3_B (c : Dev nD) (t : Fin cfg0.N) (h0 : ¬t.val % 4 = 0) (d) :
    (dat0 V c).before 3 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the adjacency memref holds its block; the point's residue modulo four says
    which case it is in; at a later tile the column-sum memref holds what the point before left; so the
    case's run applies, and each output's pieces, covering its block, read back as stated. The invariant
    passes through unread and nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  have hN : t.val < 32 := lt_of_lt_of_eq t.isLt (show cfg0.N = 32 from N_0)
  by_cases h0 : t.val % 4 = 0
  · rw [outsAt0_A V c t h0, out1At_A V c t h0, out2At_A V c t h0]
    unfold out0_A_1 out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t)).2.2.2 Set.univ _)
    isplitl [H0]; · iexact H0
    isplitl [H1]; · iexists _; iexact H1
    isplitl [H2]; · iexists _; iexact H2
    isplitl [H3]; · iexists _; iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _)
    isplitl [H2]
    · unfold owns; iexists _; isplitr
      swap; · iexact H2
      ipureintro; exact View.read_writes_of_cover _ _ _ _ _ (cover0_A_2 c _ _ _ _ _ _ _ _ _ _ _)
    unfold owns; iexists _; isplitr
    swap; · iexact H3
    ipureintro; exact View.read_writes_of_cover _ _ _ _ _ (cover0_A_3 c _ _ _ _ _ _ _ _ _ _ _)
  · rw [outsAt0_B V c t h0, out1At_B V c t h0, out2At_B V c t h0]
    simp only [before0_3_B V c t h0]
    unfold out0_B_1 out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) _).2.2.2 Set.univ _)
    isplitl [H0]; · iexact H0
    isplitl [H1]; · iexists _; iexact H1
    isplitl [H2]; · iexists _; iexact H2
    isplitl [H3]; · iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _)
    isplitl [H2]
    · unfold owns; iexists _; isplitr
      swap; · iexact H2
      ipureintro; exact View.read_writes_of_cover _ _ _ _ _ (cover0_B_2 c _ _ _ _ _ _ _ _ _ _ _ _)
    unfold owns; iexists _; isplitr
    swap; · iexact H3
    ipureintro; exact View.read_writes_of_cover _ _ _ _ _ (cover0_B_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The invariant at the first point is the class's. -/
theorem hin0 (c : Dev nD) : Pipeline.ΦA spec0 c ⊢ (dat0 V c).Φ 0 := by
  rw [show (dat0 V c).Φ 0 = Pipeline.ΦA spec0 c from rfl]

/-- The invariant after the last point is the class's. -/
theorem hout0 (c : Dev nD) : (dat0 V c).Φ (Fin.last cfg0.N) ⊢ Pipeline.ΦA spec0 c := by
  rw [show (dat0 V c).Φ (Fin.last cfg0.N) = Pipeline.ΦA spec0 c from rfl]

/-- The shares are full and nothing is owed (the forms the region's assembly takes). -/
example (c : Dev nD) := (dat0 V c).share_full fun _ => rfl
example : ∀ (c : Dev nD) t, (dat0 V c).owed t = 0 := fun _ _ => rfl

end Cert.KernelIdeal.Sums

end
-- ==== Proof.AggRuns.lean ====
/-
  The second region of the program: the aggregation kernel on its 8 × 4 grid (a batch, a tile of 512 rows), at the
  buffer contents `V` the region is entered with. This module holds what the two whole-body runs and the frame half
  share: each window's block at a point, read off its array; that an input window's current staging buffer holds its
  block at every point (fetched there, or — its block index unmoved since — at an earlier point); the condition of the
  body's one conditional in closed form (taken exactly at the first row tile of a batch); the staging memrefs and the
  hidden-layer scratch as the pipeline passes them to the body; and the class invariant with that scratch singled out
  among the core's scoped buffers.
-/
import proofs.«129983_j84911503442515_2_alg».proof.Proof.Gen.KernelIdeal.Launch
import proofs.«129983_j84911503442515_2_alg».proof.Proof.Gen.KernelIdeal.Skeleton
import proofs.«129983_j84911503442515_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each of the five input windows (a tile of rows of `A`; the batch's features; the weights; the tile's reciprocal
    degrees; the tile's correction coefficients) holds its block in its current staging buffer at every point, for ANY
    proof data whose array is `V`'s and whose body leaves the block in place. The features are fetched only at a
    batch's first tile and the weights only at the first point: their block index does not move in between. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's conditional -/

/-- The condition of the body's one conditional, from the grid coordinates (the scalar chain on the row-tile
    coordinate substituted): "this is the batch's first row tile". -/
abbrev cond1_0 (i : grid1.Coords) : Prop := (Scalar.cmpi .ne (Scalar.extui (Scalar.cmpi .eq (BitVec.ofNat 32 (i 1).val) 0#32)) 0#32) = 1#1
/-- It holds at the points ≡ 0 (mod 4): decided over the 32 points of the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The memrefs the body is called with -/

/-- Each window's current staging memref at point `t`, as the pipeline passes it, and its wholeness. -/
abbrev ms1_0 (t : Fin cfg1.N) : Memref sig .tc .vmem S1x512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x128 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows; it holds the batch's
    hidden layer from the batch's first tile on. -/
abbrev scM1_0 : Memref sig .tc .vmem S2048x128 .bf16 := Memref.whole cc1_scratch0
/-- The same as a view: what the scratch holds is stated through it. -/
abbrev VS1_0 : View sig .tc .vmem S2048x128 .bf16 := scM1_0.view
/-- One staging buffer of the output window, through which its contents are stated (the choice does not matter). -/
abbrev VO1_5 : View sig .tc .vmem S1x512x128 .f32 := (Memref.whole cc1_stg5_0 : Memref sig .tc .vmem S1x512x128 .f32).view

/-! ## The invariant's shape -/

/-- The core's scoped buffers that are no staging buffer of this region — the first region's eight staging buffers,
    each at some contents, which this region never touches — around a statement `P` of the scratch. -/
def rest1 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ P)

/-- The class invariant with the scratch as a memref owned at some contents: what the body obligation hands a run
    at the first point and what the region gives back. -/
theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; try rfl

end Cert.KernelIdeal.Agg

end
-- ==== Proof.AggRunA.lean ====
/-
  The whole body of the aggregation kernel run at a point that is a batch's FIRST row tile (the conditional taken):
  the batch's features and the weights are read, the hidden layer — the rectified product, narrowed — is stored over
  the whole scratch, whatever the scratch held; then the tile of the adjacency, its reciprocal degrees and correction
  coefficients and the scratch just written are read, and the tile's result is stored over the whole output block.
  The run is found by symbolic execution of the body's skeleton; the stores it ends with, as pieces, are its witness.
-/
import proofs.«129983_j84911503442515_2_alg».proof.Proof.AggRuns

-- membership in a rectangle of the kernel's extents recurses once per coordinate of the long axes
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the scratch, as pieces (last first), at a
    batch's first row tile, WITH the proof that on whole memrefs — the five inputs' at their contents, the output's and
    the scratch at anything — the body runs to the continuation holding the inputs' as they were and the output's
    buffer and the scratch with those pieces written. -/
noncomputable def kernelRun1_A (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) :
    Σ' (L5 : List (View.Piece (Elt F) S1x512x128 .f32)), { LS0 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7 arg8 harg8) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Agg

end
-- ==== Proof.AggRunB.lean ====
/-
  The whole body of the aggregation kernel run at a point that is NOT a batch's first row tile (the conditional not
  taken): the tile of the adjacency, its reciprocal degrees and correction coefficients and the scratch — which holds
  what the batch's first tile stored — are read, and the tile's result is stored over the whole output block. The
  scratch is only read: it is handed back at the contents it was given.
-/
import proofs.«129983_j84911503442515_2_alg».proof.Proof.AggRunA

-- membership in a rectangle of the kernel's extents recurses once per coordinate of the long axes
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref, as pieces (last first), at a later row tile of a
    batch, WITH the proof that on whole memrefs — the five inputs' at their contents, the scratch at the contents
    `xs0` the point before left, the output's at anything — the body runs to the continuation holding the inputs' and
    the scratch as they were and the output's buffer with those pieces written. -/
noncomputable def kernelRun1_B (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : ¬cond1_0 i)
    (x0 : Vec F S1x512x2048 .f32) (x1 : Vec F S1x2048x128 .f32) (x2 : Vec F S128x128 .f32) (x3 : Vec F S1x512x1 .f32) (x4 : Vec F S1x512x1 .f32) (xs0 : Vec F S2048x128 .bf16) :
    { L5 : List (View.Piece (Elt F) S1x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs0) -∗ K ⟨⟩))
          ⊢ wp frame (wpE (defs₀ (F := F)) Variants.none c none) E (cc1__fused_kernel i arg2 harg2 arg3 harg3 arg4 harg4 arg5 harg5 arg6 harg6 arg7 harg7 arg8 harg8) K } := by
  refine ⟨?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.KernelIdeal.Agg

end
-- ==== Proof.AggFrame.lean ====
/-
  The frame half of the program's second region (the aggregation kernel on its 8 × 4 grid), at the buffer contents
  `V` the region is entered with: what the output's staging buffer and the hidden-layer scratch hold after the body at
  each point (`outsAt1`, a pair: the output block, then the scratch) — at a batch's first row tile the scratch is stored
  whole from whatever it held, at the batch's later tiles it stays as the tile before left it —; the invariant that
  tracks the scratch from point to point (`PhiS`); the pipeline's proof data (`dat1`); the body obligation; and that
  the invariant begins as, and ends in, the class's (the scratch at anything).
-/
import proofs.«129983_j84911503442515_2_alg».proof.Proof.AggRunB

-- membership in a rectangle of the kernel's extents recurses once per coordinate of the long axes
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## The scoped buffers this region leaves alone -/

/-- The first region's eight staging buffers, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scoped rest is those eight beside the statement of the scratch (the conjunction re-associated). -/
theorem rest1_eq (c : Dev nD) (P : sProp 𝕄) : rest1 c P = iprop(others1 (F := F) c ∗ P) := by
  have h₁ : rest1 c P ⊢ iprop(others1 (F := F) c ∗ P) := by
    unfold rest1 others1
    iintro ⟨H1, H2, H3, H4, H5, H6, H7, H8, HP⟩
    isplitl [H1 H2 H3 H4 H5 H6 H7 H8]
    swap; · iexact HP
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h₂ : iprop(others1 (F := F) c ∗ P) ⊢ rest1 c P := by
    unfold rest1 others1
    iintro ⟨⟨H1, H2, H3, H4, H5, H6, H7, H8⟩, HP⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HP
  exact BI.equiv_iff.mp ⟨h₁, h₂⟩

/-! ## What each case leaves -/

/-- At a batch's first row tile the body's pieces for the output tile its block (one whole store), so they cover it. -/
theorem cover1_A_5 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) (y : S1x512x128.Idx) :
    ∃ pc ∈ (kernelRun1_A c i arg2 harg2 arg3 harg3 arg4 harg4 arg5 harg5 arg6 harg6 arg7 harg7 arg8 harg8 hc0 x0 x1 x2 x3 x4).1, y ∈ pc.1.set :=
  View.cover_of_tiledL (kernelRun1_A c i arg2 harg2 arg3 harg3 arg4 harg4 arg5 harg5 arg6 harg6 arg7 harg7 arg8 harg8 hc0 x0 x1 x2 x3 x4).1 S1x512x128.size (by sl_kernel_rfl) y

/-- What that case leaves in the output's staging buffer: its pieces read back. -/
def out1_A_5 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) : Vec F S1x512x128 .f32 :=
  VO1_5.read (Elt F) (VO1_5.writes (Elt F) VO1_5.junk (kernelRun1_A c i arg2 harg2 arg3 harg3 arg4 harg4 arg5 harg5 arg6 harg6 arg7 harg7 arg8 harg8 hc0 x0 x1 x2 x3 x4).1)

/-- At a batch's first row tile the body's pieces for the scratch tile it (one whole store), so they cover it. -/
theorem scover1_A_0 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) (y : S2048x128.Idx) :
    ∃ pc ∈ (kernelRun1_A c i arg2 harg2 arg3 harg3 arg4 harg4 arg5 harg5 arg6 harg6 arg7 harg7 arg8 harg8 hc0 x0 x1 x2 x3 x4).2.1, y ∈ pc.1.set :=
  View.cover_of_tiledL (kernelRun1_A c i arg2 harg2 arg3 harg3 arg4 harg4 arg5 harg5 arg6 harg6 arg7 harg7 arg8 harg8 hc0 x0 x1 x2 x3 x4).2.1 S2048x128.size (by sl_kernel_rfl) y

/-- What that case leaves in the scratch: its pieces read back. -/
def sout1_A_0 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) : Vec F S2048x128 .bf16 :=
  VS1_0.read (Elt F) (VS1_0.writes (Elt F) VS1_0.junk (kernelRun1_A c i arg2 harg2 arg3 harg3 arg4 harg4 arg5 harg5 arg6 harg6 arg7 harg7 arg8 harg8 hc0 x0 x1 x2 x3 x4).2.1)

/-- At a later row tile of a batch the body's pieces for the output tile its block (one whole store), so they cover it. -/
theorem cover1_B_5 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : ¬cond1_0 i)
    (x0 : Vec F S1x512x2048 .f32) (x1 : Vec F S1x2048x128 .f32) (x2 : Vec F S128x128 .f32) (x3 : Vec F S1x512x1 .f32) (x4 : Vec F S1x512x1 .f32) (xs0 : Vec F S2048x128 .bf16) (y : S1x512x128.Idx) :
    ∃ pc ∈ (kernelRun1_B c i arg2 harg2 arg3 harg3 arg4 harg4 arg5 harg5 arg6 harg6 arg7 harg7 arg8 harg8 hc0 x0 x1 x2 x3 x4 xs0).1, y ∈ pc.1.set :=
  View.cover_of_tiledL (kernelRun1_B c i arg2 harg2 arg3 harg3 arg4 harg4 arg5 harg5 arg6 harg6 arg7 harg7 arg8 harg8 hc0 x0 x1 x2 x3 x4 xs0).1 S1x512x128.size (by sl_kernel_rfl) y

/-- What that case leaves in the output's staging buffer: its pieces read back. -/
def out1_B_5 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : ¬cond1_0 i)
    (x0 : Vec F S1x512x2048 .f32) (x1 : Vec F S1x2048x128 .f32) (x2 : Vec F S128x128 .f32) (x3 : Vec F S1x512x1 .f32) (x4 : Vec F S1x512x1 .f32) (xs0 : Vec F S2048x128 .bf16) : Vec F S1x512x128 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 x3 x4 xs0).1)

/-! ## What the output block and the scratch hold after each point -/

/-- After the body at a batch's first row tile `t`: the output block and the scratch as that case leaves them, run at
    the point's memrefs and input blocks. Nothing here depends on what the scratch held before. -/
def ptA (c : Dev nD) (t : Fin cfg1.N) (h0 : t.val % 4 = 0) : Vec F S1x512x128 .f32 × Vec F S2048x128 .bf16 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t))

/-- After the body at a later row tile `t` of a batch, the scratch holding `xs0` before: the output block as that case
    leaves it from the point's input blocks and `xs0`, and the scratch still at `xs0`. -/
def ptB (c : Dev nD) (t : Fin cfg1.N) (h0 : ¬t.val % 4 = 0) (xs0 : Vec F S2048x128 .bf16) : Vec F S1x512x128 .f32 × Vec F S2048x128 .bf16 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) xs0, xs0)

/-- THE ACCUMULATION. What the output's staging buffer and the scratch hold after the body at position `n`: the case the
    closed form selects at `n`, a later tile reading the scratch at what position `n - 1` left in it. -/
def outsAt1 (c : Dev nD) : (n : ℕ) → n < cfg1.N → Vec F S1x512x128 .f32 × Vec F S2048x128 .bf16
  | 0, hn => ptA V c ⟨0, hn⟩ (Nat.zero_mod _)
  | n + 1, hn =>
    if h0 : (n + 1) % 4 = 0 then ptA V c ⟨n + 1, hn⟩ h0
    else ptB V c ⟨n + 1, hn⟩ h0 (outsAt1 c n (Nat.lt_of_succ_lt hn)).2

/-- `outsAt1` at a batch's first row tile: that case's contents. -/
theorem outsAt1_A (c : Dev nD) (t : Fin cfg1.N) (h0 : t.val % 4 = 0) : outsAt1 V c t.val t.isLt = ptA V c t h0 := by
  obtain ⟨n, hn⟩ := t
  cases n with
  | zero => exact rfl
  | succ n => exact (dif_pos h0).trans rfl

/-- `outsAt1` at a later row tile: that case's contents, over what the point before left in the scratch. -/
theorem outsAt1_B (c : Dev nD) (t : Fin cfg1.N) (h0 : ¬t.val % 4 = 0) :
    outsAt1 V c t.val t.isLt = ptB V c t h0 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant -/

/-- The region invariant before position `n`: before the first point the class's (the scratch at anything — it may
    hold whatever an earlier launch left); afterwards the scoped rest with the scratch at what the point before left in
    it, and the generator register at some state. -/
def PhiS (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch at that point's contents. -/
theorem PhiS_succ (c : Dev nD) (n : ℕ) (hn : n < cfg1.N) :
    PhiS V c (n + 1) hn = iprop(rest1 c (owns (c : Thread nD τ) scM1_0 fullShare ((outsAt1 V c n hn).2)) ∗ (∃ r, prngReg c r)) := rfl

/-- Before a point that is not the first: the scratch at what the point before left. -/
theorem PhiS_pos (c : Dev nD) (n : ℕ) (h : n ≤ cfg1.N) (hz : n ≠ 0) :
    PhiS V c n h = iprop(rest1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point. The inputs' memrefs hold their blocks; the closed form says which case the point is in. At a
    batch's first row tile the run starts from the scratch at ANY contents — at the very first point the class invariant's,
    later what the previous batch's last tile left — and the invariant takes the scratch back at what the case stored
    (its pieces cover it). At a later tile the run reads the scratch at what the point before left and hands it back
    unchanged. The other scoped buffers, the generator register and the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5]
  by_cases h0 : t.val % 4 = 0
  · rw [outsAt1_A V c t h0]
    unfold ptA out1_A_5 sout1_A_0; (try dsimp only)
    by_cases hz : t.val = 0
    · rw [PhiS_castSucc V c t, PhiS_zero V c _ _ hz, PhiA1_eq]; simp only [rest1_eq]
      iintro ⟨⟨⟨HR, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _)
    · rw [PhiS_castSucc V c t, PhiS_pos V c _ _ hz]; simp only [rest1_eq]
      iintro ⟨⟨⟨HR, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _)
  · have hz : t.val ≠ 0 := fun e => h0 (by rw [e])
    rw [outsAt1_B V c t h0]
    unfold ptB out1_B_5; (try dsimp only)
    rw [PhiS_castSucc V c t, PhiS_pos V c _ _ hz]; simp only [rest1_eq]
    iintro ⟨⟨⟨HR, HS0⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HR HS0 Hg]
    · isplitl [HR HS0]
      · isplitl [HR]; · iexact HR
        iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _)

/-- The library's body obligation, at every point (the configuration states no idle point, so each window's buffer is
    taken back at what the body leaves in it). -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; simp only [rest1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

/-- The data holds full shares and owes nothing: the two side conditions of the run, checked here. -/
example (c : Dev nD) := (dat1 V c).share_full fun _ => rfl
example : ∀ (c : Dev nD) t, (dat1 V c).owed t = 0 := fun _ _ => rfl

end Cert.KernelIdeal.Agg

end
-- ==== Proof.Run.lean ====
/-
  The whole run of the program, from the launch to the return, over the two regions' halves.

  The program is: region 0 (row sums, column sums and the diagonal of the adjacency), five stretches of host
  operations (the degree bookkeeping), region 1 (the aggregation). Between two items every unscoped buffer of the
  core is held whole at contents that are a fold from the launch memory: a region replaces its windows' arrays by
  what its write-backs leave, a stretch of host operations applies its operations in order. What a region's kernel
  does at a grid point is that region's half (its proof data and body obligation, stated at the contents the region
  is entered from); this module takes the two halves as parameters and composes them, so that the final memory is
  the last fold at every unscoped buffer.
-/
import proofs.«129983_j84911503442515_2_alg».proof.Proof.Gen.KernelIdeal.Launch
import proofs.«129983_j84911503442515_2_alg».proof.Proof.Gen.KernelIdeal.Skeleton
import proofs.«129983_j84911503442515_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffer contents, read at its references. -/
abbrev Contents (F : FTy → Type) [FloatOps F] : Type :=
  (c : Dev nD) → (b : Ref sig .tc) → Buf (Elt F) ((c : Thread nD τ).loc b)

/-- Region 0's half: its proof data at any entry contents, with the body obligation; nothing owed, full shares,
    and the class's invariant in and out. -/
structure Half0 (F : FTy → Type) [FloatOps F] where
  dat : Contents F → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- Region 1's half, likewise. -/
structure Half1 (F : FTy → Type) [FloatOps F] where
  dat : Contents F → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (h0 : Half0 F) (h1 : Half1 F)
variable (m : (ℓ : Loc nD τ sig) → Buf (Elt F) ℓ) (ρ : Dev nD → PrngReg)

/-! ## The buffer contents at each boundary: a fold through the program -/

/-- Core `c`'s buffers at launch (region 0's entry). -/
abbrev W0 : Dev nD → Valuation τ sig (Elt F) := fun c b => (s₀ m ρ).mem ((c : Dev nD), b)
abbrev V0 : Contents F := fun c b => W0 m ρ c b
/-- At region 0's exit: its arrays at what the write-backs leave, every other buffer as entered. -/
def W1 (c : Dev nD) : Valuation τ sig (Elt F) :=
  Pipeline.withArrays spec0 c (W0 m ρ c) fun w => (h0.dat (V0 m ρ) c).arrAt w cfg0.N
theorem W1_arr (c : Dev nD) (w : Fin cfg0.W) :
    W1 h0 m ρ c (Proc.devRef .tc (Pipeline.arrRef spec0 w)) = (h0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 h0 m ρ c (Proc.devRef .tc b) = W0 m ρ c (Proc.devRef .tc b) := by
  unfold W1; exact Pipeline.withArrays_of_ne spec0 c _ _ b hb
abbrev V1 : Contents F := fun c b => W1 h0 m ρ c b
theorem hF0 (c : Dev nD) (w : Fin cfg0.W) : (h0.dat (V0 m ρ) c).arrAt w cfg0.N = V1 h0 m ρ c (Pipeline.arrRef spec0 w) :=
  (W1_arr h0 m ρ c w).symm
theorem hrest0 (c : Dev nD) : ∀ b, b ∉ Finset.univ.image (Pipeline.arrRef spec0) → V1 h0 m ρ c b = V0 m ρ c b :=
  fun b hb => W1_of_ne h0 m ρ c b fun w e => hb (Finset.mem_image.mpr ⟨w, Finset.mem_univ _, e⟩)

/-- After each stretch of host operations. -/
abbrev W2 : Dev nD → Valuation τ sig (Elt F) := fun c => StableHlo.after hostOps1 (W1 h0 m ρ c)
abbrev W3 : Dev nD → Valuation τ sig (Elt F) := fun c => StableHlo.after hostOps1_1 (W2 h0 m ρ c)
abbrev W4 : Dev nD → Valuation τ sig (Elt F) := fun c => StableHlo.after hostOps1_2 (W3 h0 m ρ c)
abbrev W5 : Dev nD → Valuation τ sig (Elt F) := fun c => StableHlo.after hostOps1_3 (W4 h0 m ρ c)
abbrev W6 : Dev nD → Valuation τ sig (Elt F) := fun c => StableHlo.after hostOps1_4 (W5 h0 m ρ c)
/-- Region 1's entry contents read at the references. -/
abbrev V6 : Contents F := fun c b => W6 h0 m ρ c b
/-- At region 1's exit. -/
def W7 (c : Dev nD) : Valuation τ sig (Elt F) :=
  Pipeline.withArrays spec1 c (W6 h0 m ρ c) fun w => (h1.dat (V6 h0 m ρ) c).arrAt w cfg1.N
theorem W7_arr (c : Dev nD) (w : Fin cfg1.W) :
    W7 h0 h1 m ρ c (Proc.devRef .tc (Pipeline.arrRef spec1 w)) = (h1.dat (V6 h0 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 h0 h1 m ρ c (Proc.devRef .tc b) = W6 h0 m ρ c (Proc.devRef .tc b) := by
  unfold W7; exact Pipeline.withArrays_of_ne spec1 c _ _ b hb
abbrev V7 : Contents F := fun c b => W7 h0 h1 m ρ c b
theorem hF1 (c : Dev nD) (w : Fin cfg1.W) : (h1.dat (V6 h0 m ρ) c).arrAt w cfg1.N = V7 h0 h1 m ρ c (Pipeline.arrRef spec1 w) :=
  (W7_arr h0 h1 m ρ c w).symm
theorem hrest1 (c : Dev nD) : ∀ b, b ∉ Finset.univ.image (Pipeline.arrRef spec1) → V7 h0 h1 m ρ c b = V6 h0 m ρ c b :=
  fun b hb => W7_of_ne h0 h1 m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => h0.dat (V0 m ρ) c
  | ⟨1, _⟩ => fun c => h1.dat (V6 h0 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 h0 h1 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats h0 h1 m ρ) () defs₀ 𝒱₀ L lv 0 where
  win := launch0.win.to₀
  block_pos := launch0.block_pos
  stage_whole := launch0.stage_whole
  K := PEmpty
  osem k := k.elim
  ho := Pipeline.OwnSemFacts.none _
  hbody c := (h0.hbody (V0 m ρ) c).loose
  hwaits := Pipeline.hwaits_of_owed_zero _ _ _ _ L lv 0 fun c t => h0.howed (V0 m ρ) c t
  pre c := iprop(StableHlo.held (c : Thread nD τ) (Pipeline.ucRefs τ sig) (W0 m ρ c) ∗ R c)
  post c := iprop(StableHlo.held (c : Thread nD τ) (Pipeline.ucRefs τ sig) (W1 h0 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats h0 h1 m ρ) launch0.win launch0.arr_whole c
      ((pdats h0 h1 m ρ 0 c).share_full fun w => h0.hq (V0 m ρ) c w) (V0 m ρ c) fun w => h0.hA (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 m ρ 0 c).owed 0 = 0 from h0.howed (V0 m ρ) c 0]
      icases HO with ⟨%W, HO⟩; iexists W; isplitr
      · ipureintro; exact fun _ _ => Or.inl ((h0.hrec (V0 m ρ) c 0).symm ▸ Set.mem_univ _)
      iexact HO
    isplitl [Hp]; · iexact Hp
    iexact Hrest
  hin c := by
    have e : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact e.trans (h0.hin (V0 m ρ) c)
  hout c := by
    rw [Pipeline.ownSems0_none]
    have e : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (h0.hout (V0 m ρ) c).trans e
  hexit c := by
    have hjoin := Pipeline.unscopedBufs_of_arrays (p := 0) (pcfgs (F := F)) adm (Ix := Unit) (Name := ℕ) (U := UR sig nD τ) (Lvl := ℕ)
      launch0.win launch0.arr_whole c (pdats h0 h1 m ρ) ((pdats h0 h1 m ρ 0 c).share_full fun w => h0.hq (V0 m ρ) c w)
      (V0 m ρ c) (V1 h0 m ρ c) ((pdats h0 h1 m ρ 0 c).arrAt · cfg0.N) (hF0 h0 m ρ c) (hrest0 h0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 m ρ 0 c).owed (Fin.last _) = 0 from h0.howed (V0 m ρ) c _]
    icases HO with ⟨%W, -, HO⟩; iexists W; iexact HO

set_option backward.isDefEq.respectTransparency.types false in
/-- Region 1 over the thread state: entered from every unscoped buffer at `W6`, left at `W7`. -/
def reg1 : Pipeline.RegionSeg (pcfgs (F := F)) adm (pdats h0 h1 m ρ) () defs₀ 𝒱₀ L lv 1 where
  win := launch1.win.to₀
  block_pos := launch1.block_pos
  stage_whole := launch1.stage_whole
  K := PEmpty
  osem k := k.elim
  ho := Pipeline.OwnSemFacts.none _
  hbody c := (h1.hbody (V6 h0 m ρ) c).loose
  hwaits := Pipeline.hwaits_of_owed_zero _ _ _ _ L lv 1 fun c t => h1.howed (V6 h0 m ρ) c t
  pre c := iprop(StableHlo.held (c : Thread nD τ) (Pipeline.ucRefs τ sig) (W6 h0 m ρ c) ∗ R c)
  post c := iprop(Tₙ h0 h1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 h0 m ρ c)
  hentry c := by
    rw [Pipeline.ownSems0_none]
    have hsplit := Pipeline.arrays_of_unscopedBufs (p := 1) (pcfgs (F := F)) adm (pdats h0 h1 m ρ) launch1.win launch1.arr_whole c
      ((pdats h0 h1 m ρ 1 c).share_full fun w => h1.hq (V6 h0 m ρ) c w) (V6 h0 m ρ c) fun w => h1.hA (V6 h0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 m ρ 1 c).owed 0 = 0 from h1.howed (V6 h0 m ρ) c 0]
      icases HO with ⟨%W, HO⟩; iexists W; isplitr
      · ipureintro; exact fun _ _ => Or.inl ((h1.hrec (V6 h0 m ρ) c 0).symm ▸ Set.mem_univ _)
      iexact HO
    isplitl [Hp]; · iexact Hp
    iexact Hrest
  hin c := by
    have e : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact e.trans (h1.hin (V6 h0 m ρ) c)
  hout c := by
    rw [Pipeline.ownSems0_none]
    have e : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (h1.hout (V6 h0 m ρ) c).trans e
  hexit c := by
    have hjoin := Pipeline.unscopedBufs_of_arrays (p := 1) (pcfgs (F := F)) adm (Ix := Unit) (Name := ℕ) (U := UR sig nD τ) (Lvl := ℕ)
      launch1.win launch1.arr_whole c (pdats h0 h1 m ρ) ((pdats h0 h1 m ρ 1 c).share_full fun w => h1.hq (V6 h0 m ρ) c w)
      (V6 h0 m ρ c) (V7 h0 h1 m ρ c) ((pdats h0 h1 m ρ 1 c).arrAt · cfg1.N) (hF1 h0 h1 m ρ c) (hrest1 h0 h1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats h0 h1 m ρ 1 c).owed (Fin.last _) = 0 from h1.howed (V6 h0 m ρ) c _]
    icases HO with ⟨%W, -, HO⟩; iexists W; iexact HO

/-! ## The program as segments, and the launch -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program's seven items in order. -/
abbrev segs : List (Pipeline.Seg (pcfgs (F := F)) adm (pdats h0 h1 m ρ) () defs₀ 𝒱₀ L lv) :=
  [ .region (reg0 h0 h1 m ρ),
    .host (hseg hostOps1 hostOps1_sub hostOps1_fresh (W1 h0 m ρ)),
    .host (hseg hostOps1_1 hostOps1_1_sub hostOps1_1_fresh (W2 h0 m ρ)),
    .host (hseg hostOps1_2 hostOps1_2_sub hostOps1_2_fresh (W3 h0 m ρ)),
    .host (hseg hostOps1_3 hostOps1_3_sub hostOps1_3_fresh (W4 h0 m ρ)),
    .host (hseg hostOps1_4 hostOps1_4_sub hostOps1_4_fresh (W5 h0 m ρ)),
    .region (reg1 h0 h1 m ρ) ]
theorem main_run (c : Dev nD) : main (F := F) c = Pipeline.Seg.run (segs h0 h1 m ρ) := (main_chain c).trans (by chain_rfl)

set_option backward.isDefEq.respectTransparency.types false in
/-- THE RUN: from any memory with zero counters every weakly fair execution terminates, nothing faulting, and the
    final memory holds every unscoped buffer at the last fold `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 h0 h1 m ρ c b) :=
  Pipeline.θ_run_regions_kit (pcfgs (F := F)) adm (pdats h0 h1 m ρ) () cellOf_inj emb₁ defs₀ 𝒱₀ L lv m ρ main (segs h0 h1 m ρ)
    (fun c Q => by rw [main_run h0 h1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ h0 h1 m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 h0 h1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 h0 h1 m ρ c) s')
      isplitl [Hh] <;> iassumption)
    (hQ := fun s h c => h c)

end Cert.KernelIdeal.Run

end
-- ==== Proof.Spec.lean ====
/-
  The mathematics both programs compute, stated once over the extended reals, index by index.

  For a batch `b`, an adjacency `A b : 2048 × 2048`, features `x b : 2048 × 128` and weights `W : 128 × 128`:
  the hidden layer `h b j e = leaky (∑ k, x b j k · W e k)`; the degree normalisation replaces the diagonal of
  `A b` by `1` on the rows whose symmetrised row sum is nonzero, scales each row by the reciprocal of its new row
  sum (zero where that sum vanishes), and the result is the normalised adjacency applied to `h`.

  One program forms the replaced matrix and sums its rows (`…R` below); the other keeps `A` as it is and
  corrects the diagonal term afterwards from the row sums, column sums and diagonal of `A` (`…K` below).
-/
import Idealize.ShloMosaic.PureOps.Ideal
import Idealize.ShloMosaic.Lib.ValueIdx

noncomputable section

namespace Cert.GraphConv

open Idealize.ShloMosaic Idealize.ShloMosaic.ValueIdx

/-- The arrays' index types, by their literal extents. -/
abbrev IA : Type := (⟨3, ![8, 2048, 2048]⟩ : Shape).Idx
abbrev IX : Type := (⟨3, ![8, 2048, 128]⟩ : Shape).Idx
abbrev IW : Type := (⟨2, ![128, 128]⟩ : Shape).Idx

/-- The leaky rectifier's slope, the binary32 word both programs splat. -/
def slope : EReal := Ideal.ofBits .f32 0x3C23D70A#32

/-- `v` where `0 ≤ v`, `slope · v` elsewhere. -/
def leaky (v : EReal) : EReal := if (0 : EReal) ≤ v then v else slope * v

/-- The hidden layer: the rectified product of a row of features with a row of weights. -/
def hid (x : IX → EReal) (W : IW → EReal) (b : Fin 8) (j : Fin 2048) (e : Fin 128) : EReal :=
  leaky (∑ k : Fin 128, x (ix3 b j k) * W (ix2 e k))

/-- The reciprocal of a degree, zero where the degree vanishes. -/
def recip (d : EReal) : EReal := if d ≠ 0 then Ideal.div 1 d else 0

/-! ## The side that corrects the diagonal afterwards -/

def rowSum (A : IA → EReal) (b : Fin 8) (i : Fin 2048) : EReal := ∑ j : Fin 2048, A (ix3 b i j)
def colSum (A : IA → EReal) (b : Fin 8) (i : Fin 2048) : EReal := ∑ j : Fin 2048, A (ix3 b j i)
def diagOf (A : IA → EReal) (b : Fin 8) (i : Fin 2048) : EReal := A (ix3 b i i)

/-- The new diagonal entry from a row sum, a column sum and the old diagonal entry. -/
def newDiagK (rs cs dg : EReal) : EReal := if rs + cs ≠ 0 then 1 else dg
/-- The degree: the row sum with the old diagonal entry exchanged for the new one. -/
def degK (rs cs dg : EReal) : EReal := (rs - dg) + newDiagK rs cs dg
def dinvK (rs cs dg : EReal) : EReal := recip (degK rs cs dg)
/-- The coefficient of the diagonal correction. -/
def coefK (rs cs dg : EReal) : EReal := dinvK rs cs dg * newDiagK rs cs dg - dinvK rs cs dg * dg

/-- A row of the scaled, uncorrected adjacency applied to the hidden layer, plus the diagonal correction. -/
def aggK (dinv coef : Fin 8 → Fin 2048 → EReal) (A : IA → EReal) (h : Fin 8 → Fin 2048 → Fin 128 → EReal)
    (b : Fin 8) (i : Fin 2048) (e : Fin 128) : EReal :=
  (∑ j : Fin 2048, (dinv b i * A (ix3 b i j)) * h b j e) + coef b i * h b i e

/-- The whole result on this side, from the argument arrays. -/
def outK (x : IX → EReal) (A : IA → EReal) (W : IW → EReal) (b : Fin 8) (i : Fin 2048) (e : Fin 128) : EReal :=
  aggK (fun b i => dinvK (rowSum A b i) (colSum A b i) (diagOf A b i))
    (fun b i => coefK (rowSum A b i) (colSum A b i) (diagOf A b i)) A (hid x W) b i e

/-! ## The side that replaces the diagonal first -/

/-- The new diagonal entry: `1` where the symmetrised row sum is nonzero. -/
def newDiagR (A : IA → EReal) (b : Fin 8) (i : Fin 2048) : EReal :=
  if (∑ j : Fin 2048, (A (ix3 b i j) + A (ix3 b j i))) ≠ 0 then 1 else A (ix3 b i i)
/-- The adjacency with its diagonal replaced. -/
def replaced (A : IA → EReal) (b : Fin 8) (i j : Fin 2048) : EReal :=
  if j = i then newDiagR A b i else A (ix3 b i j)
def degR (A : IA → EReal) (b : Fin 8) (i : Fin 2048) : EReal := ∑ j : Fin 2048, replaced A b i j
def dinvR (A : IA → EReal) (b : Fin 8) (i : Fin 2048) : EReal := recip (degR A b i)

/-- The whole result on this side, from the argument arrays. -/
def outR (x : IX → EReal) (A : IA → EReal) (W : IW → EReal) (b : Fin 8) (i : Fin 2048) (e : Fin 128) : EReal :=
  ∑ j : Fin 2048, (dinvR A b i * replaced A b i j) * hid x W b j e

end Cert.GraphConv

end
-- ==== Proof.HostChain.lean ====
/-
  The host operations between the two regions, as functions of what region 0 left.

  Region 0 leaves three arrays: the row sums and the diagonal as columns `[8, 2048, 1]`, the column sums as rows
  `[8, 1, 2048]`. The host operations drop the unit axes, form the new diagonal entry (`1` where row sum plus
  column sum is nonzero, else the old entry), the degree (row sum minus old entry plus new entry), its reciprocal
  (zero where the degree vanishes) and the coefficient of the diagonal correction, and put the unit axis back.
  Read at an index these are, entry by entry, the specification's `dinvK` and `coefK`.
-/
import proofs.«129983_j84911503442515_2_alg».proof.Proof.Run
import proofs.«129983_j84911503442515_2_alg».proof.Proof.Spec
import Idealize.ShloMosaic.Lib.IdealHost
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostChain

open Cert.KernelIdeal Cert.KernelIdeal.Gen Cert.KernelIdeal.Run Cert.GraphConv
open Idealize.ShloMosaic Idealize.ShloMosaic.TcCoe Idealize.ShloMosaic.ValueIdx Idealize.ShloMosaic.StableHlo

/-! ## The unit axes dropped and put back -/

section Layout
variable {α : Type}

/-- A column `[8, 2048, 1]` read as `[8, 2048]`. -/
theorem cast_col (x : (⟨3, ![8, 2048, 1]⟩ : Shape).Idx → α) (h : (⟨3, ![8, 2048, 1]⟩ : Shape).ShapeCasts ⟨2, ![8, 2048]⟩)
    (b : Fin 8) (i : Fin 2048) : shapeCast ⟨2, ![8, 2048]⟩ x h (ix2 b i) = x (ix3 b i (0 : Fin 1)) :=
  shapeCast_apply x h _ _ (by
    rw [Shape.rowMajor_val_three, Shape.rowMajor_val_two]
    show (b.val * 2048 + i.val) * 1 + 0 = b.val * 2048 + i.val
    omega)

/-- A row `[8, 1, 2048]` read as `[8, 2048]`. -/
theorem cast_row (x : (⟨3, ![8, 1, 2048]⟩ : Shape).Idx → α) (h : (⟨3, ![8, 1, 2048]⟩ : Shape).ShapeCasts ⟨2, ![8, 2048]⟩)
    (b : Fin 8) (i : Fin 2048) : shapeCast ⟨2, ![8, 2048]⟩ x h (ix2 b i) = x (ix3 b (0 : Fin 1) i) :=
  shapeCast_apply x h _ _ (by
    rw [Shape.rowMajor_val_three, Shape.rowMajor_val_two]
    show (b.val * 1 + 0) * 2048 + i.val = b.val * 2048 + i.val
    omega)

/-- `[8, 2048]` read as a column `[8, 2048, 1]`. -/
theorem cast_to_col (x : (⟨2, ![8, 2048]⟩ : Shape).Idx → α) (h : (⟨2, ![8, 2048]⟩ : Shape).ShapeCasts ⟨3, ![8, 2048, 1]⟩)
    (b : Fin 8) (i : Fin 2048) (u : Fin 1) : shapeCast ⟨3, ![8, 2048, 1]⟩ x h (ix3 b i u) = x (ix2 b i) :=
  shapeCast_apply x h _ _ (by
    have hu : u.val = 0 := by omega
    rw [Shape.rowMajor_val_three, Shape.rowMajor_val_two]
    show b.val * 2048 + i.val = (b.val * 2048 + i.val) * 1 + u.val
    omega)

end Layout

/-- A scalar splat over `[8, 2048]` reads the scalar everywhere. -/
theorem bcast_scalar {α : Type} (dims : Fin S_.rank → Fin S8x2048.rank) (h : S_.BroadcastsInDim S8x2048 dims) (x : S_.Idx → α)
    (j : S8x2048.Idx) : broadcastInDim S8x2048 dims h x j = x ix0 := by
  unfold broadcastInDim; exact congrArg x (funext fun a => a.elim0)

/-- The comparison at the exact instance is the order's. -/
theorem cmpf_ideal {φ : FTy} (p : CmpFPredicate) (x y : Ideal φ) : FloatOps.cmpf (F := Ideal) p x y = Ideal.cmp p x y := rfl

/-- A selection on "differs from". -/
theorem select_une (x y a b : EReal) : Scalar.select (Ideal.cmp .une x y) a b = if x ≠ y then a else b := by
  unfold Scalar.select Ideal.cmp
  by_cases h : x ≠ y <;> simp [h]

/-! ## The operations, composed -/

section Ops
variable {F : FTy → Type} [FloatOps F]

/-- The new diagonal entry, per row. -/
def newDiagV (rs3 dg3 : FVec F S8x2048x1 .f32) (cs3 : FVec F S8x1x2048 .f32) : FVec F S8x2048 .f32 :=
  select (cmpf .une (addf (shapeCast S8x2048 rs3 shapeCasts_S8x2048x1_S8x2048) (shapeCast S8x2048 cs3 shapeCasts_S8x1x2048_S8x2048))
      (broadcastInDim S8x2048 ![] bcast_S_S8x2048 (constant S_ .f32 0x00000000#32)))
    (broadcastInDim S8x2048 ![] bcast_S_S8x2048 (constant S_ .f32 0x3F800000#32))
    (shapeCast S8x2048 dg3 shapeCasts_S8x2048x1_S8x2048)

/-- The degree, per row. -/
def degV (rs3 dg3 : FVec F S8x2048x1 .f32) (cs3 : FVec F S8x1x2048 .f32) : FVec F S8x2048 .f32 :=
  addf (subf (shapeCast S8x2048 rs3 shapeCasts_S8x2048x1_S8x2048) (shapeCast S8x2048 dg3 shapeCasts_S8x2048x1_S8x2048))
    (newDiagV rs3 dg3 cs3)

/-- The reciprocal of the degree, zero where it vanishes. -/
def dinvV (rs3 dg3 : FVec F S8x2048x1 .f32) (cs3 : FVec F S8x1x2048 .f32) : FVec F S8x2048 .f32 :=
  select (cmpf .une (degV rs3 dg3 cs3) (broadcastInDim S8x2048 ![] bcast_S_S8x2048 (constant S_ .f32 0x00000000#32)))
    (Host.divf (broadcastInDim S8x2048 ![] bcast_S_S8x2048 (constant S_ .f32 0x3F800000#32)) (degV rs3 dg3 cs3))
    (broadcastInDim S8x2048 ![] bcast_S_S8x2048 (constant S_ .f32 0x00000000#32))

/-- The coefficient of the diagonal correction. -/
def coefV (rs3 dg3 : FVec F S8x2048x1 .f32) (cs3 : FVec F S8x1x2048 .f32) : FVec F S8x2048 .f32 :=
  subf (mulf (dinvV rs3 dg3 cs3) (newDiagV rs3 dg3 cs3))
    (mulf (dinvV rs3 dg3 cs3) (shapeCast S8x2048 dg3 shapeCasts_S8x2048x1_S8x2048))

end Ops

/-! ## Read at an index -/

theorem newDiagV_apply (rs3 dg3 : FVec Ideal S8x2048x1 .f32) (cs3 : FVec Ideal S8x1x2048 .f32) (b : Fin 8) (i : Fin 2048) :
    newDiagV rs3 dg3 cs3 (ix2 b i) = newDiagK (rs3 (ix3 b i 0)) (cs3 (ix3 b 0 i)) (dg3 (ix3 b i 0)) := by
  unfold newDiagV newDiagK
  simp only [select, cmpf, addf, cast_col, cast_row, bcast_scalar, constant, Ideal.ofBits_def,
    Ideal.ofBits_zero_f32, Ideal.ofBits_one_f32, Ideal.addf_def, cmpf_ideal, select_une]

theorem degV_apply (rs3 dg3 : FVec Ideal S8x2048x1 .f32) (cs3 : FVec Ideal S8x1x2048 .f32) (b : Fin 8) (i : Fin 2048) :
    degV rs3 dg3 cs3 (ix2 b i) = degK (rs3 (ix3 b i 0)) (cs3 (ix3 b 0 i)) (dg3 (ix3 b i 0)) := by
  unfold degV degK
  simp only [addf, subf, cast_col, Ideal.addf_def, Ideal.subf_def, newDiagV_apply]

theorem dinvV_apply (rs3 dg3 : FVec Ideal S8x2048x1 .f32) (cs3 : FVec Ideal S8x1x2048 .f32) (b : Fin 8) (i : Fin 2048) :
    dinvV rs3 dg3 cs3 (ix2 b i) = dinvK (rs3 (ix3 b i 0)) (cs3 (ix3 b 0 i)) (dg3 (ix3 b i 0)) := by
  unfold dinvV dinvK recip
  simp only [select, cmpf, hostDivf_apply, bcast_scalar, constant, Ideal.ofBits_def, Ideal.ofBits_zero_f32,
    Ideal.ofBits_one_f32, cmpf_ideal, select_une, degV_apply]

theorem coefV_apply (rs3 dg3 : FVec Ideal S8x2048x1 .f32) (cs3 : FVec Ideal S8x1x2048 .f32) (b : Fin 8) (i : Fin 2048) :
    coefV rs3 dg3 cs3 (ix2 b i) = coefK (rs3 (ix3 b i 0)) (cs3 (ix3 b 0 i)) (dg3 (ix3 b i 0)) := by
  unfold coefV coefK
  simp only [subf, mulf, Ideal.subf_def, Ideal.mulf_def, dinvV_apply, newDiagV_apply, cast_col]

/-! ## The fold through the host operations -/

section Reads
variable {F : FTy → Type} [FloatOps F] (h0 : Half0 F) (m : (ℓ : Loc nD τ sig) → Buf (Elt F) ℓ) (ρ : Dev nD → PrngReg) (c : Dev nD)

/-- Region 1's row factors are the reciprocal degrees of what region 0 left, as a column. -/
theorem W6_v18 : W6 h0 m ρ c (Proc.devRef .tc main_v18)
    = shapeCast S8x2048x1 (dinvV (W1 h0 m ρ c (Proc.devRef .tc main_v0_0)) (W1 h0 m ρ c (Proc.devRef .tc main_v0_1))
        (W1 h0 m ρ c (Proc.devRef .tc main_v0_2))) shapeCasts_S8x2048_S8x2048x1 := by
  after_results; rfl

set_option maxHeartbeats 1600000 in
/-- Region 1's correction coefficients, as a column. -/
theorem W6_v19 : W6 h0 m ρ c (Proc.devRef .tc main_v19)
    = shapeCast S8x2048x1 (coefV (W1 h0 m ρ c (Proc.devRef .tc main_v0_0)) (W1 h0 m ρ c (Proc.devRef .tc main_v0_1))
        (W1 h0 m ρ c (Proc.devRef .tc main_v0_2))) shapeCasts_S8x2048_S8x2048x1 := by
  after_results_simp; rfl

/-- No host operation writes an argument. -/
theorem W6_arg0 : W6 h0 m ρ c (Proc.devRef .tc main_arg0) = W1 h0 m ρ c (Proc.devRef .tc main_arg0) := by
  after_results
theorem W6_arg1 : W6 h0 m ρ c (Proc.devRef .tc main_arg1) = W1 h0 m ρ c (Proc.devRef .tc main_arg1) := by
  after_results
theorem W6_arg2 : W6 h0 m ρ c (Proc.devRef .tc main_arg2) = W1 h0 m ρ c (Proc.devRef .tc main_arg2) := by
  after_results

end Reads

end Cert.KernelIdeal.HostChain

end
-- ==== Proof.Frame.lean ====
/-
  The three argument arrays end as launched, at any instance of the floats.

  No host operation writes an argument, and a region touches one only through an input window, which the
  write-backs never change; so the fold of the buffers' contents through the program, read at an argument, walks
  back to the launch memory.
-/
import proofs.«129983_j84911503442515_2_alg».proof.Proof.HostChain

noncomputable section

namespace Cert.KernelIdeal.Frame

open Cert.KernelIdeal Cert.KernelIdeal.Gen Cert.KernelIdeal.Run Cert.KernelIdeal.HostChain
open Idealize.ShloMosaic Idealize.ShloMosaic.TcCoe Idealize.ShloMosaic.ValueIdx Idealize.ShloMosaic.StableHlo
open Idealize.SL.Sem
open Idealize.ShloMosaic.Pipeline (Dat)

/-! ## The arguments reach the end, and region 1, as launched (at any instance) -/

section Args
variable {F : FTy → Type} [FloatOps F] (h0 : Half0 F) (h1 : Half1 F)
variable (m : (ℓ : Loc nD τ sig) → Buf (Elt F) ℓ) (ρ : Dev nD → PrngReg) (c : Dev nD)

theorem W1_arg0 : W1 h0 m ρ c (Proc.devRef .tc main_arg0) = m ((c.tc : Thread nD τ).loc main_arg0) :=
  (W1_of_ne h0 m ρ c main_arg0 (by decide)).trans rfl
theorem W1_arg1 : W1 h0 m ρ c (Proc.devRef .tc main_arg1) = m ((c.tc : Thread nD τ).loc main_arg1) :=
  (W1_arr h0 m ρ c 0).trans (((h0.dat (V0 m ρ) c).arrAt_in 0 rfl _).trans ((h0.hA (V0 m ρ) c 0).trans rfl))
theorem W1_arg2 : W1 h0 m ρ c (Proc.devRef .tc main_arg2) = m ((c.tc : Thread nD τ).loc main_arg2) :=
  (W1_of_ne h0 m ρ c main_arg2 (by decide)).trans rfl

theorem V6_arg0 : V6 h0 m ρ c main_arg0 = m ((c.tc : Thread nD τ).loc main_arg0) := (W6_arg0 h0 m ρ c).trans (W1_arg0 h0 m ρ c)
theorem V6_arg1 : V6 h0 m ρ c main_arg1 = m ((c.tc : Thread nD τ).loc main_arg1) := (W6_arg1 h0 m ρ c).trans (W1_arg1 h0 m ρ c)
theorem V6_arg2 : V6 h0 m ρ c main_arg2 = m ((c.tc : Thread nD τ).loc main_arg2) := (W6_arg2 h0 m ρ c).trans (W1_arg2 h0 m ρ c)

theorem W7_arg0 : W7 h0 h1 m ρ c (Proc.devRef .tc main_arg0) = m ((c.tc : Thread nD τ).loc main_arg0) :=
  (W7_arr h0 h1 m ρ c 1).trans (((h1.dat (V6 h0 m ρ) c).arrAt_in 1 rfl _).trans ((h1.hA (V6 h0 m ρ) c 1).trans (V6_arg0 h0 m ρ c)))
theorem W7_arg1 : W7 h0 h1 m ρ c (Proc.devRef .tc main_arg1) = m ((c.tc : Thread nD τ).loc main_arg1) :=
  (W7_arr h0 h1 m ρ c 0).trans (((h1.dat (V6 h0 m ρ) c).arrAt_in 0 rfl _).trans ((h1.hA (V6 h0 m ρ) c 0).trans (V6_arg1 h0 m ρ c)))
theorem W7_arg2 : W7 h0 h1 m ρ c (Proc.devRef .tc main_arg2) = m ((c.tc : Thread nD τ).loc main_arg2) :=
  (W7_arr h0 h1 m ρ c 2).trans (((h1.dat (V6 h0 m ρ) c).arrAt_in 2 rfl _).trans ((h1.hA (V6 h0 m ρ) c 2).trans (V6_arg2 h0 m ρ c)))

include h0 h1 in
/-- THE FRAME at any instance: the run's post read at the three arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_arg0 h0 h1 m ρ c),
     (h c _ (mem_uc main_arg1 (by decide))).trans (W7_arg1 h0 h1 m ρ c),
     (h c _ (mem_uc main_arg2 (by decide))).trans (W7_arg2 h0 h1 m ρ c)⟩) (run_all h0 h1 m ρ)

end Args

end Cert.KernelIdeal.Frame

end
-- ==== Proof.Halves.lean ====
/-
  The two regions' halves put together: the run and the frame of the whole program, at any instance of the floats.
-/
import proofs.«129983_j84911503442515_2_alg».proof.Proof.SumsFrame
import proofs.«129983_j84911503442515_2_alg».proof.Proof.AggFrame
import proofs.«129983_j84911503442515_2_alg».proof.Proof.Frame

noncomputable section

namespace Cert.KernelIdeal.Halves

open Cert.KernelIdeal Cert.KernelIdeal.Gen Cert.KernelIdeal.Run
open Idealize.ShloMosaic Idealize.ShloMosaic.TcCoe Idealize.SL.Sem

variable {F : FTy → Type} [FloatOps F]

/-- Region 0's half: the sums kernel's proof data and body obligation. -/
def half0 : Half0 F where
  dat V c := Cert.KernelIdeal.Sums.dat0 V c
  hA V c w := Cert.KernelIdeal.Sums.A_eq0 V c w
  hq _ _ _ := rfl
  howed _ _ _ := rfl
  hrec _ _ _ := rfl
  hbody V c := Cert.KernelIdeal.Sums.body_obligation0 V c
  hin V c := Cert.KernelIdeal.Sums.hin0 V c
  hout V c := Cert.KernelIdeal.Sums.hout0 V c

/-- Region 1's half: the aggregation kernel's proof data and body obligation. -/
def half1 : Half1 F where
  dat V c := Cert.KernelIdeal.Agg.dat1 V c
  hA V c w := Cert.KernelIdeal.Agg.A_eq1 V c w
  hq _ _ _ := rfl
  howed _ _ _ := rfl
  hrec _ _ _ := rfl
  hbody V c := Cert.KernelIdeal.Agg.body_obligation1 V c
  hin V c := Cert.KernelIdeal.Agg.hin1 V c
  hout V c := Cert.KernelIdeal.Agg.hout1 V c

/-- The program runs to the end, faults nowhere, and leaves its three arguments as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.KernelIdeal.Frame.frame half0 half1 m ρ

end Cert.KernelIdeal.Halves

end
-- ==== Proof.WSumsRuns.lean ====
/-
  The sums kernel (row sums, column sums and the diagonal of the adjacency, one batch's four row tiles
  after another): what its two cases share.

  The kernel's body branches on the second grid coordinate: at a batch's first row tile the column-sum
  block is zeroed before the tile's column sums are added to it; at the other three tiles the block
  holds what the tile before left. Here: each window's block read off the arrays the region is entered
  with, the input window's staging contents at every point, the branch condition in closed form over
  the 32 grid points, and the names of the staging memrefs the body is called on.
-/
import proofs.«129983_j84911503442515_2_alg».proof.Proof.Gen.Kernel.Launch
import proofs.«129983_j84911503442515_2_alg».proof.Proof.Gen.Kernel.Skeleton
import proofs.«129983_j84911503442515_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Sums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point, for any proof data
    whose array is the entry contents and whose body leaves the block in place: the window is fetched at
    every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition -/

/-- The condition of the body's conditional: the second grid coordinate, as a 32-bit word, equals zero
    (the comparison, its zero extension, and the test of that against zero, as the body computes them). -/
abbrev cond0_0 (i : grid0.Coords) : Prop := (Scalar.cmpi .ne (Scalar.extui (Scalar.cmpi .eq (BitVec.ofNat 32 (i 1).val) 0#32)) 0#32) = 1#1
/-- It holds exactly at the first row tile of each batch: the points that are multiples of four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each output window, through which its contents are stated (the choice does not matter). -/
abbrev VO0_1 : View sig .tc .vmem S1x512x1 .f32 := (Memref.whole cc0_stg1_0 : Memref sig .tc .vmem S1x512x1 .f32).view
abbrev VO0_2 : View sig .tc .vmem S1x512x1 .f32 := (Memref.whole cc0_stg2_0 : Memref sig .tc .vmem S1x512x1 .f32).view
abbrev VO0_3 : View sig .tc .vmem S1x1x2048 .f32 := (Memref.whole cc0_stg3_0 : Memref sig .tc .vmem S1x1x2048 .f32).view
/-- Each window's current staging memref at point `t`, spelled as the pipeline passes it, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)

end Cert.Kernel.Sums

end
-- ==== Proof.WSumsRunA.lean ====
/-
  The sums kernel at a batch's first row tile (the conditional taken): the whole body run once.

  On whole staging memrefs — the adjacency block's at its contents, the three outputs' at anything — the
  body runs to a continuation that holds the adjacency block as it was and each output's buffer with a
  list of pieces written into it (the last store first). The lists are found by the run itself: the row
  sums' and the diagonal's one store each, the column sums' two (the zero block, then the zero block plus
  the tile's column sums).
-/
import proofs.«129983_j84911503442515_2_alg».proof.Proof.WSumsRuns

-- membership in a rectangle of these extents recurses once per coordinate of the long axes
set_option maxRecDepth 16384
set_option pp.maxSteps 5000
set_option pp.deepTerms false

noncomputable section

namespace Cert.Kernel.Sums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref when the conditional is taken, as pieces
    (last first), with the proof that the body runs to the continuation holding them. -/
noncomputable def kernelRun0_A (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) :
    Σ' (L1 : List (View.Piece (Elt F) S1x512x1 .f32)), Σ' (L2 : List (View.Piece (Elt F) S1x512x1 .f32)), { L3 : List (View.Piece (Elt F) S1x1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__sums_kernel i arg2 harg2 arg3 harg3 arg4 harg4 arg5 harg5) K } := by
  refine ⟨?_, ?_, ?_, fun E K => ?run⟩
  case run =>
    simp only [cc0__sums_kernel_eq_skeleton]; unfold cc0__sums_kernel_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    iexists _; iexact H3

end Cert.Kernel.Sums

end
-- ==== Proof.WSumsRunB.lean ====
/-
  The sums kernel at a batch's later row tiles (the conditional not taken): the whole body run once.

  As at the first tile, except that the column-sum block is read before it is covered: its staging
  memref is held at the running contents the tile before left, and the one store into it adds the
  tile's column sums to those contents.
-/
import proofs.«129983_j84911503442515_2_alg».proof.Proof.WSumsRunA

-- membership in a rectangle of these extents recurses once per coordinate of the long axes
set_option maxRecDepth 16384
set_option pp.maxSteps 5000
set_option pp.deepTerms false

noncomputable section

namespace Cert.Kernel.Sums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref when the conditional is not taken, as
    pieces (last first), the column-sum block entered at its running contents `xo3`, with the proof that
    the body runs to the continuation holding them. -/
noncomputable def kernelRun0_B (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) :
    Σ' (L1 : List (View.Piece (Elt F) S1x512x1 .f32)), Σ' (L2 : List (View.Piece (Elt F) S1x512x1 .f32)), { L3 : List (View.Piece (Elt F) S1x1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xo3
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__sums_kernel i arg2 harg2 arg3 harg3 arg4 harg4 arg5 harg5) K } := by
  refine ⟨?_, ?_, ?_, fun E K => ?run⟩
  case run =>
    simp only [cc0__sums_kernel_eq_skeleton]; unfold cc0__sums_kernel_skel
    simp only [k0_part1_eq_skeleton]
    unfold owns
    iintro ⟨⟨%f0, %hf0, H0⟩, ⟨%d1, %f1, -, H1⟩, ⟨%d2, %f2, -, H2⟩, ⟨%f3, %hf3, H3⟩, Hk⟩
    obtain rfl := harg2.eq_unread hf0; obtain rfl := harg5.eq_unread hf3
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    iexists _; iexact H3

end Cert.Kernel.Sums

end
-- ==== Proof.WSumsFrame.lean ====
/-
  The sums kernel's half of the frame, at the buffer contents `V` the region is entered with.

  Per case and output, the stores found by the run cover the output's block, so the block's contents
  after the body are those pieces read back. Point by point: the row-sum and diagonal blocks hold what
  the point's case leaves; the column-sum block is an accumulator — zeroed and added to at a batch's
  first row tile, added to at the other three over what the tile before left (its buffer is not written
  back in between: it is written back at the batch's last tile only). The proof data states these as
  what the body leaves, the invariant is the class's (the scoped rest and the generator register pass
  through unread), every share is full and nothing is owed. The body obligation follows by cases on the
  point's residue modulo four.
-/
import proofs.«129983_j84911503442515_2_alg».proof.Proof.WSumsRunB

-- membership in a rectangle of these extents recurses once per coordinate of the long axes
set_option maxRecDepth 16384
set_option pp.maxSteps 5000
set_option pp.deepTerms false

noncomputable section

namespace Cert.Kernel.Sums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## What each case leaves in each output -/

/-- At a first tile the stores into the row-sum block tile it, so they cover it. -/
theorem cover0_A_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) (y : S1x512x1.Idx) :
    ∃ pc ∈ (kernelRun0_A c i arg2 harg2 arg3 harg3 arg4 harg4 arg5 harg5 hc0 x0).1, y ∈ pc.1.set :=
  View.cover_of_tiledL (kernelRun0_A c i arg2 harg2 arg3 harg3 arg4 harg4 arg5 harg5 hc0 x0).1 S1x512x1.size (by sl_kernel_rfl) y

/-- What a first tile leaves in the row-sum block's staging buffer: its pieces read back over anything. -/
def out0_A_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) : Vec F S1x512x1 .f32 :=
  VO0_1.read (Elt F) (VO0_1.writes (Elt F) VO0_1.junk (kernelRun0_A c i arg2 harg2 arg3 harg3 arg4 harg4 arg5 harg5 hc0 x0).1)

/-- At a later tile the stores into the row-sum block tile it, so they cover it. -/
theorem cover0_B_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) (y : S1x512x1.Idx) :
    ∃ pc ∈ (kernelRun0_B c i arg2 harg2 arg3 harg3 arg4 harg4 arg5 harg5 hc0 x0 xo3).1, y ∈ pc.1.set :=
  View.cover_of_tiledL (kernelRun0_B c i arg2 harg2 arg3 harg3 arg4 harg4 arg5 harg5 hc0 x0 xo3).1 S1x512x1.size (by sl_kernel_rfl) y

/-- What a later tile leaves in the row-sum block's staging buffer: its pieces read back over anything. -/
def out0_B_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) : Vec F S1x512x1 .f32 :=
  VO0_1.read (Elt F) (VO0_1.writes (Elt F) VO0_1.junk (kernelRun0_B c i arg2 harg2 arg3 harg3 arg4 harg4 arg5 harg5 hc0 x0 xo3).1)

/-- At a first tile the stores into the diagonal block tile it, so they cover it. -/
theorem cover0_A_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) (y : S1x512x1.Idx) :
    ∃ pc ∈ (kernelRun0_A c i arg2 harg2 arg3 harg3 arg4 harg4 arg5 harg5 hc0 x0).2.1, y ∈ pc.1.set :=
  View.cover_of_tiledL (kernelRun0_A c i arg2 harg2 arg3 harg3 arg4 harg4 arg5 harg5 hc0 x0).2.1 S1x512x1.size (by sl_kernel_rfl) y

/-- What a first tile leaves in the diagonal block's staging buffer: its pieces read back over anything. -/
def out0_A_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) : Vec F S1x512x1 .f32 :=
  VO0_2.read (Elt F) (VO0_2.writes (Elt F) VO0_2.junk (kernelRun0_A c i arg2 harg2 arg3 harg3 arg4 harg4 arg5 harg5 hc0 x0).2.1)

/-- At a later tile the stores into the diagonal block tile it, so they cover it. -/
theorem cover0_B_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) (y : S1x512x1.Idx) :
    ∃ pc ∈ (kernelRun0_B c i arg2 harg2 arg3 harg3 arg4 harg4 arg5 harg5 hc0 x0 xo3).2.1, y ∈ pc.1.set :=
  View.cover_of_tiledL (kernelRun0_B c i arg2 harg2 arg3 harg3 arg4 harg4 arg5 harg5 hc0 x0 xo3).2.1 S1x512x1.size (by sl_kernel_rfl) y

/-- What a later tile leaves in the diagonal block's staging buffer: its pieces read back over anything. -/
def out0_B_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) : Vec F S1x512x1 .f32 :=
  VO0_2.read (Elt F) (VO0_2.writes (Elt F) VO0_2.junk (kernelRun0_B c i arg2 harg2 arg3 harg3 arg4 harg4 arg5 harg5 hc0 x0 xo3).2.1)

/-- At a first tile the stores into the column-sum block tile it, so they cover it. -/
theorem cover0_A_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) (y : S1x1x2048.Idx) :
    ∃ pc ∈ (kernelRun0_A c i arg2 harg2 arg3 harg3 arg4 harg4 arg5 harg5 hc0 x0).2.2.1, y ∈ pc.1.set :=
  View.cover_of_tiledL (kernelRun0_A c i arg2 harg2 arg3 harg3 arg4 harg4 arg5 harg5 hc0 x0).2.2.1 S1x1x2048.size (by sl_kernel_rfl) y

/-- What a first tile leaves in the column-sum block's staging buffer: its pieces read back over anything. -/
def out0_A_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x2048 .f32) : Vec F S1x1x2048 .f32 :=
  VO0_3.read (Elt F) (VO0_3.writes (Elt F) VO0_3.junk (kernelRun0_A c i arg2 harg2 arg3 harg3 arg4 harg4 arg5 harg5 hc0 x0).2.2.1)

/-- At a later tile the stores into the column-sum block tile it, so they cover it. -/
theorem cover0_B_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) (y : S1x1x2048.Idx) :
    ∃ pc ∈ (kernelRun0_B c i arg2 harg2 arg3 harg3 arg4 harg4 arg5 harg5 hc0 x0 xo3).2.2.1, y ∈ pc.1.set :=
  View.cover_of_tiledL (kernelRun0_B c i arg2 harg2 arg3 harg3 arg4 harg4 arg5 harg5 hc0 x0 xo3).2.2.1 S1x1x2048.size (by sl_kernel_rfl) y

/-- What a later tile leaves in the column-sum block's staging buffer: its pieces read back over anything. -/
def out0_B_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x2048 .f32) (xo3 : Vec F S1x1x2048 .f32) : Vec F S1x1x2048 .f32 :=
  VO0_3.read (Elt F) (VO0_3.writes (Elt F) VO0_3.junk (kernelRun0_B c i arg2 harg2 arg3 harg3 arg4 harg4 arg5 harg5 hc0 x0 xo3).2.2.1)

/-! ## What the outputs hold after each point -/

/-- THE ACCUMULATION. What the column-sum block's staging buffer holds after the body at position `n`: at a
    first tile the zero block plus the tile's column sums; at a later tile the tile's column sums added to
    what this leaves at `n - 1`. -/
def outsAt0 (c : Dev nD) : (n : ℕ) → n < cfg0.N → Vec F S1x1x2048 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩)
  | n + 1, hn =>
    if h0 : (n + 1) % 4 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (outsAt0 c n (Nat.lt_of_succ_lt hn))

/-- The accumulation at a first tile. -/
theorem outsAt0_A (c : Dev nD) (t : Fin cfg0.N) (h0 : t.val % 4 = 0) :
    outsAt0 V c t.val t.isLt = out0_A_3 c (grid0.coords t) (ms0_0 t) (hs0_0 t) (ms0_1 t) (hs0_1 t) (ms0_2 t) (hs0_2 t) (ms0_3 t) (hs0_3 t) ((hcond0_0 t).mpr h0) (iblk0 V c 0 t) := by
  obtain ⟨n, hn⟩ := t
  cases n with
  | zero => exact rfl
  | succ n => exact (dif_pos h0).trans rfl

/-- The accumulation at a later tile: over what the point before left. -/
theorem outsAt0_B (c : Dev nD) (t : Fin cfg0.N) (h0 : ¬t.val % 4 = 0) :
    outsAt0 V c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the row-sum block's staging buffer holds after the body at point `t`: the case the point is in, run at the
    point's memrefs and adjacency block (and, at a later tile, at the column sums the tile before left). -/
def out1At (c : Dev nD) (t : Fin cfg0.N) : Vec F S1x512x1 .f32 :=
  if h0 : t.val % 4 = 0 then
    out0_A_1 c (grid0.coords t) (ms0_0 t) (hs0_0 t) (ms0_1 t) (hs0_1 t) (ms0_2 t) (hs0_2 t) (ms0_3 t) (hs0_3 t) ((hcond0_0 t).mpr h0) (iblk0 V c 0 t)
  else
    out0_B_1 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt))

theorem out1At_A (c : Dev nD) (t : Fin cfg0.N) (h0 : t.val % 4 = 0) :
    out1At V c t = out0_A_1 c (grid0.coords t) (ms0_0 t) (hs0_0 t) (ms0_1 t) (hs0_1 t) (ms0_2 t) (hs0_2 t) (ms0_3 t) (hs0_3 t) ((hcond0_0 t).mpr h0) (iblk0 V c 0 t) := by
  unfold out1At; exact dif_pos h0

theorem out1At_B (c : Dev nD) (t : Fin cfg0.N) (h0 : ¬t.val % 4 = 0) :
    out1At V c t = out0_B_1 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt)) := by
  unfold out1At; exact dif_neg h0

/-- What the diagonal block's staging buffer holds after the body at point `t`: the case the point is in, run at the
    point's memrefs and adjacency block (and, at a later tile, at the column sums the tile before left). -/
def out2At (c : Dev nD) (t : Fin cfg0.N) : Vec F S1x512x1 .f32 :=
  if h0 : t.val % 4 = 0 then
    out0_A_2 c (grid0.coords t) (ms0_0 t) (hs0_0 t) (ms0_1 t) (hs0_1 t) (ms0_2 t) (hs0_2 t) (ms0_3 t) (hs0_3 t) ((hcond0_0 t).mpr h0) (iblk0 V c 0 t)
  else
    out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt))

theorem out2At_A (c : Dev nD) (t : Fin cfg0.N) (h0 : t.val % 4 = 0) :
    out2At V c t = out0_A_2 c (grid0.coords t) (ms0_0 t) (hs0_0 t) (ms0_1 t) (hs0_1 t) (ms0_2 t) (hs0_2 t) (ms0_3 t) (hs0_3 t) ((hcond0_0 t).mpr h0) (iblk0 V c 0 t) := by
  unfold out2At; exact dif_pos h0

theorem out2At_B (c : Dev nD) (t : Fin cfg0.N) (h0 : ¬t.val % 4 = 0) :
    out2At V c t = out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt)) := by
  unfold out2At; exact dif_neg h0

/-! ## The proof data -/

/-- The proof data of the sums pipeline on core `c`: the arrays as the region finds them; after the body at
    point `t` the adjacency block in place and each output's buffer at what its point leaves; the class's
    invariant; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out1At V c t
    | ⟨2, _⟩ => out2At V c t
    | ⟨3, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out1At V c t := by dsimp only [dat0]
theorem after0_2 (c : Dev nD) (t : Fin cfg0.N) : (dat0 V c).after 2 t = out2At V c t := by dsimp only [dat0]
theorem after0_3 (c : Dev nD) (t : Fin cfg0.N) : (dat0 V c).after 3 t = outsAt0 V c t.val t.isLt := by dsimp only [dat0]

/-- The adjacency window's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a later tile the column-sum window's current staging buffer holds what the body left at the point
    before: the point is not the first, the buffer was not written back in between (it is written back at
    the points ≡ 3 mod 4 only), and the window is live and uncut. -/
theorem before0_3_B (c : Dev nD) (t : Fin cfg0.N) (h0 : ¬t.val % 4 = 0) (d) :
    (dat0 V c).before 3 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the adjacency memref holds its block; the point's residue modulo four says
    which case it is in; at a later tile the column-sum memref holds what the point before left; so the
    case's run applies, and each output's pieces, covering its block, read back as stated. The invariant
    passes through unread and nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  have hN : t.val < 32 := lt_of_lt_of_eq t.isLt (show cfg0.N = 32 from N_0)
  by_cases h0 : t.val % 4 = 0
  · rw [outsAt0_A V c t h0, out1At_A V c t h0, out2At_A V c t h0]
    unfold out0_A_1 out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t)).2.2.2 Set.univ _)
    isplitl [H0]; · iexact H0
    isplitl [H1]; · iexists _; iexact H1
    isplitl [H2]; · iexists _; iexact H2
    isplitl [H3]; · iexists _; iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _)
    isplitl [H2]
    · unfold owns; iexists _; isplitr
      swap; · iexact H2
      ipureintro; exact View.read_writes_of_cover _ _ _ _ _ (cover0_A_2 c _ _ _ _ _ _ _ _ _ _ _)
    unfold owns; iexists _; isplitr
    swap; · iexact H3
    ipureintro; exact View.read_writes_of_cover _ _ _ _ _ (cover0_A_3 c _ _ _ _ _ _ _ _ _ _ _)
  · rw [outsAt0_B V c t h0, out1At_B V c t h0, out2At_B V c t h0]
    simp only [before0_3_B V c t h0]
    unfold out0_B_1 out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) _).2.2.2 Set.univ _)
    isplitl [H0]; · iexact H0
    isplitl [H1]; · iexists _; iexact H1
    isplitl [H2]; · iexists _; iexact H2
    isplitl [H3]; · iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _)
    isplitl [H2]
    · unfold owns; iexists _; isplitr
      swap; · iexact H2
      ipureintro; exact View.read_writes_of_cover _ _ _ _ _ (cover0_B_2 c _ _ _ _ _ _ _ _ _ _ _ _)
    unfold owns; iexists _; isplitr
    swap; · iexact H3
    ipureintro; exact View.read_writes_of_cover _ _ _ _ _ (cover0_B_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The invariant at the first point is the class's. -/
theorem hin0 (c : Dev nD) : Pipeline.ΦA spec0 c ⊢ (dat0 V c).Φ 0 := by
  rw [show (dat0 V c).Φ 0 = Pipeline.ΦA spec0 c from rfl]

/-- The invariant after the last point is the class's. -/
theorem hout0 (c : Dev nD) : (dat0 V c).Φ (Fin.last cfg0.N) ⊢ Pipeline.ΦA spec0 c := by
  rw [show (dat0 V c).Φ (Fin.last cfg0.N) = Pipeline.ΦA spec0 c from rfl]

/-- The shares are full and nothing is owed (the forms the region's assembly takes). -/
example (c : Dev nD) := (dat0 V c).share_full fun _ => rfl
example : ∀ (c : Dev nD) t, (dat0 V c).owed t = 0 := fun _ _ => rfl

end Cert.Kernel.Sums

end
-- ==== Proof.WAggRuns.lean ====
/-
  The second region of the program: the aggregation kernel on its 8 × 4 grid (a batch, a tile of 512 rows), at the
  buffer contents `V` the region is entered with. This module holds what the two whole-body runs and the frame half
  share: each window's block at a point, read off its array; that an input window's current staging buffer holds its
  block at every point (fetched there, or — its block index unmoved since — at an earlier point); the condition of the
  body's one conditional in closed form (taken exactly at the first row tile of a batch); the staging memrefs and the
  hidden-layer scratch as the pipeline passes them to the body; and the class invariant with that scratch singled out
  among the core's scoped buffers.
-/
import proofs.«129983_j84911503442515_2_alg».proof.Proof.Gen.Kernel.Launch
import proofs.«129983_j84911503442515_2_alg».proof.Proof.Gen.Kernel.Skeleton
import proofs.«129983_j84911503442515_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each of the five input windows (a tile of rows of `A`; the batch's features; the weights; the tile's reciprocal
    degrees; the tile's correction coefficients) holds its block in its current staging buffer at every point, for ANY
    proof data whose array is `V`'s and whose body leaves the block in place. The features are fetched only at a
    batch's first tile and the weights only at the first point: their block index does not move in between. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's conditional -/

/-- The condition of the body's one conditional, from the grid coordinates (the scalar chain on the row-tile
    coordinate substituted): "this is the batch's first row tile". -/
abbrev cond1_0 (i : grid1.Coords) : Prop := (Scalar.cmpi .ne (Scalar.extui (Scalar.cmpi .eq (BitVec.ofNat 32 (i 1).val) 0#32)) 0#32) = 1#1
/-- It holds at the points ≡ 0 (mod 4): decided over the 32 points of the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The memrefs the body is called with -/

/-- Each window's current staging memref at point `t`, as the pipeline passes it, and its wholeness. -/
abbrev ms1_0 (t : Fin cfg1.N) : Memref sig .tc .vmem S1x512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x128 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows; it holds the batch's
    hidden layer from the batch's first tile on. -/
abbrev scM1_0 : Memref sig .tc .vmem S2048x128 .bf16 := Memref.whole cc1_scratch0
/-- The same as a view: what the scratch holds is stated through it. -/
abbrev VS1_0 : View sig .tc .vmem S2048x128 .bf16 := scM1_0.view
/-- One staging buffer of the output window, through which its contents are stated (the choice does not matter). -/
abbrev VO1_5 : View sig .tc .vmem S1x512x128 .f32 := (Memref.whole cc1_stg5_0 : Memref sig .tc .vmem S1x512x128 .f32).view

/-! ## The invariant's shape -/

/-- The core's scoped buffers that are no staging buffer of this region — the first region's eight staging buffers,
    each at some contents, which this region never touches — around a statement `P` of the scratch. -/
def rest1 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ P)

/-- The class invariant with the scratch as a memref owned at some contents: what the body obligation hands a run
    at the first point and what the region gives back. -/
theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; try rfl

end Cert.Kernel.Agg

end
-- ==== Proof.WAggRunA.lean ====
/-
  The whole body of the aggregation kernel run at a point that is a batch's FIRST row tile (the conditional taken):
  the batch's features and the weights are read, the hidden layer — the rectified product, narrowed — is stored over
  the whole scratch, whatever the scratch held; then the tile of the adjacency, its reciprocal degrees and correction
  coefficients and the scratch just written are read, and the tile's result is stored over the whole output block.
  The run is found by symbolic execution of the body's skeleton; the stores it ends with, as pieces, are its witness.
-/
import proofs.«129983_j84911503442515_2_alg».proof.Proof.WAggRuns

-- membership in a rectangle of the kernel's extents recurses once per coordinate of the long axes
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the scratch, as pieces (last first), at a
    batch's first row tile, WITH the proof that on whole memrefs — the five inputs' at their contents, the output's and
    the scratch at anything — the body runs to the continuation holding the inputs' as they were and the output's
    buffer and the scratch with those pieces written. -/
noncomputable def kernelRun1_A (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) :
    Σ' (L5 : List (View.Piece (Elt F) S1x512x128 .f32)), { LS0 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7 arg8 harg8) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Agg

end
-- ==== Proof.WAggRunB.lean ====
/-
  The whole body of the aggregation kernel run at a point that is NOT a batch's first row tile (the conditional not
  taken): the tile of the adjacency, its reciprocal degrees and correction coefficients and the scratch — which holds
  what the batch's first tile stored — are read, and the tile's result is stored over the whole output block. The
  scratch is only read: it is handed back at the contents it was given.
-/
import proofs.«129983_j84911503442515_2_alg».proof.Proof.WAggRunA

-- membership in a rectangle of the kernel's extents recurses once per coordinate of the long axes
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref, as pieces (last first), at a later row tile of a
    batch, WITH the proof that on whole memrefs — the five inputs' at their contents, the scratch at the contents
    `xs0` the point before left, the output's at anything — the body runs to the continuation holding the inputs' and
    the scratch as they were and the output's buffer with those pieces written. -/
noncomputable def kernelRun1_B (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : ¬cond1_0 i)
    (x0 : Vec F S1x512x2048 .f32) (x1 : Vec F S1x2048x128 .f32) (x2 : Vec F S128x128 .f32) (x3 : Vec F S1x512x1 .f32) (x4 : Vec F S1x512x1 .f32) (xs0 : Vec F S2048x128 .bf16) :
    { L5 : List (View.Piece (Elt F) S1x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs0) -∗ K ⟨⟩))
          ⊢ wp frame (wpE (defs₀ (F := F)) Variants.none c none) E (cc1__fused_kernel i arg2 harg2 arg3 harg3 arg4 harg4 arg5 harg5 arg6 harg6 arg7 harg7 arg8 harg8) K } := by
  refine ⟨?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.Kernel.Agg

end
-- ==== Proof.WAggFrame.lean ====
/-
  The frame half of the program's second region (the aggregation kernel on its 8 × 4 grid), at the buffer contents
  `V` the region is entered with: what the output's staging buffer and the hidden-layer scratch hold after the body at
  each point (`outsAt1`, a pair: the output block, then the scratch) — at a batch's first row tile the scratch is stored
  whole from whatever it held, at the batch's later tiles it stays as the tile before left it —; the invariant that
  tracks the scratch from point to point (`PhiS`); the pipeline's proof data (`dat1`); the body obligation; and that
  the invariant begins as, and ends in, the class's (the scratch at anything).
-/
import proofs.«129983_j84911503442515_2_alg».proof.Proof.WAggRunB

-- membership in a rectangle of the kernel's extents recurses once per coordinate of the long axes
set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## The scoped buffers this region leaves alone -/

/-- The first region's eight staging buffers, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scoped rest is those eight beside the statement of the scratch (the conjunction re-associated). -/
theorem rest1_eq (c : Dev nD) (P : sProp 𝕄) : rest1 c P = iprop(others1 (F := F) c ∗ P) := by
  have h₁ : rest1 c P ⊢ iprop(others1 (F := F) c ∗ P) := by
    unfold rest1 others1
    iintro ⟨H1, H2, H3, H4, H5, H6, H7, H8, HP⟩
    isplitl [H1 H2 H3 H4 H5 H6 H7 H8]
    swap; · iexact HP
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h₂ : iprop(others1 (F := F) c ∗ P) ⊢ rest1 c P := by
    unfold rest1 others1
    iintro ⟨⟨H1, H2, H3, H4, H5, H6, H7, H8⟩, HP⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HP
  exact BI.equiv_iff.mp ⟨h₁, h₂⟩

/-! ## What each case leaves -/

/-- At a batch's first row tile the body's pieces for the output tile its block (one whole store), so they cover it. -/
theorem cover1_A_5 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) (y : S1x512x128.Idx) :
    ∃ pc ∈ (kernelRun1_A c i arg2 harg2 arg3 harg3 arg4 harg4 arg5 harg5 arg6 harg6 arg7 harg7 arg8 harg8 hc0 x0 x1 x2 x3 x4).1, y ∈ pc.1.set :=
  View.cover_of_tiledL (kernelRun1_A c i arg2 harg2 arg3 harg3 arg4 harg4 arg5 harg5 arg6 harg6 arg7 harg7 arg8 harg8 hc0 x0 x1 x2 x3 x4).1 S1x512x128.size (by sl_kernel_rfl) y

/-- What that case leaves in the output's staging buffer: its pieces read back. -/
def out1_A_5 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) : Vec F S1x512x128 .f32 :=
  VO1_5.read (Elt F) (VO1_5.writes (Elt F) VO1_5.junk (kernelRun1_A c i arg2 harg2 arg3 harg3 arg4 harg4 arg5 harg5 arg6 harg6 arg7 harg7 arg8 harg8 hc0 x0 x1 x2 x3 x4).1)

/-- At a batch's first row tile the body's pieces for the scratch tile it (one whole store), so they cover it. -/
theorem scover1_A_0 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) (y : S2048x128.Idx) :
    ∃ pc ∈ (kernelRun1_A c i arg2 harg2 arg3 harg3 arg4 harg4 arg5 harg5 arg6 harg6 arg7 harg7 arg8 harg8 hc0 x0 x1 x2 x3 x4).2.1, y ∈ pc.1.set :=
  View.cover_of_tiledL (kernelRun1_A c i arg2 harg2 arg3 harg3 arg4 harg4 arg5 harg5 arg6 harg6 arg7 harg7 arg8 harg8 hc0 x0 x1 x2 x3 x4).2.1 S2048x128.size (by sl_kernel_rfl) y

/-- What that case leaves in the scratch: its pieces read back. -/
def sout1_A_0 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) : Vec F S2048x128 .bf16 :=
  VS1_0.read (Elt F) (VS1_0.writes (Elt F) VS1_0.junk (kernelRun1_A c i arg2 harg2 arg3 harg3 arg4 harg4 arg5 harg5 arg6 harg6 arg7 harg7 arg8 harg8 hc0 x0 x1 x2 x3 x4).2.1)

/-- At a later row tile of a batch the body's pieces for the output tile its block (one whole store), so they cover it. -/
theorem cover1_B_5 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : ¬cond1_0 i)
    (x0 : Vec F S1x512x2048 .f32) (x1 : Vec F S1x2048x128 .f32) (x2 : Vec F S128x128 .f32) (x3 : Vec F S1x512x1 .f32) (x4 : Vec F S1x512x1 .f32) (xs0 : Vec F S2048x128 .bf16) (y : S1x512x128.Idx) :
    ∃ pc ∈ (kernelRun1_B c i arg2 harg2 arg3 harg3 arg4 harg4 arg5 harg5 arg6 harg6 arg7 harg7 arg8 harg8 hc0 x0 x1 x2 x3 x4 xs0).1, y ∈ pc.1.set :=
  View.cover_of_tiledL (kernelRun1_B c i arg2 harg2 arg3 harg3 arg4 harg4 arg5 harg5 arg6 harg6 arg7 harg7 arg8 harg8 hc0 x0 x1 x2 x3 x4 xs0).1 S1x512x128.size (by sl_kernel_rfl) y

/-- What that case leaves in the output's staging buffer: its pieces read back. -/
def out1_B_5 (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : ¬cond1_0 i)
    (x0 : Vec F S1x512x2048 .f32) (x1 : Vec F S1x2048x128 .f32) (x2 : Vec F S128x128 .f32) (x3 : Vec F S1x512x1 .f32) (x4 : Vec F S1x512x1 .f32) (xs0 : Vec F S2048x128 .bf16) : Vec F S1x512x128 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 x3 x4 xs0).1)

/-! ## What the output block and the scratch hold after each point -/

/-- After the body at a batch's first row tile `t`: the output block and the scratch as that case leaves them, run at
    the point's memrefs and input blocks. Nothing here depends on what the scratch held before. -/
def ptA (c : Dev nD) (t : Fin cfg1.N) (h0 : t.val % 4 = 0) : Vec F S1x512x128 .f32 × Vec F S2048x128 .bf16 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t))

/-- After the body at a later row tile `t` of a batch, the scratch holding `xs0` before: the output block as that case
    leaves it from the point's input blocks and `xs0`, and the scratch still at `xs0`. -/
def ptB (c : Dev nD) (t : Fin cfg1.N) (h0 : ¬t.val % 4 = 0) (xs0 : Vec F S2048x128 .bf16) : Vec F S1x512x128 .f32 × Vec F S2048x128 .bf16 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) xs0, xs0)

/-- THE ACCUMULATION. What the output's staging buffer and the scratch hold after the body at position `n`: the case the
    closed form selects at `n`, a later tile reading the scratch at what position `n - 1` left in it. -/
def outsAt1 (c : Dev nD) : (n : ℕ) → n < cfg1.N → Vec F S1x512x128 .f32 × Vec F S2048x128 .bf16
  | 0, hn => ptA V c ⟨0, hn⟩ (Nat.zero_mod _)
  | n + 1, hn =>
    if h0 : (n + 1) % 4 = 0 then ptA V c ⟨n + 1, hn⟩ h0
    else ptB V c ⟨n + 1, hn⟩ h0 (outsAt1 c n (Nat.lt_of_succ_lt hn)).2

/-- `outsAt1` at a batch's first row tile: that case's contents. -/
theorem outsAt1_A (c : Dev nD) (t : Fin cfg1.N) (h0 : t.val % 4 = 0) : outsAt1 V c t.val t.isLt = ptA V c t h0 := by
  obtain ⟨n, hn⟩ := t
  cases n with
  | zero => exact rfl
  | succ n => exact (dif_pos h0).trans rfl

/-- `outsAt1` at a later row tile: that case's contents, over what the point before left in the scratch. -/
theorem outsAt1_B (c : Dev nD) (t : Fin cfg1.N) (h0 : ¬t.val % 4 = 0) :
    outsAt1 V c t.val t.isLt = ptB V c t h0 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant -/

/-- The region invariant before position `n`: before the first point the class's (the scratch at anything — it may
    hold whatever an earlier launch left); afterwards the scoped rest with the scratch at what the point before left in
    it, and the generator register at some state. -/
def PhiS (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch at that point's contents. -/
theorem PhiS_succ (c : Dev nD) (n : ℕ) (hn : n < cfg1.N) :
    PhiS V c (n + 1) hn = iprop(rest1 c (owns (c : Thread nD τ) scM1_0 fullShare ((outsAt1 V c n hn).2)) ∗ (∃ r, prngReg c r)) := rfl

/-- Before a point that is not the first: the scratch at what the point before left. -/
theorem PhiS_pos (c : Dev nD) (n : ℕ) (h : n ≤ cfg1.N) (hz : n ≠ 0) :
    PhiS V c n h = iprop(rest1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point. The inputs' memrefs hold their blocks; the closed form says which case the point is in. At a
    batch's first row tile the run starts from the scratch at ANY contents — at the very first point the class invariant's,
    later what the previous batch's last tile left — and the invariant takes the scratch back at what the case stored
    (its pieces cover it). At a later tile the run reads the scratch at what the point before left and hands it back
    unchanged. The other scoped buffers, the generator register and the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5]
  by_cases h0 : t.val % 4 = 0
  · rw [outsAt1_A V c t h0]
    unfold ptA out1_A_5 sout1_A_0; (try dsimp only)
    by_cases hz : t.val = 0
    · rw [PhiS_castSucc V c t, PhiS_zero V c _ _ hz, PhiA1_eq]; simp only [rest1_eq]
      iintro ⟨⟨⟨HR, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _)
    · rw [PhiS_castSucc V c t, PhiS_pos V c _ _ hz]; simp only [rest1_eq]
      iintro ⟨⟨⟨HR, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _)
  · have hz : t.val ≠ 0 := fun e => h0 (by rw [e])
    rw [outsAt1_B V c t h0]
    unfold ptB out1_B_5; (try dsimp only)
    rw [PhiS_castSucc V c t, PhiS_pos V c _ _ hz]; simp only [rest1_eq]
    iintro ⟨⟨⟨HR, HS0⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HR HS0 Hg]
    · isplitl [HR HS0]
      · isplitl [HR]; · iexact HR
        iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _)

/-- The library's body obligation, at every point (the configuration states no idle point, so each window's buffer is
    taken back at what the body leaves in it). -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; simp only [rest1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

/-- The data holds full shares and owes nothing: the two side conditions of the run, checked here. -/
example (c : Dev nD) := (dat1 V c).share_full fun _ => rfl
example : ∀ (c : Dev nD) t, (dat1 V c).owed t = 0 := fun _ _ => rfl

end Cert.Kernel.Agg

end
-- ==== Proof.WRun.lean ====
/-
  The whole run of the program, from the launch to the return, over the two regions' halves.

  The program is: region 0 (row sums, column sums and the diagonal of the adjacency), five stretches of host
  operations (the degree bookkeeping), region 1 (the aggregation). Between two items every unscoped buffer of the
  core is held whole at contents that are a fold from the launch memory: a region replaces its windows' arrays by
  what its write-backs leave, a stretch of host operations applies its operations in order. What a region's kernel
  does at a grid point is that region's half (its proof data and body obligation, stated at the contents the region
  is entered from); this module takes the two halves as parameters and composes them, so that the final memory is
  the last fold at every unscoped buffer.
-/
import proofs.«129983_j84911503442515_2_alg».proof.Proof.Gen.Kernel.Launch
import proofs.«129983_j84911503442515_2_alg».proof.Proof.Gen.Kernel.Skeleton
import proofs.«129983_j84911503442515_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffer contents, read at its references. -/
abbrev Contents (F : FTy → Type) [FloatOps F] : Type :=
  (c : Dev nD) → (b : Ref sig .tc) → Buf (Elt F) ((c : Thread nD τ).loc b)

/-- Region 0's half: its proof data at any entry contents, with the body obligation; nothing owed, full shares,
    and the class's invariant in and out. -/
structure Half0 (F : FTy → Type) [FloatOps F] where
  dat : Contents F → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- Region 1's half, likewise. -/
structure Half1 (F : FTy → Type) [FloatOps F] where
  dat : Contents F → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (h0 : Half0 F) (h1 : Half1 F)
variable (m : (ℓ : Loc nD τ sig) → Buf (Elt F) ℓ) (ρ : Dev nD → PrngReg)

/-! ## The buffer contents at each boundary: a fold through the program -/

/-- Core `c`'s buffers at launch (region 0's entry). -/
abbrev W0 : Dev nD → Valuation τ sig (Elt F) := fun c b => (s₀ m ρ).mem ((c : Dev nD), b)
abbrev V0 : Contents F := fun c b => W0 m ρ c b
/-- At region 0's exit: its arrays at what the write-backs leave, every other buffer as entered. -/
def W1 (c : Dev nD) : Valuation τ sig (Elt F) :=
  Pipeline.withArrays spec0 c (W0 m ρ c) fun w => (h0.dat (V0 m ρ) c).arrAt w cfg0.N
theorem W1_arr (c : Dev nD) (w : Fin cfg0.W) :
    W1 h0 m ρ c (Proc.devRef .tc (Pipeline.arrRef spec0 w)) = (h0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 h0 m ρ c (Proc.devRef .tc b) = W0 m ρ c (Proc.devRef .tc b) := by
  unfold W1; exact Pipeline.withArrays_of_ne spec0 c _ _ b hb
abbrev V1 : Contents F := fun c b => W1 h0 m ρ c b
theorem hF0 (c : Dev nD) (w : Fin cfg0.W) : (h0.dat (V0 m ρ) c).arrAt w cfg0.N = V1 h0 m ρ c (Pipeline.arrRef spec0 w) :=
  (W1_arr h0 m ρ c w).symm
theorem hrest0 (c : Dev nD) : ∀ b, b ∉ Finset.univ.image (Pipeline.arrRef spec0) → V1 h0 m ρ c b = V0 m ρ c b :=
  fun b hb => W1_of_ne h0 m ρ c b fun w e => hb (Finset.mem_image.mpr ⟨w, Finset.mem_univ _, e⟩)

/-- After each stretch of host operations. -/
abbrev W2 : Dev nD → Valuation τ sig (Elt F) := fun c => StableHlo.after hostOps1 (W1 h0 m ρ c)
abbrev W3 : Dev nD → Valuation τ sig (Elt F) := fun c => StableHlo.after hostOps1_1 (W2 h0 m ρ c)
abbrev W4 : Dev nD → Valuation τ sig (Elt F) := fun c => StableHlo.after hostOps1_2 (W3 h0 m ρ c)
abbrev W5 : Dev nD → Valuation τ sig (Elt F) := fun c => StableHlo.after hostOps1_3 (W4 h0 m ρ c)
abbrev W6 : Dev nD → Valuation τ sig (Elt F) := fun c => StableHlo.after hostOps1_4 (W5 h0 m ρ c)
/-- Region 1's entry contents read at the references. -/
abbrev V6 : Contents F := fun c b => W6 h0 m ρ c b
/-- At region 1's exit. -/
def W7 (c : Dev nD) : Valuation τ sig (Elt F) :=
  Pipeline.withArrays spec1 c (W6 h0 m ρ c) fun w => (h1.dat (V6 h0 m ρ) c).arrAt w cfg1.N
theorem W7_arr (c : Dev nD) (w : Fin cfg1.W) :
    W7 h0 h1 m ρ c (Proc.devRef .tc (Pipeline.arrRef spec1 w)) = (h1.dat (V6 h0 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 h0 h1 m ρ c (Proc.devRef .tc b) = W6 h0 m ρ c (Proc.devRef .tc b) := by
  unfold W7; exact Pipeline.withArrays_of_ne spec1 c _ _ b hb
abbrev V7 : Contents F := fun c b => W7 h0 h1 m ρ c b
theorem hF1 (c : Dev nD) (w : Fin cfg1.W) : (h1.dat (V6 h0 m ρ) c).arrAt w cfg1.N = V7 h0 h1 m ρ c (Pipeline.arrRef spec1 w) :=
  (W7_arr h0 h1 m ρ c w).symm
theorem hrest1 (c : Dev nD) : ∀ b, b ∉ Finset.univ.image (Pipeline.arrRef spec1) → V7 h0 h1 m ρ c b = V6 h0 m ρ c b :=
  fun b hb => W7_of_ne h0 h1 m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => h0.dat (V0 m ρ) c
  | ⟨1, _⟩ => fun c => h1.dat (V6 h0 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 h0 h1 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats h0 h1 m ρ) () defs₀ 𝒱₀ L lv 0 where
  win := launch0.win.to₀
  block_pos := launch0.block_pos
  stage_whole := launch0.stage_whole
  K := PEmpty
  osem k := k.elim
  ho := Pipeline.OwnSemFacts.none _
  hbody c := (h0.hbody (V0 m ρ) c).loose
  hwaits := Pipeline.hwaits_of_owed_zero _ _ _ _ L lv 0 fun c t => h0.howed (V0 m ρ) c t
  pre c := iprop(StableHlo.held (c : Thread nD τ) (Pipeline.ucRefs τ sig) (W0 m ρ c) ∗ R c)
  post c := iprop(StableHlo.held (c : Thread nD τ) (Pipeline.ucRefs τ sig) (W1 h0 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats h0 h1 m ρ) launch0.win launch0.arr_whole c
      ((pdats h0 h1 m ρ 0 c).share_full fun w => h0.hq (V0 m ρ) c w) (V0 m ρ c) fun w => h0.hA (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 m ρ 0 c).owed 0 = 0 from h0.howed (V0 m ρ) c 0]
      icases HO with ⟨%W, HO⟩; iexists W; isplitr
      · ipureintro; exact fun _ _ => Or.inl ((h0.hrec (V0 m ρ) c 0).symm ▸ Set.mem_univ _)
      iexact HO
    isplitl [Hp]; · iexact Hp
    iexact Hrest
  hin c := by
    have e : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact e.trans (h0.hin (V0 m ρ) c)
  hout c := by
    rw [Pipeline.ownSems0_none]
    have e : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (h0.hout (V0 m ρ) c).trans e
  hexit c := by
    have hjoin := Pipeline.unscopedBufs_of_arrays (p := 0) (pcfgs (F := F)) adm (Ix := Unit) (Name := ℕ) (U := UR sig nD τ) (Lvl := ℕ)
      launch0.win launch0.arr_whole c (pdats h0 h1 m ρ) ((pdats h0 h1 m ρ 0 c).share_full fun w => h0.hq (V0 m ρ) c w)
      (V0 m ρ c) (V1 h0 m ρ c) ((pdats h0 h1 m ρ 0 c).arrAt · cfg0.N) (hF0 h0 m ρ c) (hrest0 h0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 m ρ 0 c).owed (Fin.last _) = 0 from h0.howed (V0 m ρ) c _]
    icases HO with ⟨%W, -, HO⟩; iexists W; iexact HO

set_option backward.isDefEq.respectTransparency.types false in
/-- Region 1 over the thread state: entered from every unscoped buffer at `W6`, left at `W7`. -/
def reg1 : Pipeline.RegionSeg (pcfgs (F := F)) adm (pdats h0 h1 m ρ) () defs₀ 𝒱₀ L lv 1 where
  win := launch1.win.to₀
  block_pos := launch1.block_pos
  stage_whole := launch1.stage_whole
  K := PEmpty
  osem k := k.elim
  ho := Pipeline.OwnSemFacts.none _
  hbody c := (h1.hbody (V6 h0 m ρ) c).loose
  hwaits := Pipeline.hwaits_of_owed_zero _ _ _ _ L lv 1 fun c t => h1.howed (V6 h0 m ρ) c t
  pre c := iprop(StableHlo.held (c : Thread nD τ) (Pipeline.ucRefs τ sig) (W6 h0 m ρ c) ∗ R c)
  post c := iprop(Tₙ h0 h1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 h0 m ρ c)
  hentry c := by
    rw [Pipeline.ownSems0_none]
    have hsplit := Pipeline.arrays_of_unscopedBufs (p := 1) (pcfgs (F := F)) adm (pdats h0 h1 m ρ) launch1.win launch1.arr_whole c
      ((pdats h0 h1 m ρ 1 c).share_full fun w => h1.hq (V6 h0 m ρ) c w) (V6 h0 m ρ c) fun w => h1.hA (V6 h0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 m ρ 1 c).owed 0 = 0 from h1.howed (V6 h0 m ρ) c 0]
      icases HO with ⟨%W, HO⟩; iexists W; isplitr
      · ipureintro; exact fun _ _ => Or.inl ((h1.hrec (V6 h0 m ρ) c 0).symm ▸ Set.mem_univ _)
      iexact HO
    isplitl [Hp]; · iexact Hp
    iexact Hrest
  hin c := by
    have e : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact e.trans (h1.hin (V6 h0 m ρ) c)
  hout c := by
    rw [Pipeline.ownSems0_none]
    have e : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (h1.hout (V6 h0 m ρ) c).trans e
  hexit c := by
    have hjoin := Pipeline.unscopedBufs_of_arrays (p := 1) (pcfgs (F := F)) adm (Ix := Unit) (Name := ℕ) (U := UR sig nD τ) (Lvl := ℕ)
      launch1.win launch1.arr_whole c (pdats h0 h1 m ρ) ((pdats h0 h1 m ρ 1 c).share_full fun w => h1.hq (V6 h0 m ρ) c w)
      (V6 h0 m ρ c) (V7 h0 h1 m ρ c) ((pdats h0 h1 m ρ 1 c).arrAt · cfg1.N) (hF1 h0 h1 m ρ c) (hrest1 h0 h1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats h0 h1 m ρ 1 c).owed (Fin.last _) = 0 from h1.howed (V6 h0 m ρ) c _]
    icases HO with ⟨%W, -, HO⟩; iexists W; iexact HO

/-! ## The program as segments, and the launch -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program's seven items in order. -/
abbrev segs : List (Pipeline.Seg (pcfgs (F := F)) adm (pdats h0 h1 m ρ) () defs₀ 𝒱₀ L lv) :=
  [ .region (reg0 h0 h1 m ρ),
    .host (hseg hostOps1 hostOps1_sub hostOps1_fresh (W1 h0 m ρ)),
    .host (hseg hostOps1_1 hostOps1_1_sub hostOps1_1_fresh (W2 h0 m ρ)),
    .host (hseg hostOps1_2 hostOps1_2_sub hostOps1_2_fresh (W3 h0 m ρ)),
    .host (hseg hostOps1_3 hostOps1_3_sub hostOps1_3_fresh (W4 h0 m ρ)),
    .host (hseg hostOps1_4 hostOps1_4_sub hostOps1_4_fresh (W5 h0 m ρ)),
    .region (reg1 h0 h1 m ρ) ]
theorem main_run (c : Dev nD) : main (F := F) c = Pipeline.Seg.run (segs h0 h1 m ρ) := (main_chain c).trans (by chain_rfl)

set_option backward.isDefEq.respectTransparency.types false in
/-- THE RUN: from any memory with zero counters every weakly fair execution terminates, nothing faulting, and the
    final memory holds every unscoped buffer at the last fold `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 h0 h1 m ρ c b) :=
  Pipeline.θ_run_regions_kit (pcfgs (F := F)) adm (pdats h0 h1 m ρ) () cellOf_inj emb₁ defs₀ 𝒱₀ L lv m ρ main (segs h0 h1 m ρ)
    (fun c Q => by rw [main_run h0 h1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ h0 h1 m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 h0 h1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 h0 h1 m ρ c) s')
      isplitl [Hh] <;> iassumption)
    (hQ := fun s h c => h c)

end Cert.Kernel.Run

end
-- ==== Proof.WHostChain.lean ====
/-
  The host operations between the two regions, as functions of what region 0 left.

  Region 0 leaves three arrays: the row sums and the diagonal as columns `[8, 2048, 1]`, the column sums as rows
  `[8, 1, 2048]`. The host operations drop the unit axes, form the new diagonal entry (`1` where row sum plus
  column sum is nonzero, else the old entry), the degree (row sum minus old entry plus new entry), its reciprocal
  (zero where the degree vanishes) and the coefficient of the diagonal correction, and put the unit axis back.
  Read at an index these are, entry by entry, the specification's `dinvK` and `coefK`.
-/
import proofs.«129983_j84911503442515_2_alg».proof.Proof.WRun
import proofs.«129983_j84911503442515_2_alg».proof.Proof.Spec
import Idealize.ShloMosaic.Lib.IdealHost
import Idealize.ShloMosaic.Lib.ValueIdx
import Idealize.ShloMosaic.Lib.Pipeline.Value
import Idealize.ShloMosaic.Lib.StableHlo.Run
import Idealize.ShloMosaic.PureOps.Ideal.Laws

noncomputable section

namespace Cert.Kernel.HostChain

open Cert.Kernel Cert.Kernel.Gen Cert.Kernel.Run Cert.GraphConv
open Idealize.ShloMosaic Idealize.ShloMosaic.TcCoe Idealize.ShloMosaic.ValueIdx Idealize.ShloMosaic.StableHlo

/-! ## The unit axes dropped and put back -/

section Layout
variable {α : Type}

/-- A column `[8, 2048, 1]` read as `[8, 2048]`. -/
theorem cast_col (x : (⟨3, ![8, 2048, 1]⟩ : Shape).Idx → α) (h : (⟨3, ![8, 2048, 1]⟩ : Shape).ShapeCasts ⟨2, ![8, 2048]⟩)
    (b : Fin 8) (i : Fin 2048) : shapeCast ⟨2, ![8, 2048]⟩ x h (ix2 b i) = x (ix3 b i (0 : Fin 1)) :=
  shapeCast_apply x h _ _ (by
    rw [Shape.rowMajor_val_three, Shape.rowMajor_val_two]
    show (b.val * 2048 + i.val) * 1 + 0 = b.val * 2048 + i.val
    omega)

/-- A row `[8, 1, 2048]` read as `[8, 2048]`. -/
theorem cast_row (x : (⟨3, ![8, 1, 2048]⟩ : Shape).Idx → α) (h : (⟨3, ![8, 1, 2048]⟩ : Shape).ShapeCasts ⟨2, ![8, 2048]⟩)
    (b : Fin 8) (i : Fin 2048) : shapeCast ⟨2, ![8, 2048]⟩ x h (ix2 b i) = x (ix3 b (0 : Fin 1) i) :=
  shapeCast_apply x h _ _ (by
    rw [Shape.rowMajor_val_three, Shape.rowMajor_val_two]
    show (b.val * 1 + 0) * 2048 + i.val = b.val * 2048 + i.val
    omega)

/-- `[8, 2048]` read as a column `[8, 2048, 1]`. -/
theorem cast_to_col (x : (⟨2, ![8, 2048]⟩ : Shape).Idx → α) (h : (⟨2, ![8, 2048]⟩ : Shape).ShapeCasts ⟨3, ![8, 2048, 1]⟩)
    (b : Fin 8) (i : Fin 2048) (u : Fin 1) : shapeCast ⟨3, ![8, 2048, 1]⟩ x h (ix3 b i u) = x (ix2 b i) :=
  shapeCast_apply x h _ _ (by
    have hu : u.val = 0 := by omega
    rw [Shape.rowMajor_val_three, Shape.rowMajor_val_two]
    show b.val * 2048 + i.val = (b.val * 2048 + i.val) * 1 + u.val
    omega)

end Layout

/-- A scalar splat over `[8, 2048]` reads the scalar everywhere. -/
theorem bcast_scalar {α : Type} (dims : Fin S_.rank → Fin S8x2048.rank) (h : S_.BroadcastsInDim S8x2048 dims) (x : S_.Idx → α)
    (j : S8x2048.Idx) : broadcastInDim S8x2048 dims h x j = x ix0 := by
  unfold broadcastInDim; exact congrArg x (funext fun a => a.elim0)

/-- The comparison at the exact instance is the order's. -/
theorem cmpf_ideal {φ : FTy} (p : CmpFPredicate) (x y : Ideal φ) : FloatOps.cmpf (F := Ideal) p x y = Ideal.cmp p x y := rfl

/-- A selection on "differs from". -/
theorem select_une (x y a b : EReal) : Scalar.select (Ideal.cmp .une x y) a b = if x ≠ y then a else b := by
  unfold Scalar.select Ideal.cmp
  by_cases h : x ≠ y <;> simp [h]

/-! ## The operations, composed -/

section Ops
variable {F : FTy → Type} [FloatOps F]

/-- The new diagonal entry, per row. -/
def newDiagV (rs3 dg3 : FVec F S8x2048x1 .f32) (cs3 : FVec F S8x1x2048 .f32) : FVec F S8x2048 .f32 :=
  select (cmpf .une (addf (shapeCast S8x2048 rs3 shapeCasts_S8x2048x1_S8x2048) (shapeCast S8x2048 cs3 shapeCasts_S8x1x2048_S8x2048))
      (broadcastInDim S8x2048 ![] bcast_S_S8x2048 (constant S_ .f32 0x00000000#32)))
    (broadcastInDim S8x2048 ![] bcast_S_S8x2048 (constant S_ .f32 0x3F800000#32))
    (shapeCast S8x2048 dg3 shapeCasts_S8x2048x1_S8x2048)

/-- The degree, per row. -/
def degV (rs3 dg3 : FVec F S8x2048x1 .f32) (cs3 : FVec F S8x1x2048 .f32) : FVec F S8x2048 .f32 :=
  addf (subf (shapeCast S8x2048 rs3 shapeCasts_S8x2048x1_S8x2048) (shapeCast S8x2048 dg3 shapeCasts_S8x2048x1_S8x2048))
    (newDiagV rs3 dg3 cs3)

/-- The reciprocal of the degree, zero where it vanishes. -/
def dinvV (rs3 dg3 : FVec F S8x2048x1 .f32) (cs3 : FVec F S8x1x2048 .f32) : FVec F S8x2048 .f32 :=
  select (cmpf .une (degV rs3 dg3 cs3) (broadcastInDim S8x2048 ![] bcast_S_S8x2048 (constant S_ .f32 0x00000000#32)))
    (Host.divf (broadcastInDim S8x2048 ![] bcast_S_S8x2048 (constant S_ .f32 0x3F800000#32)) (degV rs3 dg3 cs3))
    (broadcastInDim S8x2048 ![] bcast_S_S8x2048 (constant S_ .f32 0x00000000#32))

/-- The coefficient of the diagonal correction. -/
def coefV (rs3 dg3 : FVec F S8x2048x1 .f32) (cs3 : FVec F S8x1x2048 .f32) : FVec F S8x2048 .f32 :=
  subf (mulf (dinvV rs3 dg3 cs3) (newDiagV rs3 dg3 cs3))
    (mulf (dinvV rs3 dg3 cs3) (shapeCast S8x2048 dg3 shapeCasts_S8x2048x1_S8x2048))

end Ops

/-! ## Read at an index -/

theorem newDiagV_apply (rs3 dg3 : FVec Ideal S8x2048x1 .f32) (cs3 : FVec Ideal S8x1x2048 .f32) (b : Fin 8) (i : Fin 2048) :
    newDiagV rs3 dg3 cs3 (ix2 b i) = newDiagK (rs3 (ix3 b i 0)) (cs3 (ix3 b 0 i)) (dg3 (ix3 b i 0)) := by
  unfold newDiagV newDiagK
  simp only [select, cmpf, addf, cast_col, cast_row, bcast_scalar, constant, Ideal.ofBits_def,
    Ideal.ofBits_zero_f32, Ideal.ofBits_one_f32, Ideal.addf_def, cmpf_ideal, select_une]

theorem degV_apply (rs3 dg3 : FVec Ideal S8x2048x1 .f32) (cs3 : FVec Ideal S8x1x2048 .f32) (b : Fin 8) (i : Fin 2048) :
    degV rs3 dg3 cs3 (ix2 b i) = degK (rs3 (ix3 b i 0)) (cs3 (ix3 b 0 i)) (dg3 (ix3 b i 0)) := by
  unfold degV degK
  simp only [addf, subf, cast_col, Ideal.addf_def, Ideal.subf_def, newDiagV_apply]

theorem dinvV_apply (rs3 dg3 : FVec Ideal S8x2048x1 .f32) (cs3 : FVec Ideal S8x1x2048 .f32) (b : Fin 8) (i : Fin 2048) :
    dinvV rs3 dg3 cs3 (ix2 b i) = dinvK (rs3 (ix3 b i 0)) (cs3 (ix3 b 0 i)) (dg3 (ix3 b i 0)) := by
  unfold dinvV dinvK recip
  simp only [select, cmpf, hostDivf_apply, bcast_scalar, constant, Ideal.ofBits_def, Ideal.ofBits_zero_f32,
    Ideal.ofBits_one_f32, cmpf_ideal, select_une, degV_apply]

theorem coefV_apply (rs3 dg3 : FVec Ideal S8x2048x1 .f32) (cs3 : FVec Ideal S8x1x2048 .f32) (b : Fin 8) (i : Fin 2048) :
    coefV rs3 dg3 cs3 (ix2 b i) = coefK (rs3 (ix3 b i 0)) (cs3 (ix3 b 0 i)) (dg3 (ix3 b i 0)) := by
  unfold coefV coefK
  simp only [subf, mulf, Ideal.subf_def, Ideal.mulf_def, dinvV_apply, newDiagV_apply, cast_col]

/-! ## The fold through the host operations -/

section Reads
variable {F : FTy → Type} [FloatOps F] (h0 : Half0 F) (m : (ℓ : Loc nD τ sig) → Buf (Elt F) ℓ) (ρ : Dev nD → PrngReg) (c : Dev nD)

/-- Region 1's row factors are the reciprocal degrees of what region 0 left, as a column. -/
theorem W6_v18 : W6 h0 m ρ c (Proc.devRef .tc main_v18)
    = shapeCast S8x2048x1 (dinvV (W1 h0 m ρ c (Proc.devRef .tc main_v0_0)) (W1 h0 m ρ c (Proc.devRef .tc main_v0_1))
        (W1 h0 m ρ c (Proc.devRef .tc main_v0_2))) shapeCasts_S8x2048_S8x2048x1 := by
  after_results; rfl

set_option maxHeartbeats 1600000 in
/-- Region 1's correction coefficients, as a column. -/
theorem W6_v19 : W6 h0 m ρ c (Proc.devRef .tc main_v19)
    = shapeCast S8x2048x1 (coefV (W1 h0 m ρ c (Proc.devRef .tc main_v0_0)) (W1 h0 m ρ c (Proc.devRef .tc main_v0_1))
        (W1 h0 m ρ c (Proc.devRef .tc main_v0_2))) shapeCasts_S8x2048_S8x2048x1 := by
  after_results_simp; rfl

/-- No host operation writes an argument. -/
theorem W6_arg0 : W6 h0 m ρ c (Proc.devRef .tc main_arg0) = W1 h0 m ρ c (Proc.devRef .tc main_arg0) := by
  after_results
theorem W6_arg1 : W6 h0 m ρ c (Proc.devRef .tc main_arg1) = W1 h0 m ρ c (Proc.devRef .tc main_arg1) := by
  after_results
theorem W6_arg2 : W6 h0 m ρ c (Proc.devRef .tc main_arg2) = W1 h0 m ρ c (Proc.devRef .tc main_arg2) := by
  after_results

end Reads

end Cert.Kernel.HostChain

end
-- ==== Proof.WFrame.lean ====
/-
  The three argument arrays end as launched, at any instance of the floats.

  No host operation writes an argument, and a region touches one only through an input window, which the
  write-backs never change; so the fold of the buffers' contents through the program, read at an argument, walks
  back to the launch memory.
-/
import proofs.«129983_j84911503442515_2_alg».proof.Proof.WHostChain

noncomputable section

namespace Cert.Kernel.Frame

open Cert.Kernel Cert.Kernel.Gen Cert.Kernel.Run Cert.Kernel.HostChain
open Idealize.ShloMosaic Idealize.ShloMosaic.TcCoe Idealize.ShloMosaic.ValueIdx Idealize.ShloMosaic.StableHlo
open Idealize.SL.Sem
open Idealize.ShloMosaic.Pipeline (Dat)

/-! ## The arguments reach the end, and region 1, as launched (at any instance) -/

section Args
variable {F : FTy → Type} [FloatOps F] (h0 : Half0 F) (h1 : Half1 F)
variable (m : (ℓ : Loc nD τ sig) → Buf (Elt F) ℓ) (ρ : Dev nD → PrngReg) (c : Dev nD)

theorem W1_arg0 : W1 h0 m ρ c (Proc.devRef .tc main_arg0) = m ((c.tc : Thread nD τ).loc main_arg0) :=
  (W1_of_ne h0 m ρ c main_arg0 (by decide)).trans rfl
theorem W1_arg1 : W1 h0 m ρ c (Proc.devRef .tc main_arg1) = m ((c.tc : Thread nD τ).loc main_arg1) :=
  (W1_arr h0 m ρ c 0).trans (((h0.dat (V0 m ρ) c).arrAt_in 0 rfl _).trans ((h0.hA (V0 m ρ) c 0).trans rfl))
theorem W1_arg2 : W1 h0 m ρ c (Proc.devRef .tc main_arg2) = m ((c.tc : Thread nD τ).loc main_arg2) :=
  (W1_of_ne h0 m ρ c main_arg2 (by decide)).trans rfl

theorem V6_arg0 : V6 h0 m ρ c main_arg0 = m ((c.tc : Thread nD τ).loc main_arg0) := (W6_arg0 h0 m ρ c).trans (W1_arg0 h0 m ρ c)
theorem V6_arg1 : V6 h0 m ρ c main_arg1 = m ((c.tc : Thread nD τ).loc main_arg1) := (W6_arg1 h0 m ρ c).trans (W1_arg1 h0 m ρ c)
theorem V6_arg2 : V6 h0 m ρ c main_arg2 = m ((c.tc : Thread nD τ).loc main_arg2) := (W6_arg2 h0 m ρ c).trans (W1_arg2 h0 m ρ c)

theorem W7_arg0 : W7 h0 h1 m ρ c (Proc.devRef .tc main_arg0) = m ((c.tc : Thread nD τ).loc main_arg0) :=
  (W7_arr h0 h1 m ρ c 1).trans (((h1.dat (V6 h0 m ρ) c).arrAt_in 1 rfl _).trans ((h1.hA (V6 h0 m ρ) c 1).trans (V6_arg0 h0 m ρ c)))
theorem W7_arg1 : W7 h0 h1 m ρ c (Proc.devRef .tc main_arg1) = m ((c.tc : Thread nD τ).loc main_arg1) :=
  (W7_arr h0 h1 m ρ c 0).trans (((h1.dat (V6 h0 m ρ) c).arrAt_in 0 rfl _).trans ((h1.hA (V6 h0 m ρ) c 0).trans (V6_arg1 h0 m ρ c)))
theorem W7_arg2 : W7 h0 h1 m ρ c (Proc.devRef .tc main_arg2) = m ((c.tc : Thread nD τ).loc main_arg2) :=
  (W7_arr h0 h1 m ρ c 2).trans (((h1.dat (V6 h0 m ρ) c).arrAt_in 2 rfl _).trans ((h1.hA (V6 h0 m ρ) c 2).trans (V6_arg2 h0 m ρ c)))

include h0 h1 in
/-- THE FRAME at any instance: the run's post read at the three arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_arg0 h0 h1 m ρ c),
     (h c _ (mem_uc main_arg1 (by decide))).trans (W7_arg1 h0 h1 m ρ c),
     (h c _ (mem_uc main_arg2 (by decide))).trans (W7_arg2 h0 h1 m ρ c)⟩) (run_all h0 h1 m ρ)

end Args

end Cert.Kernel.Frame

end
-- ==== Proof.WHalves.lean ====
/-
  The two regions' halves put together: the run and the frame of the whole program, at any instance of the floats.
-/
import proofs.«129983_j84911503442515_2_alg».proof.Proof.WSumsFrame
import proofs.«129983_j84911503442515_2_alg».proof.Proof.WAggFrame
import proofs.«129983_j84911503442515_2_alg».proof.Proof.WFrame

noncomputable section

namespace Cert.Kernel.Halves

open Cert.Kernel Cert.Kernel.Gen Cert.Kernel.Run
open Idealize.ShloMosaic Idealize.ShloMosaic.TcCoe Idealize.SL.Sem

variable {F : FTy → Type} [FloatOps F]

/-- Region 0's half: the sums kernel's proof data and body obligation. -/
def half0 : Half0 F where
  dat V c := Cert.Kernel.Sums.dat0 V c
  hA V c w := Cert.Kernel.Sums.A_eq0 V c w
  hq _ _ _ := rfl
  howed _ _ _ := rfl
  hrec _ _ _ := rfl
  hbody V c := Cert.Kernel.Sums.body_obligation0 V c
  hin V c := Cert.Kernel.Sums.hin0 V c
  hout V c := Cert.Kernel.Sums.hout0 V c

/-- Region 1's half: the aggregation kernel's proof data and body obligation. -/
def half1 : Half1 F where
  dat V c := Cert.Kernel.Agg.dat1 V c
  hA V c w := Cert.Kernel.Agg.A_eq1 V c w
  hq _ _ _ := rfl
  howed _ _ _ := rfl
  hrec _ _ _ := rfl
  hbody V c := Cert.Kernel.Agg.body_obligation1 V c
  hin V c := Cert.Kernel.Agg.hin1 V c
  hout V c := Cert.Kernel.Agg.hout1 V c

/-- The program runs to the end, faults nowhere, and leaves its three arguments as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.Kernel.Frame.frame half0 half1 m ρ

end Cert.Kernel.Halves

end
-- ==== Proof.KValue.lean ====
/-
  What the kernel program leaves in its result, entry by entry.

  Region 1's output array is, by its half, the scaled adjacency applied to the hidden layer plus the diagonal
  correction, over the row factors and coefficients the host operations computed; those are, by the host chain read
  at an index, the specification's reciprocal degree and coefficient of the row sums, column sums and diagonal that
  region 0 left; and the adjacency, features and weights reach region 1 as launched. Together: the specification's
  `outK` of the launch arguments.
-/
import proofs.«129983_j84911503442515_2_alg».proof.Proof.Frame

noncomputable section

namespace Cert.KernelIdeal.KValue

open Cert.KernelIdeal Cert.KernelIdeal.Gen Cert.KernelIdeal.Run Cert.KernelIdeal.HostChain Cert.KernelIdeal.Frame Cert.GraphConv
open Idealize.ShloMosaic Idealize.ShloMosaic.TcCoe Idealize.ShloMosaic.ValueIdx Idealize.ShloMosaic.StableHlo
open Idealize.ShloMosaic.Pipeline (Dat)

/-! ## The result, at the exact instance -/

section Value
variable (h0 : Half0 Ideal) (h1 : Half1 Ideal)
variable (hrs : ∀ (V : Contents Ideal) (c : Dev nD) (b : Fin 8) (i : Fin 2048),
    (h0.dat V c).arrAt 1 cfg0.N (ix3 b i 0) = rowSum (V c main_arg1) b i)
variable (hdg : ∀ (V : Contents Ideal) (c : Dev nD) (b : Fin 8) (i : Fin 2048),
    (h0.dat V c).arrAt 2 cfg0.N (ix3 b i 0) = diagOf (V c main_arg1) b i)
variable (hcs : ∀ (V : Contents Ideal) (c : Dev nD) (b : Fin 8) (i : Fin 2048),
    (h0.dat V c).arrAt 3 cfg0.N (ix3 b 0 i) = colSum (V c main_arg1) b i)
variable (hagg : ∀ (V : Contents Ideal) (c : Dev nD) (b : Fin 8) (i : Fin 2048) (e : Fin 128),
    (h1.dat V c).arrAt 5 cfg1.N (ix3 b i e)
      = aggK (fun b i => V c main_v18 (ix3 b i 0)) (fun b i => V c main_v19 (ix3 b i 0)) (V c main_arg1)
          (hid (V c main_arg0) (V c main_arg2)) b i e)
variable (m : (ℓ : Loc nD τ sig) → Buf (Elt Ideal) ℓ) (ρ : Dev nD → PrngReg) (c : Dev nD)

include hrs in
theorem W1_rs (b : Fin 8) (i : Fin 2048) :
    W1 h0 m ρ c (Proc.devRef .tc main_v0_0) (ix3 b i 0) = rowSum (m ((c.tc : Thread nD τ).loc main_arg1)) b i :=
  (congrFun (W1_arr h0 m ρ c 1) _).trans (hrs (V0 m ρ) c b i)
include hdg in
theorem W1_dg (b : Fin 8) (i : Fin 2048) :
    W1 h0 m ρ c (Proc.devRef .tc main_v0_1) (ix3 b i 0) = diagOf (m ((c.tc : Thread nD τ).loc main_arg1)) b i :=
  (congrFun (W1_arr h0 m ρ c 2) _).trans (hdg (V0 m ρ) c b i)
include hcs in
theorem W1_cs (b : Fin 8) (i : Fin 2048) :
    W1 h0 m ρ c (Proc.devRef .tc main_v0_2) (ix3 b 0 i) = colSum (m ((c.tc : Thread nD τ).loc main_arg1)) b i :=
  (congrFun (W1_arr h0 m ρ c 3) _).trans (hcs (V0 m ρ) c b i)

include hrs hdg hcs in
/-- Region 1's row factor is the specification's reciprocal degree. -/
theorem V6_dinv (b : Fin 8) (i : Fin 2048) :
    V6 h0 m ρ c main_v18 (ix3 b i 0)
      = dinvK (rowSum (m ((c.tc : Thread nD τ).loc main_arg1)) b i) (colSum (m ((c.tc : Thread nD τ).loc main_arg1)) b i)
          (diagOf (m ((c.tc : Thread nD τ).loc main_arg1)) b i) := by
  show W6 h0 m ρ c (Proc.devRef .tc main_v18) (ix3 b i 0) = _
  rw [W6_v18, cast_to_col, dinvV_apply, W1_rs h0 hrs, W1_dg h0 hdg, W1_cs h0 hcs]

include hrs hdg hcs in
/-- Region 1's coefficient is the specification's. -/
theorem V6_coef (b : Fin 8) (i : Fin 2048) :
    V6 h0 m ρ c main_v19 (ix3 b i 0)
      = coefK (rowSum (m ((c.tc : Thread nD τ).loc main_arg1)) b i) (colSum (m ((c.tc : Thread nD τ).loc main_arg1)) b i)
          (diagOf (m ((c.tc : Thread nD τ).loc main_arg1)) b i) := by
  show W6 h0 m ρ c (Proc.devRef .tc main_v19) (ix3 b i 0) = _
  rw [W6_v19, cast_to_col, coefV_apply, W1_rs h0 hrs, W1_dg h0 hdg, W1_cs h0 hcs]

include hrs hdg hcs hagg in
/-- THE RESULT: the last fold at the result buffer is the specification's `outK` of the launch arguments. -/
theorem W7_result (b : Fin 8) (i : Fin 2048) (e : Fin 128) :
    W7 h0 h1 m ρ c (Proc.devRef .tc main_v20) (ix3 b i e)
      = outK (m ((c.tc : Thread nD τ).loc main_arg0)) (m ((c.tc : Thread nD τ).loc main_arg1)) (m ((c.tc : Thread nD τ).loc main_arg2)) b i e := by
  refine (congrFun (W7_arr h0 h1 m ρ c 5) _).trans ?_
  rw [hagg (V6 h0 m ρ) c b i e]
  unfold outK
  rw [show (fun b i => V6 h0 m ρ c main_v18 (ix3 b i 0)) = _ from funext fun b => funext fun i => V6_dinv h0 hrs hdg hcs m ρ c b i,
    show (fun b i => V6 h0 m ρ c main_v19 (ix3 b i 0)) = _ from funext fun b => funext fun i => V6_coef h0 hrs hdg hcs m ρ c b i,
    V6_arg0, V6_arg1, V6_arg2]

end Value

end Cert.KernelIdeal.KValue

end
-- ==== Proof.SumsPieces.lean ====
/-
  The sums kernel: what each case's found stores leave, as payloads of the blocks.

  Each output's pieces are covering stores through the whole staging buffer, so the block after the body
  is the last store's payload. The row sums are the payload of the adjacency block alone, in both cases.
  The diagonal is the payload of the block's square sub-block at column offset 512·(row tile), in both
  cases. The column sums are the adjacency block's column sums added to the zero block at a first tile
  (the zero block stored first is read back whole), and to the running contents at a later tile.
-/
import proofs.«129983_j84911503442515_2_alg».proof.Proof.SumsFrame
import Idealize.ShloMosaic.Lib.Pipeline.Value

-- membership in a rectangle of these extents recurses once per coordinate of the long axes
set_option maxRecDepth 16384
set_option pp.maxSteps 5000
set_option pp.deepTerms false

noncomputable section

namespace Cert.KernelIdeal.Sums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- The row sums at a first tile: the one covering store's payload, whose load reads the whole adjacency block. -/
theorem out_A_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc : cond0_0 i) (x : Vec F S1x512x2048 .f32) :
    out0_A_1 c i arg2 harg2 arg3 harg3 arg4 harg4 arg5 harg5 hc x = k0_pay4 x := by
  unfold out0_A_1
  rw [View.read_writes_eq_canon _ _ _ (cover0_A_1 c i arg2 harg2 arg3 harg3 arg4 harg4 arg5 harg5 hc x)]
  unfold kernelRun0_A
  dsimp only
  rw [View.canon_unit_zero hz3]
  simp only [View.readAt_eq_ld, harg2.read_unread, View.ld_unit_zero (S := S1x512x2048) hz3]

/-- The row sums at a later tile: the same. -/
theorem out_B_1 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc : ¬cond0_0 i) (x : Vec F S1x512x2048 .f32) (xo : Vec F S1x1x2048 .f32) :
    out0_B_1 c i arg2 harg2 arg3 harg3 arg4 harg4 arg5 harg5 hc x xo = k0_pay4 x := by
  unfold out0_B_1
  rw [View.read_writes_eq_canon _ _ _ (cover0_B_1 c i arg2 harg2 arg3 harg3 arg4 harg4 arg5 harg5 hc x xo)]
  unfold kernelRun0_B
  dsimp only
  rw [View.canon_unit_zero hz3]
  simp only [View.readAt_eq_ld, harg2.read_unread, View.ld_unit_zero (S := S1x512x2048) hz3]

/-- The diagonal at a first tile: the payload of the square sub-block loaded at column offset 512·(row tile). -/
theorem out_A_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc : cond0_0 i) (x : Vec F S1x512x2048 .f32) :
    out0_A_2 c i arg2 harg2 arg3 harg3 arg4 harg4 arg5 harg5 hc x = k0_pay1 (k0_pay6 (View.ld x (Rect.unit (s := S1x512x2048) (k0_off1 i) S1x512x512.size (k0_off1_inb i)))) := by
  unfold out0_A_2
  rw [View.read_writes_eq_canon _ _ _ (cover0_A_2 c i arg2 harg2 arg3 harg3 arg4 harg4 arg5 harg5 hc x)]
  unfold kernelRun0_A
  dsimp only
  sl_unfold_words
  rw [View.canon_unit_zero hz3]
  simp only [View.readAt_eq_ld, harg2.read_unread]

/-- The diagonal at a later tile: the same. -/
theorem out_B_2 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc : ¬cond0_0 i) (x : Vec F S1x512x2048 .f32) (xo : Vec F S1x1x2048 .f32) :
    out0_B_2 c i arg2 harg2 arg3 harg3 arg4 harg4 arg5 harg5 hc x xo = k0_pay1 (k0_pay6 (View.ld x (Rect.unit (s := S1x512x2048) (k0_off1 i) S1x512x512.size (k0_off1_inb i)))) := by
  unfold out0_B_2
  rw [View.read_writes_eq_canon _ _ _ (cover0_B_2 c i arg2 harg2 arg3 harg3 arg4 harg4 arg5 harg5 hc x xo)]
  unfold kernelRun0_B
  dsimp only
  sl_unfold_words
  rw [View.canon_unit_zero hz3]
  simp only [View.readAt_eq_ld, harg2.read_unread]

/-- The column sums at a first tile: the zero block is stored, read back whole, and the adjacency block's
    column sums are added to it. -/
theorem out_A_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc : cond0_0 i) (x : Vec F S1x512x2048 .f32) :
    out0_A_3 c i arg2 harg2 arg3 harg3 arg4 harg4 arg5 harg5 hc x = k0_pay5 x k0_pay2 := by
  unfold out0_A_3
  rw [View.read_writes_eq_canon _ _ _ (cover0_A_3 c i arg2 harg2 arg3 harg3 arg4 harg4 arg5 harg5 hc x)]
  unfold kernelRun0_A
  dsimp only
  sl_unfold_words
  rw [View.canon_cons_unit_zero (S := S1x1x2048) hz3, View.readCov_unit_zero (S := S1x1x2048) _ hz3]
  simp only [View.readAt_eq_ld, harg2.read_unread, View.ld_unit_zero (S := S1x512x2048) hz3]

/-- The column sums at a later tile: the adjacency block's column sums added to the running contents. -/
theorem out_B_3 (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x1x2048 .f32) (harg5 : arg5.IsWhole) (hc : ¬cond0_0 i) (x : Vec F S1x512x2048 .f32) (xo : Vec F S1x1x2048 .f32) :
    out0_B_3 c i arg2 harg2 arg3 harg3 arg4 harg4 arg5 harg5 hc x xo = k0_pay5 x xo := by
  unfold out0_B_3
  rw [View.read_writes_eq_canon _ _ _ (cover0_B_3 c i arg2 harg2 arg3 harg3 arg4 harg4 arg5 harg5 hc x xo)]
  unfold kernelRun0_B
  dsimp only
  rw [View.canon_unit_zero hz3]
  simp only [View.readAt_eq_ld, harg2.read_unread, harg5.read_unread, View.ld_unit_zero (S := S1x512x2048) hz3, View.ld_unit_zero (S := S1x1x2048) hz3]

end Cert.KernelIdeal.Sums

end
-- ==== Proof.SumsPay.lean ====
/-
  The sums kernel's payloads read at an index, over the extended reals.

  The row-sum payload at row r is the sum of the block's row r over its 2048 columns. The column-sum
  payload at column j is the running contents at j plus the sum of the block's column j over its 512
  rows; the zero block reads 0 everywhere. The diagonal payload at row r is the lane sum of row r of the
  square sub-block with every entry but the one at column r replaced by zero: that entry.
-/
import proofs.«129983_j84911503442515_2_alg».proof.Proof.Gen.KernelIdeal.Skeleton
import Idealize.ShloMosaic.Lib.Pipeline.Value
import Idealize.ShloMosaic.Lib.ValueIdx
import Idealize.ShloMosaic.PureOps.Ideal.Laws

set_option maxRecDepth 16384
set_option pp.maxSteps 5000
set_option pp.deepTerms false

noncomputable section

namespace Cert.KernelIdeal.Sums

open Cert.KernelIdeal Cert.KernelIdeal.Gen
open Idealize.ShloMosaic Idealize.ShloMosaic.ValueIdx

/-- A lifted index of a rank-2 reduction along the columns is (row, column). -/
theorem lift_cols_eq (r : Fin 512) (k : Fin 2048) :
    (reduces_S512x2048_S512.lift (ix1 r) k : S512x2048.Idx) = ix2 r k := by
  funext a; apply Fin.ext; match a with | ⟨0, _⟩ => rfl | ⟨1, _⟩ => rfl

/-- A lifted index of a rank-2 reduction along the rows is (row, column). -/
theorem lift_rows_eq (j : Fin 2048) (r : Fin 512) :
    (reduces_S512x2048_S2048.lift (ix1 j) r : S512x2048.Idx) = ix2 r j := by
  funext a; apply Fin.ext; match a with | ⟨0, _⟩ => rfl | ⟨1, _⟩ => rfl

/-- The same for the square sub-block, along its columns. -/
theorem lift_sq_eq (r k : Fin 512) :
    (reduces_S512x512_S512.lift (ix1 r) k : S512x512.Idx) = ix2 r k := by
  funext a; apply Fin.ext; match a with | ⟨0, _⟩ => rfl | ⟨1, _⟩ => rfl

/-- The block with its leading unit axis dropped, at (r, k), is the block at (0, r, k). -/
theorem pay3_apply (x : Vec Ideal S1x512x2048 .f32) (r : Fin 512) (k : Fin 2048) :
    k0_pay3 x (ix2 r k) = x (ix3 (0 : Fin 1) r k) := by
  unfold k0_pay3
  refine shapeCast_apply x shapeCasts_S1x512x2048_S512x2048 (ix2 r k) (ix3 (0 : Fin 1) r k) ?_
  rw [Shape.rowMajor_val_three, Shape.rowMajor_val_two]
  show (0 * 512 + r.val) * 2048 + k.val = r.val * 2048 + k.val
  omega

/-- THE ROW SUMS: row r of the payload is the sum of the block's row r. -/
theorem pay4_apply (x : Vec Ideal S1x512x2048 .f32) (r : Fin 512) :
    k0_pay4 x (ix3 (0 : Fin 1) r (0 : Fin 1)) = ∑ k : Fin 2048, x (ix3 (0 : Fin 1) r k) := by
  unfold k0_pay4
  refine (shapeCast_apply _ shapeCasts_S512x1_S1x512x1 (ix3 (0 : Fin 1) r (0 : Fin 1)) (ix2 r (0 : Fin 1)) ?_).trans ?_
  · rw [Shape.rowMajor_val_two, Shape.rowMajor_val_three]
    show r.val * 1 + 0 = (0 * 512 + r.val) * 1 + 0
    omega
  refine (shapeCast_apply _ shapeCasts_S512_S512x1 (ix2 r (0 : Fin 1)) (ix1 r) ?_).trans ?_
  · rw [Shape.rowMajor_val_one, Shape.rowMajor_val_two]
    show r.val = r.val * 1 + 0
    omega
  refine (Ideal.multiReduction_add_single _ _ reduces_S512x2048_S512 _ _ (ix1 r)).trans ?_
  show (∑ k : Fin 2048, k0_pay3 x (reduces_S512x2048_S512.lift (ix1 r) k)) = _
  refine Finset.sum_congr rfl fun k _ => ?_
  exact (congrArg (k0_pay3 x) (lift_cols_eq r k)).trans (pay3_apply x r k)

/-- The zero block reads 0. -/
theorem pay2_apply (j : Fin 2048) : (k0_pay2 (F := Ideal)) (ix3 (0 : Fin 1) (0 : Fin 1) j) = 0 := by
  unfold k0_pay2
  refine (shapeCast_apply _ shapeCasts_S1x2048_S1x1x2048 (ix3 (0 : Fin 1) (0 : Fin 1) j) (ix2 (0 : Fin 1) j) ?_).trans ?_
  · rw [Shape.rowMajor_val_two, Shape.rowMajor_val_three]
    show 0 * 2048 + j.val = (0 * 1 + 0) * 2048 + j.val
    omega
  exact Ideal.ofBits_zero_f32

/-- THE COLUMN SUMS: column j of the payload is the running contents at j plus the sum of the block's column j. -/
theorem pay5_apply (x : Vec Ideal S1x512x2048 .f32) (xo : Vec Ideal S1x1x2048 .f32) (j : Fin 2048) :
    k0_pay5 x xo (ix3 (0 : Fin 1) (0 : Fin 1) j)
      = xo (ix3 (0 : Fin 1) (0 : Fin 1) j) + ∑ r : Fin 512, x (ix3 (0 : Fin 1) r j) := by
  unfold k0_pay5
  refine (shapeCast_apply _ shapeCasts_S1x2048_S1x1x2048 (ix3 (0 : Fin 1) (0 : Fin 1) j) (ix2 (0 : Fin 1) j) ?_).trans ?_
  · rw [Shape.rowMajor_val_two, Shape.rowMajor_val_three]
    show 0 * 2048 + j.val = (0 * 1 + 0) * 2048 + j.val
    omega
  refine (addf_apply _ _ (ix2 (0 : Fin 1) j)).trans ?_
  refine congrArg₂ (· + ·) ?_ ?_
  · refine shapeCast_apply xo shapeCasts_S1x1x2048_S1x2048 (ix2 (0 : Fin 1) j) (ix3 (0 : Fin 1) (0 : Fin 1) j) ?_
    rw [Shape.rowMajor_val_three, Shape.rowMajor_val_two]
    show (0 * 1 + 0) * 2048 + j.val = 0 * 2048 + j.val
    omega
  · refine (shapeCast_apply _ shapeCasts_S2048_S1x2048 (ix2 (0 : Fin 1) j) (ix1 j) ?_).trans ?_
    · rw [Shape.rowMajor_val_one, Shape.rowMajor_val_two]
      show j.val = 0 * 2048 + j.val
      omega
    refine (Ideal.multiReduction_add_single _ _ reduces_S512x2048_S2048 _ _ (ix1 j)).trans ?_
    show (∑ r : Fin 512, k0_pay3 x (reduces_S512x2048_S2048.lift (ix1 j) r)) = _
    refine Finset.sum_congr rfl fun r _ => ?_
    exact (congrArg (k0_pay3 x) (lift_rows_eq j r)).trans (pay3_apply x r j)

/-- The diagonal mask at (r, k): the column number equals the row number. -/
theorem mask_apply (r k : Fin 512) :
    cmpi .eq (iota .tc S512x512 32 [1] iota_S512x512_d1_w32)
        (broadcastTo S512x512 (iota .tc S512x1 32 [0] iota_S512x1_d0_w32) broadcasts_S512x1_S512x512) (ix2 r k)
      = if k = r then 1#1 else 0#1 := by
  show IntOp.cmpi .eq (iota .tc S512x512 32 [1] iota_S512x512_d1_w32 (ix2 r k))
      (broadcastTo S512x512 (iota .tc S512x1 32 [0] iota_S512x1_d0_w32) broadcasts_S512x1_S512x512 (ix2 r k)) = _
  rw [iota_single_apply, broadcastTo_apply _ broadcasts_S512x1_S512x512 (ix2 r k) (ix2 r (0 : Fin 1)) (by
    intro a
    match a with
    | ⟨0, _⟩ => rfl
    | ⟨1, _⟩ => rfl), iota_single_apply]
  show IntOp.cmpi .eq (BitVec.ofNat 32 k.val) (BitVec.ofNat 32 r.val) = _
  have hk : k.val < 512 := k.isLt
  have hr : r.val < 512 := r.isLt
  by_cases h : k = r
  · rw [if_pos h, h]; exact IntOp.cmpi_eq.mpr rfl
  · rw [if_neg h]
    refine eq_zero_of_ne_one fun h1 => h (Fin.ext ?_)
    have e := congrArg BitVec.toNat (IntOp.cmpi_eq.mp h1)
    rw [BitVec.toNat_ofNat, BitVec.toNat_ofNat, Nat.mod_eq_of_lt (by omega), Nat.mod_eq_of_lt (by omega)] at e
    exact e

/-- THE DIAGONAL: row r of the payload is the sub-block's entry at (r, r). -/
theorem diag_apply (v : Vec Ideal S1x512x512 .f32) (r : Fin 512) :
    k0_pay1 (k0_pay6 v) (ix3 (0 : Fin 1) r (0 : Fin 1)) = v (ix3 (0 : Fin 1) r r) := by
  unfold k0_pay1
  refine (shapeCast_apply _ shapeCasts_S512x1_S1x512x1 (ix3 (0 : Fin 1) r (0 : Fin 1)) (ix2 r (0 : Fin 1)) ?_).trans ?_
  · rw [Shape.rowMajor_val_two, Shape.rowMajor_val_three]
    show r.val * 1 + 0 = (0 * 512 + r.val) * 1 + 0
    omega
  unfold k0_pay6
  refine (shapeCast_apply _ shapeCasts_S512_S512x1 (ix2 r (0 : Fin 1)) (ix1 r) ?_).trans ?_
  · rw [Shape.rowMajor_val_one, Shape.rowMajor_val_two]
    show r.val = r.val * 1 + 0
    omega
  refine (Ideal.multiReduction_add_single _ _ reduces_S512x512_S512 _ _ (ix1 r)).trans ?_
  have hterm : ∀ k : Fin 512,
      select (cmpi .eq (iota .tc S512x512 32 [1] iota_S512x512_d1_w32)
          (broadcastTo S512x512 (iota .tc S512x1 32 [0] iota_S512x1_d0_w32) broadcasts_S512x1_S512x512))
        (shapeCast S512x512 v shapeCasts_S1x512x512_S512x512)
        (broadcast S512x512 (Scalar.ofBits .f32 0x00000000#32 : Ideal .f32))
        (reduces_S512x512_S512.lift (ix1 r) k)
      = if k = r then v (ix3 (0 : Fin 1) r k) else 0 := by
    intro k
    rw [lift_sq_eq r k, select_apply, mask_apply r k]
    by_cases h : k = r
    · rw [if_pos h, if_pos h, select_one]
      refine shapeCast_apply v shapeCasts_S1x512x512_S512x512 (ix2 r k) (ix3 (0 : Fin 1) r k) ?_
      rw [Shape.rowMajor_val_three, Shape.rowMajor_val_two]
      show (0 * 512 + r.val) * 512 + k.val = r.val * 512 + k.val
      omega
    · rw [if_neg h, if_neg h, select_zero]
      exact Ideal.ofBits_zero_f32
  show (∑ k : Fin 512, _) = _
  rw [Finset.sum_congr rfl fun k _ => hterm k]
  rw [Finset.sum_ite_eq' Finset.univ r fun k => v (ix3 (0 : Fin 1) r k), if_pos (Finset.mem_univ r)]

end Cert.KernelIdeal.Sums

end
-- ==== Proof.SumsPoint.lean ====
/-
  The sums kernel point by point, over the extended reals: what each output's staging buffer holds after
  the body at point t, in terms of the adjacency array the region is entered with.

  Point t = 4·b + s is batch b, row tile s. Its adjacency block at (0, r, k) is the array at
  (b, 512·s + r, k). So after the body the row-sum block at row r holds the sum of the array's row
  512·s + r of batch b; the diagonal block at row r holds the array's entry at (b, 512·s + r, 512·s + r)
  (the square sub-block starts at column 512·s); and the column-sum block at column j holds the sum,
  over the tiles of the batch so far, of each tile's 512 rows of column j — by induction on the point,
  the first tile starting from the zero block and every later one adding to what the tile before left.
-/
import proofs.«129983_j84911503442515_2_alg».proof.Proof.SumsPieces
import proofs.«129983_j84911503442515_2_alg».proof.Proof.SumsPay
import proofs.«129983_j84911503442515_2_alg».proof.Proof.Spec

-- membership in a rectangle of these extents recurses once per coordinate of the long axes
set_option maxRecDepth 16384
set_option pp.maxSteps 5000
set_option pp.deepTerms false

noncomputable section

namespace Cert.KernelIdeal.Sums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.GraphConv

-- the buffer contents of the core when the region is entered, as extended reals
variable (V : (c : Dev nD) → (b : Ref sig .tc) → Buf (Elt Ideal) ((c : Thread nD τ).loc b))

/-! ## The grid's points and the windows' block indices, in closed form -/

theorem coords_eq : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

theorem index0_0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- The square sub-block's offsets: column 512·(row tile). -/
theorem off1_eq : ∀ i : grid0.Coords, k0_off1 i 0 = 0 ∧ k0_off1 i 1 = 0 ∧ k0_off1 i 2 = 512 * (i 1).val := by decide +kernel

/-! ## The adjacency block at an array index -/

/-- The adjacency block of point t, at its literal type. -/
abbrev blkA (c : Dev nD) (t : Fin cfg0.N) : Vec Ideal S1x512x2048 .f32 := iblk0 V c 0 t

/-- The adjacency block of point t at (0, r, k) is the array at (t / 4, 512·(t % 4) + r, k). -/
theorem iblk0_apply (c : Dev nD) (t : Fin cfg0.N) (r : Fin 512) (k : Fin 2048) (b : Fin 8) (i : Fin 2048)
    (hb : b.val = t.val / 4) (hi : i.val = 512 * (t.val % 4) + r.val) :
    blkA V c t (ix3 (0 : Fin 1) r k) = V c main_arg1 (ix3 b i k) := by
  unfold blkA iblk0
  rw [View.read_apply]
  show V c main_arg1 _ = V c main_arg1 _
  congr 1
  funext a
  apply Fin.ext
  match a with
  | ⟨0, _⟩ => show win0_0.index t 0 * 1 + 1 * 0 = b.val; rw [(index0_0 t).1]; omega
  | ⟨1, _⟩ => show win0_0.index t 1 * 512 + 1 * r.val = i.val; rw [(index0_0 t).2.1]; omega
  | ⟨2, _⟩ => show win0_0.index t 2 * 2048 + 1 * k.val = k.val; rw [(index0_0 t).2.2]; omega

/-- The square sub-block of a block at (0, r, k) is the block at (0, r, 512·(row tile) + k). -/
theorem ld_sub_apply (x : Vec Ideal S1x512x2048 .f32) (i : grid0.Coords) (r k : Fin 512) (k' : Fin 2048)
    (hk : k'.val = 512 * (i 1).val + k.val) :
    View.ld x (Rect.unit (s := S1x512x2048) (k0_off1 i) S1x512x512.size (k0_off1_inb i)) (ix3 (0 : Fin 1) r k)
      = x (ix3 (0 : Fin 1) r k') := by
  show x _ = x _
  congr 1
  funext a
  apply Fin.ext
  match a with
  | ⟨0, _⟩ => show k0_off1 i 0 + 1 * 0 = 0; rw [(off1_eq i).1]
  | ⟨1, _⟩ => show k0_off1 i 1 + 1 * r.val = r.val; rw [(off1_eq i).2.1]; omega
  | ⟨2, _⟩ => show k0_off1 i 2 + 1 * k.val = k'.val; rw [(off1_eq i).2.2]; omega

/-! ## The row sums and the diagonal at a point -/

/-- After the body at point t the row-sum block at row r holds the sum of the adjacency block's row r. -/
theorem out1At_apply (c : Dev nD) (t : Fin cfg0.N) (r : Fin 512) :
    out1At V c t (ix3 (0 : Fin 1) r (0 : Fin 1))
      = ∑ k : Fin 2048, blkA V c t (ix3 (0 : Fin 1) r k) := by
  by_cases h0 : t.val % 4 = 0
  · rw [out1At_A V c t h0, out_A_1 c (grid0.coords t) (ms0_0 t) (hs0_0 t) (ms0_1 t) (hs0_1 t) (ms0_2 t) (hs0_2 t) (ms0_3 t) (hs0_3 t) ((hcond0_0 t).mpr h0) (iblk0 V c 0 t)]
    exact pay4_apply (iblk0 V c 0 t) r
  · rw [out1At_B V c t h0, out_B_1 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt))]
    exact pay4_apply (iblk0 V c 0 t) r

/-- After the body at point t the diagonal block at row r holds the adjacency block's entry at
    (r, 512·(t % 4) + r). -/
theorem out2At_apply (c : Dev nD) (t : Fin cfg0.N) (r : Fin 512) (k' : Fin 2048) (hk : k'.val = 512 * (t.val % 4) + r.val) :
    out2At V c t (ix3 (0 : Fin 1) r (0 : Fin 1)) = blkA V c t (ix3 (0 : Fin 1) r k') := by
  have hk' : k'.val = 512 * (grid0.coords t 1).val + r.val := by rw [(coords_eq t).2]; exact hk
  by_cases h0 : t.val % 4 = 0
  · rw [out2At_A V c t h0, out_A_2 c (grid0.coords t) (ms0_0 t) (hs0_0 t) (ms0_1 t) (hs0_1 t) (ms0_2 t) (hs0_2 t) (ms0_3 t) (hs0_3 t) ((hcond0_0 t).mpr h0) (iblk0 V c 0 t)]
    exact (diag_apply _ r).trans (ld_sub_apply (iblk0 V c 0 t) (grid0.coords t) r r k' hk')
  · rw [out2At_B V c t h0, out_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (outsAt0 V c (t.val - 1) (Nat.lt_of_le_of_lt (Nat.sub_le _ _) t.isLt))]
    exact (diag_apply _ r).trans (ld_sub_apply (iblk0 V c 0 t) (grid0.coords t) r r k' hk')

/-! ## The column sums: the accumulation -/

/-- The sum over the 512 rows of row tile p % 4 of column j of batch p / 4: point p's addend. -/
def tileCol (A : IA → EReal) (p : ℕ) (j : Fin 2048) : EReal :=
  ∑ r : Fin 512, A (ix3 (⟨p / 4 % 8, Nat.mod_lt _ (by decide)⟩ : Fin 8)
    (⟨512 * (p % 4) + r.val, by have := r.isLt; have := Nat.mod_lt p (show 0 < 4 by decide); omega⟩ : Fin 2048) j)

/-- The adjacency block's column j summed over its rows is the point's addend. -/
theorem blockCol_eq (c : Dev nD) (t : Fin cfg0.N) (j : Fin 2048) :
    ∑ r : Fin 512, blkA V c t (ix3 (0 : Fin 1) r j) = tileCol (V c main_arg1) t.val j := by
  have hN : t.val < 32 := lt_of_lt_of_eq t.isLt (show cfg0.N = 32 from N_0)
  unfold tileCol
  refine Finset.sum_congr rfl fun r _ => ?_
  exact iblk0_apply V c t r j _ _ (by show t.val / 4 % 8 = t.val / 4; omega) rfl

/-- THE INVARIANT. After the body at point n the column-sum block at column j holds the sum of the addends
    of the points of n's batch up to n. -/
theorem acc_inv (c : Dev nD) : ∀ (n : ℕ) (h : n < cfg0.N) (j : Fin 2048),
    outsAt0 V c n h (ix3 (0 : Fin 1) (0 : Fin 1) j)
      = ∑ s ∈ Finset.range (n % 4 + 1), tileCol (V c main_arg1) (n - n % 4 + s) j
  | 0, h, j => by
    have e := outsAt0_A V c ⟨0, h⟩ rfl
    dsimp only at e
    rw [e, out_A_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) ((hcond0_0 ⟨0, h⟩).mpr rfl) (iblk0 V c 0 ⟨0, h⟩)]
    rw [pay5_apply, pay2_apply, zero_add, blockCol_eq V c ⟨0, h⟩ j]
    show _ = ∑ s ∈ Finset.range 1, _
    rw [Finset.sum_range_one]
  | n + 1, h, j => by
    by_cases h0 : (n + 1) % 4 = 0
    · have e := outsAt0_A V c ⟨n + 1, h⟩ h0
      dsimp only at e
      rw [e, out_A_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) ((hcond0_0 ⟨n + 1, h⟩).mpr h0) (iblk0 V c 0 ⟨n + 1, h⟩)]
      rw [pay5_apply, pay2_apply, zero_add, blockCol_eq V c ⟨n + 1, h⟩ j, h0]
      show _ = ∑ s ∈ Finset.range 1, _
      rw [Finset.sum_range_one]
      rfl
    · have e := outsAt0_B V c ⟨n + 1, h⟩ h0
      dsimp only at e
      rw [e, out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh)) (iblk0 V c 0 ⟨n + 1, h⟩)
        (outsAt0 V c (n + 1 - 1) (Nat.lt_of_le_of_lt (Nat.sub_le _ _) h))]
      rw [pay5_apply, blockCol_eq V c ⟨n + 1, h⟩ j]
      show outsAt0 V c n (Nat.lt_of_succ_lt h) (ix3 (0 : Fin 1) (0 : Fin 1) j) + _ = _
      rw [acc_inv c n (Nat.lt_of_succ_lt h) j]
      have e1 : (n + 1) % 4 = n % 4 + 1 := by omega
      have e2 : n + 1 - (n + 1) % 4 = n - n % 4 := by omega
      rw [e2, e1, Finset.sum_range_succ _ (n % 4 + 1)]
      congr 2
      show n + 1 = n - n % 4 + (n % 4 + 1)
      omega

end Cert.KernelIdeal.Sums

end
-- ==== Proof.SumsValue.lean ====
/-
  The sums kernel's value: after the region, over the extended reals, the three result arrays hold the
  row sums, the diagonal and the column sums of the adjacency array the region is entered with.

  For each result: the contents G the array should end with, as a function of its index; what every
  write-back writes is its point's block of G (the point's value from the per-point lemmas, the block's
  element sitting in the array at block index × block size + its coordinate); and the index asked about
  lies under the block of the point that owns its row tile (the row sums and the diagonal: point
  4·b + i / 512, written back at once) or its batch (the column sums: point 4·b + 3, the batch's last
  tile, the only one written back — where the accumulation has run over all four tiles, and four
  tiles of 512 rows are the 2048 rows of the column).
-/
import proofs.«129983_j84911503442515_2_alg».proof.Proof.SumsPoint

-- membership in a rectangle of these extents recurses once per coordinate of the long axes
set_option maxRecDepth 16384
set_option pp.maxSteps 5000
set_option pp.deepTerms false

noncomputable section

namespace Cert.KernelIdeal.Sums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.GraphConv

-- the buffer contents of the core when the region is entered, as extended reals
variable (V : (c : Dev nD) → (b : Ref sig .tc) → Buf (Elt Ideal) ((c : Thread nD τ).loc b))

/-! ## The output windows' block indices, in closed form -/

theorem index0_1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem index0_2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem index0_3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-! ## Indices of the blocks by their coordinates -/

theorem ex_row (y : S1x512x1.Idx) : ∃ r : Fin 512, y = ix3 (0 : Fin 1) r (0 : Fin 1) := by
  refine ⟨y 1, ?_⟩
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

theorem ex_col (y : S1x1x2048.Idx) : ∃ j : Fin 2048, y = ix3 (0 : Fin 1) (0 : Fin 1) j := by
  refine ⟨y 2, ?_⟩
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

theorem ix3_congr {b b' : Fin 8} {i i' : Fin 2048} (j : Fin 2048) (hb : b.val = b'.val) (hi : i.val = i'.val) :
    (ix3 b i j : IA) = ix3 b' i' j := by rw [Fin.ext hb, Fin.ext hi]

/-! ## Four tiles of 512 rows are the 2048 rows -/

theorem sum_tiles (f : Fin 2048 → EReal) :
    ∑ i : Fin 2048, f i
      = ∑ s : Fin 4, ∑ r : Fin 512, f ⟨512 * s.val + r.val, by have := s.isLt; have := r.isLt; omega⟩ := by
  rw [← Equiv.sum_comp (finProdFinEquiv (m := 4) (n := 512)) f, Fintype.sum_prod_type]
  refine Finset.sum_congr rfl fun s _ => Finset.sum_congr rfl fun r _ => congrArg f (Fin.ext ?_)
  show r.val + 512 * s.val = 512 * s.val + r.val
  omega

/-- The addends of a batch's four points sum to the batch's column sum. -/
theorem colSum_tiles (A : IA → EReal) (b : Fin 8) (j : Fin 2048) (p : ℕ) (hp : p % 4 = 0) (hb : p / 4 % 8 = b.val) :
    ∑ s ∈ Finset.range 4, tileCol A (p + s) j = colSum A b j := by
  unfold colSum
  rw [sum_tiles fun i => A (ix3 b i j), Finset.sum_range]
  refine Finset.sum_congr rfl fun s _ => ?_
  unfold tileCol
  refine Finset.sum_congr rfl fun r _ => congrArg A (ix3_congr j ?_ ?_)
  · show (p + s.val) / 4 % 8 = b.val
    have := s.isLt; omega
  · show 512 * ((p + s.val) % 4) + r.val = 512 * s.val + r.val
    have := s.isLt; omega

/-! ## The contents the result arrays end with -/

/-- The adjacency array as the region finds it. -/
abbrev Aof (c : Dev nD) : IA → EReal := V c main_arg1

/-- The row sums, as contents of the first result array. -/
def G1 (c : Dev nD) : Buf (Elt Ideal) ((c : Thread nD τ).loc main_v0_0) :=
  fun idx => rowSum (Aof V c) ⟨(idx 0).val, (idx 0).isLt⟩ ⟨(idx 1).val, (idx 1).isLt⟩
/-- The diagonal, as contents of the second result array. -/
def G2 (c : Dev nD) : Buf (Elt Ideal) ((c : Thread nD τ).loc main_v0_1) :=
  fun idx => diagOf (Aof V c) ⟨(idx 0).val, (idx 0).isLt⟩ ⟨(idx 1).val, (idx 1).isLt⟩
/-- The column sums, as contents of the third result array. -/
def G3 (c : Dev nD) : Buf (Elt Ideal) ((c : Thread nD τ).loc main_v0_2) :=
  fun idx => colSum (Aof V c) ⟨(idx 0).val, (idx 0).isLt⟩ ⟨(idx 2).val, (idx 2).isLt⟩

/-! ## What the write-backs write -/

/-- Every point writes back its block of the row sums. -/
theorem flushed1_eq (c : Dev nD) (t : Fin cfg0.N) :
    (dat0 V c).flushed 1 t = ((cfg0.win 1).blk t).view.read (Elt Ideal) (G1 V c) := by
  show (cfg0.win 1).cut (grid0.coords t) ((dat0 V c).after 1 t) = _
  rw [after0_1]
  funext y
  obtain ⟨r, rfl⟩ := ex_row y
  rw [View.read_apply]
  show out1At V c t (ix3 (0 : Fin 1) r (0 : Fin 1)) = G1 V c _
  refine (out1At_apply V c t r).trans ?_
  unfold G1 rowSum
  refine Finset.sum_congr rfl fun k _ => ?_
  refine iblk0_apply V c t r k _ _ ?_ ?_
  · show win0_1.index t 0 * 1 + 1 * 0 = t.val / 4
    rw [(index0_1 t).1]; omega
  · show win0_1.index t 1 * 512 + 1 * r.val = 512 * (t.val % 4) + r.val
    rw [(index0_1 t).2.1]; omega

/-- Every point writes back its block of the diagonal. -/
theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  funext y
  obtain ⟨r, rfl⟩ := ex_row y
  rw [View.read_apply]
  show out2At V c t (ix3 (0 : Fin 1) r (0 : Fin 1)) = G2 V c _
  unfold G2 diagOf
  have h1 : win0_2.index t 1 * 512 + 1 * r.val = 512 * (t.val % 4) + r.val := by rw [(index0_2 t).2.1]; omega
  refine (out2At_apply V c t r _ ?_).trans (iblk0_apply V c t r _ _ _ ?_ ?_)
  · exact h1
  · show win0_2.index t 0 * 1 + 1 * 0 = t.val / 4
    rw [(index0_2 t).1]; omega
  · exact h1

/-- A batch's last point writes back its block of the column sums. -/
theorem flushed3_eq (c : Dev nD) (t : Fin cfg0.N) (hf : (cfg0.win 3).flush t = true) :
    (dat0 V c).flushed 3 t = ((cfg0.win 3).blk t).view.read (Elt Ideal) (G3 V c) := by
  have hN : t.val < 32 := lt_of_lt_of_eq t.isLt (show cfg0.N = 32 from N_0)
  have h3 : t.val % 4 = 3 := (flush0_3 t).mp hf
  show (cfg0.win 3).cut (grid0.coords t) ((dat0 V c).after 3 t) = _
  rw [after0_3]
  funext y
  obtain ⟨j, rfl⟩ := ex_col y
  rw [View.read_apply]
  show outsAt0 V c t.val t.isLt (ix3 (0 : Fin 1) (0 : Fin 1) j) = G3 V c _
  rw [acc_inv V c t.val t.isLt j, h3]
  unfold G3
  refine (colSum_tiles (Aof V c) _ j (t.val - 3) (by omega) ?_).trans (congrArg (colSum (Aof V c) _) (Fin.ext ?_))
  · show (t.val - 3) / 4 % 8 = win0_3.index t 0 * 1 + 1 * 0
    rw [(index0_3 t).1]; omega
  · show j.val = win0_3.index t 2 * 2048 + 1 * j.val
    rw [(index0_3 t).2.2]; omega

/-! ## Under which point's block an index lies -/

theorem mem_blk1 (t : Fin cfg0.N) (b : Fin 8) (i : Fin 2048) (hb : b.val = t.val / 4) (hi : i.val / 512 = t.val % 4) :
    (ix3 b i (0 : Fin 1) : S8x2048x1.Idx) ∈ ((cfg0.win 1).blk t).view.set := by
  show _ ∈ ((View.whole main_v0_0).slice (win0_1.rect t)).set
  rw [View.set_slice_whole, Rect.mem_set_unit]
  intro a
  match a with
  | ⟨0, _⟩ =>
    show win0_1.index t 0 * 1 ≤ b.val ∧ b.val < win0_1.index t 0 * 1 + 1
    rw [(index0_1 t).1]; omega
  | ⟨1, _⟩ =>
    show win0_1.index t 1 * 512 ≤ i.val ∧ i.val < win0_1.index t 1 * 512 + 512
    rw [(index0_1 t).2.1]; omega
  | ⟨2, _⟩ =>
    show win0_1.index t 2 * 1 ≤ 0 ∧ 0 < win0_1.index t 2 * 1 + 1
    rw [(index0_1 t).2.2]; omega

theorem mem_blk2 (t : Fin cfg0.N) (b : Fin 8) (i : Fin 2048) (hb : b.val = t.val / 4) (hi : i.val / 512 = t.val % 4) :
    (ix3 b i (0 : Fin 1) : S8x2048x1.Idx) ∈ ((cfg0.win 2).blk t).view.set := by
  show _ ∈ ((View.whole main_v0_1).slice (win0_2.rect t)).set
  rw [View.set_slice_whole, Rect.mem_set_unit]
  intro a
  match a with
  | ⟨0, _⟩ =>
    show win0_2.index t 0 * 1 ≤ b.val ∧ b.val < win0_2.index t 0 * 1 + 1
    rw [(index0_2 t).1]; omega
  | ⟨1, _⟩ =>
    show win0_2.index t 1 * 512 ≤ i.val ∧ i.val < win0_2.index t 1 * 512 + 512
    rw [(index0_2 t).2.1]; omega
  | ⟨2, _⟩ =>
    show win0_2.index t 2 * 1 ≤ 0 ∧ 0 < win0_2.index t 2 * 1 + 1
    rw [(index0_2 t).2.2]; omega

theorem mem_blk3 (t : Fin cfg0.N) (b : Fin 8) (i : Fin 2048) (hb : b.val = t.val / 4) :
    (ix3 b (0 : Fin 1) i : S8x1x2048.Idx) ∈ ((cfg0.win 3).blk t).view.set := by
  show _ ∈ ((View.whole main_v0_2).slice (win0_3.rect t)).set
  rw [View.set_slice_whole, Rect.mem_set_unit]
  intro a
  match a with
  | ⟨0, _⟩ =>
    show win0_3.index t 0 * 1 ≤ b.val ∧ b.val < win0_3.index t 0 * 1 + 1
    rw [(index0_3 t).1]; omega
  | ⟨1, _⟩ =>
    show win0_3.index t 1 * 1 ≤ 0 ∧ 0 < win0_3.index t 1 * 1 + 1
    rw [(index0_3 t).2.1]; omega
  | ⟨2, _⟩ =>
    show win0_3.index t 2 * 2048 ≤ i.val ∧ i.val < win0_3.index t 2 * 2048 + 2048
    rw [(index0_3 t).2.2]; have := i.isLt; omega

/-! ## The value -/

/-- After the region the first result array holds the adjacency's row sums. -/
theorem rowsum_eq (c : Dev nD) (b : Fin 8) (i : Fin 2048) :
    (dat0 (F := Ideal) V c).arrAt 1 cfg0.N (ix3 b i (0 : Fin 1)) = rowSum (V c main_arg1) b i := by
  have hN : cfg0.N = 32 := N_0
  have hb := b.isLt
  have hi := i.isLt
  exact (dat0 V c).arrAt_apply_of_mem 1 (G1 V c) (fun t _ => flushed1_eq V c t) cfg0.N
    ⟨4 * b.val + i.val / 512, by omega⟩ (ix3 b i (0 : Fin 1)) (by show 4 * b.val + i.val / 512 < cfg0.N; omega) (flush0_1 _)
    (mem_blk1 _ b i (by show b.val = (4 * b.val + i.val / 512) / 4; omega) (by show i.val / 512 = (4 * b.val + i.val / 512) % 4; omega))

/-- After the region the second result array holds the adjacency's diagonal. -/
theorem diag_eq (c : Dev nD) (b : Fin 8) (i : Fin 2048) :
    (dat0 (F := Ideal) V c).arrAt 2 cfg0.N (ix3 b i (0 : Fin 1)) = diagOf (V c main_arg1) b i := by
  have hN : cfg0.N = 32 := N_0
  have hb := b.isLt
  have hi := i.isLt
  exact (dat0 V c).arrAt_apply_of_mem 2 (G2 V c) (fun t _ => flushed2_eq V c t) cfg0.N
    ⟨4 * b.val + i.val / 512, by omega⟩ (ix3 b i (0 : Fin 1)) (by show 4 * b.val + i.val / 512 < cfg0.N; omega) (flush0_2 _)
    (mem_blk2 _ b i (by show b.val = (4 * b.val + i.val / 512) / 4; omega) (by show i.val / 512 = (4 * b.val + i.val / 512) % 4; omega))

/-- After the region the third result array holds the adjacency's column sums. -/
theorem colsum_eq (c : Dev nD) (b : Fin 8) (i : Fin 2048) :
    (dat0 (F := Ideal) V c).arrAt 3 cfg0.N (ix3 b (0 : Fin 1) i) = colSum (V c main_arg1) b i := by
  have hN : cfg0.N = 32 := N_0
  have hb := b.isLt
  exact (dat0 V c).arrAt_apply_of_mem 3 (G3 V c) (fun t hf => flushed3_eq V c t hf) cfg0.N
    ⟨4 * b.val + 3, by omega⟩ (ix3 b (0 : Fin 1) i) (by show 4 * b.val + 3 < cfg0.N; omega)
    ((flush0_3 _).mpr (by show (4 * b.val + 3) % 4 = 3; omega))
    (mem_blk3 _ b i (by show b.val = (4 * b.val + 3) / 4; omega))

end Cert.KernelIdeal.Sums

end
-- ==== Proof.AggPieces.lean ====
/-
  What the pieces the two whole-body runs of the aggregation kernel found ARE, as values, generic in the float
  instance. At a batch's first row tile the scratch is left holding the hidden-layer payload of the batch's features and
  the weights, and the output block the aggregation payload of the tile's inputs, of that same hidden layer (read back
  whole from the scratch just written) and of its rows at the tile (read back through the tile's rectangle). At a later
  tile the output block is the same payload over whatever the scratch held.
-/
import proofs.«129983_j84911503442515_2_alg».proof.Proof.AggFrame
import Idealize.ShloMosaic.Lib.Pipeline.Value

-- membership in a rectangle of the kernel's extents recurses once per coordinate of the long axes
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first row tile the scratch is left at the hidden-layer payload of the features' and the weights' blocks:
    its one covering store's payload, whose loads read the whole buffers. -/
theorem sout_A (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) :
    sout1_A_0 c i arg2 harg2 arg3 harg3 arg4 harg4 arg5 harg5 arg6 harg6 arg7 harg7 arg8 harg8 hc0 x0 x1 x2 x3 x4 = k1_pay1 x1 x2 := by
  unfold sout1_A_0
  rw [View.read_writes_eq_canon _ _ _ (scover1_A_0 c i arg2 harg2 arg3 harg3 arg4 harg4 arg5 harg5 arg6 harg6 arg7 harg7 arg8 harg8 hc0 x0 x1 x2 x3 x4)]
  unfold kernelRun1_A
  dsimp only
  sl_unfold_words
  rw [View.canon_unit_zero hz2]
  simp only [View.readAt_eq_ld, harg3.read_unread, harg4.read_unread,
    View.ld_unit_zero (S := S1x2048x128) hz3, View.ld_unit_zero (S := S128x128) hz2]

/-- At a batch's first row tile the output block is left at the aggregation payload of the tile's adjacency rows,
    reciprocal degrees and correction coefficients, of the hidden layer just stored (the whole scratch read back) and of
    the hidden layer's rows at the tile (the scratch read back through the tile's rectangle). -/
theorem out_A (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : cond1_0 i)
    (x0 : Vec F S1x512x2048 .f32) (x1 : Vec F S1x2048x128 .f32) (x2 : Vec F S128x128 .f32) (x3 : Vec F S1x512x1 .f32) (x4 : Vec F S1x512x1 .f32) :
    out1_A_5 c i arg2 harg2 arg3 harg3 arg4 harg4 arg5 harg5 arg6 harg6 arg7 harg7 arg8 harg8 hc0 x0 x1 x2 x3 x4
      = k1_pay2 x0 x3 x4 (k1_pay1 x1 x2) (View.ld (k1_pay1 x1 x2) (Rect.unit (s := S2048x128) (k1_off1 i) S512x128.size (k1_off1_inb i))) := by
  unfold out1_A_5
  rw [View.read_writes_eq_canon _ _ _ (cover1_A_5 c i arg2 harg2 arg3 harg3 arg4 harg4 arg5 harg5 arg6 harg6 arg7 harg7 arg8 harg8 hc0 x0 x1 x2 x3 x4)]
  unfold kernelRun1_A
  dsimp only
  sl_unfold_words
  rw [View.canon_unit_zero hz3, View.readCov_unit_zero (S := S2048x128) _ hz2, View.readAt_writes_junk_eq_canon,
    View.canon_unit_zero hz2]
  simp only [View.readAt_eq_ld, harg2.read_unread, harg3.read_unread, harg4.read_unread, harg5.read_unread, harg6.read_unread,
    View.ld_unit_zero (S := S1x512x2048) hz3, View.ld_unit_zero (S := S1x512x1) hz3,
    View.ld_unit_zero (S := S1x2048x128) hz3, View.ld_unit_zero (S := S128x128) hz2]

/-- At a later row tile the output block is left at the same payload over the scratch's contents `xs0`: read whole,
    and through the tile's rectangle. -/
theorem out_B (c : Dev nD) (i : grid1.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x128 .f32) (harg7 : arg7.IsWhole) (arg8 : Memref sig .tc .vmem S2048x128 .bf16) (harg8 : arg8.IsWhole) (hc0 : ¬cond1_0 i)
    (x0 : Vec F S1x512x2048 .f32) (x1 : Vec F S1x2048x128 .f32) (x2 : Vec F S128x128 .f32) (x3 : Vec F S1x512x1 .f32) (x4 : Vec F S1x512x1 .f32) (xs0 : Vec F S2048x128 .bf16) :
    out1_B_5 c i arg2 harg2 arg3 harg3 arg4 harg4 arg5 harg5 arg6 harg6 arg7 harg7 arg8 harg8 hc0 x0 x1 x2 x3 x4 xs0
      = k1_pay2 x0 x3 x4 xs0 (View.ld xs0 (Rect.unit (s := S2048x128) (k1_off1 i) S512x128.size (k1_off1_inb i))) := by
  unfold out1_B_5
  rw [View.read_writes_eq_canon _ _ _ (cover1_B_5 c i arg2 harg2 arg3 harg3 arg4 harg4 arg5 harg5 arg6 harg6 arg7 harg7 arg8 harg8 hc0 x0 x1 x2 x3 x4 xs0)]
  unfold kernelRun1_B
  dsimp only
  rw [View.canon_unit_zero hz3]
  simp only [View.readAt_eq_ld, harg2.read_unread, harg5.read_unread, harg6.read_unread, harg8.read_unread,
    View.ld_unit_zero (S := S1x512x2048) hz3, View.ld_unit_zero (S := S1x512x1) hz3, View.ld_unit_zero (S := S2048x128) hz2]

end Cert.KernelIdeal.Agg

end
-- ==== Proof.AggPay.lean ====
/-
  The two payloads of the aggregation kernel read at an index, over the extended reals. The hidden-layer payload at
  row `j`, column `e` is the rectified sum over `k` of the features' `(0, j, k)` entry times the weights' `(e, k)` entry
  (the weights enter transposed); the aggregation payload at row `r`, column `e` of the tile is the sum over `j` of the
  row's reciprocal degree times its adjacency entry `(0, r, j)` times the hidden layer's `(j, e)` entry, plus the row's
  correction coefficient times the hidden layer's tile row `(r, e)`. Narrowing and widening between the two float
  formats are the identity on the extended reals; a product into the zero accumulator is the bare sum.
-/
import proofs.«129983_j84911503442515_2_alg».proof.Proof.Gen.KernelIdeal.Skeleton
import proofs.«129983_j84911503442515_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Agg

open Cert.KernelIdeal Cert.KernelIdeal.Gen Cert.GraphConv
open Idealize.ShloMosaic Idealize.ShloMosaic.ValueIdx

/-! ## A plain matrix product into the zero accumulator -/

/-- An m×k by k×n product (contracting the left operand's columns with the right operand's rows) into the zero
    accumulator, read at `(a, b)`: the sum over the contracted coordinate of the products of the entries. -/
theorem matmul_plain_zero_apply {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## A column broadcast along the rows -/

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The rectifier -/

/-- The select between a value and the slope times it, on "the value is at least zero", is the leaky rectifier. -/
theorem leaky_select (a : Ideal .f32) :
    Scalar.select (FloatOps.cmpf (F := Ideal) .oge a (Ideal.ofBits .f32 0x00000000#32)) a
        (FloatOps.mulf (F := Ideal) (Ideal.ofBits .f32 0x3C23D70A#32) a)
      = leaky a := by
  rw [Ideal.cmpf_def, Ideal.ofBits_zero_f32]
  unfold Ideal.cmp Scalar.select leaky Cert.GraphConv.slope
  by_cases h : (0 : EReal) ≤ a
  · simp [h]
  · simp [h]

/-! ## The hidden-layer payload -/

/-- The hidden layer's product at `(j, e)`: the features' row `j` against the weights' row `e`. -/
theorem hidProd_apply (x1 : Vec Ideal S1x2048x128 .f32) (x2 : Vec Ideal S128x128 .f32) (j : Fin 2048) (e : Fin 128) :
    matmul dot_S2048x128_S128x128_S2048x128_1_0_0_1_n_n none
        (truncf .bf16 (shapeCast S2048x128 x1 shapeCasts_S1x2048x128_S2048x128) bitsLt_bf16_f32)
        (transpose S128x128 [1, 0] (truncf .bf16 x2 bitsLt_bf16_f32) transposes_S128x128_p1_0_S128x128)
        (constant (F := Ideal) S2048x128 .f32 0x00000000#32) (ix2 j e)
      = ∑ k : Fin 128, x1 (ix3 (0 : Fin 1) j k) * x2 (ix2 e k) := by
  refine (matmul_plain_zero_apply (m := 2048) (k := 128) (n := 128) (φ₁ := .bf16) (φ₂ := .bf16) dot_S2048x128_S128x128_S2048x128_1_0_0_1_n_n_wf _ _ j e).trans ?_
  refine Finset.sum_congr rfl fun k _ => ?_
  have hl : shapeCast S2048x128 x1 shapeCasts_S1x2048x128_S2048x128 (ix2 j k) = x1 (ix3 (0 : Fin 1) j k) :=
    shapeCast_1ab_ab_apply x1 _ j k
  have hr : transpose S128x128 [1, 0] (truncf (F := Ideal) .bf16 x2 bitsLt_bf16_f32) transposes_S128x128_p1_0_S128x128 (ix2 k e)
      = x2 (ix2 e k) :=
    transpose_ix2_apply (truncf (F := Ideal) .bf16 x2 bitsLt_bf16_f32) _ k e
  exact congrArg₂ (· * ·) hl hr

/-- The hidden-layer payload at `(j, e)`. -/
theorem pay1_apply (x1 : Vec Ideal S1x2048x128 .f32) (x2 : Vec Ideal S128x128 .f32) (j : Fin 2048) (e : Fin 128) :
    k1_pay1 (F := Ideal) x1 x2 (ix2 j e) = leaky (∑ k : Fin 128, x1 (ix3 (0 : Fin 1) j k) * x2 (ix2 e k)) := by
  unfold k1_pay1
  refine (congrFun (shapeCast_self _ _) _).trans ?_
  refine (leaky_select _).trans ?_
  exact congrArg leaky (hidProd_apply x1 x2 j e)

/-! ## The aggregation payload -/

/-- The scaled adjacency's product with the hidden layer at `(r, e)`. -/
theorem aggProd_apply (x0 : Vec Ideal S1x512x2048 .f32) (x3 : Vec Ideal S1x512x1 .f32) (h : Vec Ideal S2048x128 .bf16)
    (r : Fin 512) (e : Fin 128) :
    matmul (φ₂ := .bf16) dot_S512x2048_S2048x128_S512x128_1_0_0_1_n_n none
        (truncf .bf16 (mulf (broadcastTo S512x2048 (shapeCast S512x1 x3 shapeCasts_S1x512x1_S512x1) broadcasts_S512x1_S512x2048)
          (shapeCast S512x2048 x0 shapeCasts_S1x512x2048_S512x2048)) bitsLt_bf16_f32)
        h (constant (F := Ideal) S512x128 .f32 0x00000000#32) (ix2 r e)
      = ∑ j : Fin 2048, (x3 (ix3 (0 : Fin 1) r (0 : Fin 1)) * x0 (ix3 (0 : Fin 1) r j)) * h (ix2 j e) := by
  refine (matmul_plain_zero_apply (m := 512) (k := 2048) (n := 128) (φ₁ := .bf16) (φ₂ := .bf16) dot_S512x2048_S2048x128_S512x128_1_0_0_1_n_n_wf _ _ r e).trans ?_
  refine Finset.sum_congr rfl fun j _ => ?_
  have hb : broadcastTo S512x2048 (shapeCast S512x1 x3 shapeCasts_S1x512x1_S512x1) broadcasts_S512x1_S512x2048 (ix2 r j)
      = x3 (ix3 (0 : Fin 1) r (0 : Fin 1)) :=
    (broadcastTo_a1_ab_apply _ _ r j).trans (shapeCast_1ab_ab_apply x3 _ r (0 : Fin 1))
  have ha : shapeCast S512x2048 x0 shapeCasts_S1x512x2048_S512x2048 (ix2 r j) = x0 (ix3 (0 : Fin 1) r j) :=
    shapeCast_1ab_ab_apply x0 _ r j
  exact congrArg (· * h (ix2 j e)) (congrArg₂ (· * ·) hb ha)

/-- The aggregation payload at `(u, r, e)` (`u` the block's unit batch coordinate). -/
theorem pay2_apply (x0 : Vec Ideal S1x512x2048 .f32) (x3 x4 : Vec Ideal S1x512x1 .f32) (h : Vec Ideal S2048x128 .bf16)
    (hh : Vec Ideal S512x128 .bf16) (u : Fin 1) (r : Fin 512) (e : Fin 128) :
    k1_pay2 (F := Ideal) x0 x3 x4 h hh (ix3 u r e)
      = (∑ j : Fin 2048, (x3 (ix3 (0 : Fin 1) r (0 : Fin 1)) * x0 (ix3 (0 : Fin 1) r j)) * h (ix2 j e))
        + x4 (ix3 (0 : Fin 1) r (0 : Fin 1)) * hh (ix2 r e) := by
  unfold k1_pay2
  refine (shapeCast_ab_1ab_apply _ _ u r e).trans ?_
  have hc : broadcastTo S512x128 (shapeCast S512x1 x4 shapeCasts_S1x512x1_S512x1) broadcasts_S512x1_S512x128 (ix2 r e)
      = x4 (ix3 (0 : Fin 1) r (0 : Fin 1)) :=
    (broadcastTo_a1_ab_apply _ _ r e).trans (shapeCast_1ab_ab_apply x4 _ r (0 : Fin 1))
  exact congrArg₂ (· + ·) (aggProd_apply x0 x3 h r e) (congrArg (· * hh (ix2 r e)) hc)

end Cert.KernelIdeal.Agg

end
-- ==== Proof.AggBlocks.lean ====
/-
  Where the aggregation kernel's windows sit in their arrays. Point `t` of the 8 × 4 grid is batch `t / 4`, row tile
  `t % 4`: the adjacency's, the reciprocal degrees', the correction coefficients' and the output's block there is rows
  `512 · (t % 4) … + 511` of batch `t / 4`; the features' block is the whole batch `t / 4`; the weights' block is the
  whole array. The index maps' values are decided once over the 32 points; a block's coordinate is always the block
  index times the block's extent plus the coordinate inside the block. Also: the rows of the scratch a tile reads back
  for its correction term are rows `512 · (t % 4) … + 511`.
-/
import proofs.«129983_j84911503442515_2_alg».proof.Proof.AggRuns
import Idealize.ShloMosaic.Lib.Pipeline.Value
import Idealize.ShloMosaic.Lib.ValueIdx

-- membership in a rectangle of the kernel's extents recurses once per coordinate of the long axes
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The index maps, decided over the grid -/

theorem idx1_0 : ∀ t : Fin cfg1.N, win1_0.index t 0 = t.val / 4 ∧ win1_0.index t 1 = t.val % 4 ∧ win1_0.index t 2 = 0 :=
  (by decide +kernel : ∀ t : Fin grid1.N, win1_0.index t 0 = t.val / 4 ∧ win1_0.index t 1 = t.val % 4 ∧ win1_0.index t 2 = 0)
theorem idx1_1 : ∀ t : Fin cfg1.N, win1_1.index t 0 = t.val / 4 ∧ win1_1.index t 1 = 0 ∧ win1_1.index t 2 = 0 :=
  (by decide +kernel : ∀ t : Fin grid1.N, win1_1.index t 0 = t.val / 4 ∧ win1_1.index t 1 = 0 ∧ win1_1.index t 2 = 0)
theorem idx1_3 : ∀ t : Fin cfg1.N, win1_3.index t 0 = t.val / 4 ∧ win1_3.index t 1 = t.val % 4 ∧ win1_3.index t 2 = 0 :=
  (by decide +kernel : ∀ t : Fin grid1.N, win1_3.index t 0 = t.val / 4 ∧ win1_3.index t 1 = t.val % 4 ∧ win1_3.index t 2 = 0)
theorem idx1_4 : ∀ t : Fin cfg1.N, win1_4.index t 0 = t.val / 4 ∧ win1_4.index t 1 = t.val % 4 ∧ win1_4.index t 2 = 0 :=
  (by decide +kernel : ∀ t : Fin grid1.N, win1_4.index t 0 = t.val / 4 ∧ win1_4.index t 1 = t.val % 4 ∧ win1_4.index t 2 = 0)
theorem idx1_5 : ∀ t : Fin cfg1.N, win1_5.index t 0 = t.val / 4 ∧ win1_5.index t 1 = t.val % 4 ∧ win1_5.index t 2 = 0 :=
  (by decide +kernel : ∀ t : Fin grid1.N, win1_5.index t 0 = t.val / 4 ∧ win1_5.index t 1 = t.val % 4 ∧ win1_5.index t 2 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
/-- The row-tile coordinate of point `t`. -/
theorem coord1 : ∀ t : Fin cfg1.N, ((grid1.coords t) 1).val = t.val % 4 :=
  (by decide +kernel : ∀ t : Fin grid1.N, ((grid1.coords t) 1).val = t.val % 4)

/-! ## A block read at coordinates, for any contents of the array -/

/-- Window 0's block at point `t`, read at `(u, r, l)`, is its array at batch `t / 4`, row `512 · (t % 4) + r`, column `l`. -/
theorem blk1_0_read (c : Dev nD) (X : Buf (Elt F) ((c : Thread nD τ).loc main_arg1)) (t : Fin cfg1.N) (u : Fin 1) (r : Fin 512) (l : Fin 2048)
    (b : Fin 8) (i : Fin 2048) (hb : b.val = t.val / 4) (hi : i.val = 512 * (t.val % 4) + r.val) :
    (((cfg1.win 0).blk t).view.read (Elt F) X : Vec F S1x512x2048 .f32) (ix3 u r l) = (X : S8x2048x2048.Idx → Elt F .f32) (ix3 b i l) := by
  rw [View.read_apply]
  show X _ = X _
  congr 1
  funext a
  apply Fin.ext
  match a with
  | ⟨0, _⟩ => show win1_0.index t 0 * 1 + 1 * u.val = b.val; rw [(idx1_0 t).1, hb]; omega
  | ⟨1, _⟩ => show win1_0.index t 1 * 512 + 1 * r.val = i.val; rw [(idx1_0 t).2.1, hi]; omega
  | ⟨2, _⟩ => show win1_0.index t 2 * 2048 + 1 * l.val = l.val; rw [(idx1_0 t).2.2]; omega

/-- Window 1's block at point `t`, read at `(u, r, l)`, is its array at batch `t / 4`, row `r`, column `l`. -/
theorem blk1_1_read (c : Dev nD) (X : Buf (Elt F) ((c : Thread nD τ).loc main_arg0)) (t : Fin cfg1.N) (u : Fin 1) (r : Fin 2048) (l : Fin 128)
    (b : Fin 8) (i : Fin 2048) (hb : b.val = t.val / 4) (hi : i.val = r.val) :
    (((cfg1.win 1).blk t).view.read (Elt F) X : Vec F S1x2048x128 .f32) (ix3 u r l) = (X : S8x2048x128.Idx → Elt F .f32) (ix3 b i l) := by
  rw [View.read_apply]
  show X _ = X _
  congr 1
  funext a
  apply Fin.ext
  match a with
  | ⟨0, _⟩ => show win1_1.index t 0 * 1 + 1 * u.val = b.val; rw [(idx1_1 t).1, hb]; omega
  | ⟨1, _⟩ => show win1_1.index t 1 * 2048 + 1 * r.val = i.val; rw [(idx1_1 t).2.1, hi]; omega
  | ⟨2, _⟩ => show win1_1.index t 2 * 128 + 1 * l.val = l.val; rw [(idx1_1 t).2.2]; omega

/-- Window 3's block at point `t`, read at `(u, r, l)`, is its array at batch `t / 4`, row `512 · (t % 4) + r`, column `l`. -/
theorem blk1_3_read (c : Dev nD) (X : Buf (Elt F) ((c : Thread nD τ).loc main_v18)) (t : Fin cfg1.N) (u : Fin 1) (r : Fin 512) (l : Fin 1)
    (b : Fin 8) (i : Fin 2048) (hb : b.val = t.val / 4) (hi : i.val = 512 * (t.val % 4) + r.val) :
    (((cfg1.win 3).blk t).view.read (Elt F) X : Vec F S1x512x1 .f32) (ix3 u r l) = (X : S8x2048x1.Idx → Elt F .f32) (ix3 b i l) := by
  rw [View.read_apply]
  show X _ = X _
  congr 1
  funext a
  apply Fin.ext
  match a with
  | ⟨0, _⟩ => show win1_3.index t 0 * 1 + 1 * u.val = b.val; rw [(idx1_3 t).1, hb]; omega
  | ⟨1, _⟩ => show win1_3.index t 1 * 512 + 1 * r.val = i.val; rw [(idx1_3 t).2.1, hi]; omega
  | ⟨2, _⟩ => show win1_3.index t 2 * 1 + 1 * l.val = l.val; rw [(idx1_3 t).2.2]; omega

/-- Window 4's block at point `t`, read at `(u, r, l)`, is its array at batch `t / 4`, row `512 · (t % 4) + r`, column `l`. -/
theorem blk1_4_read (c : Dev nD) (X : Buf (Elt F) ((c : Thread nD τ).loc main_v19)) (t : Fin cfg1.N) (u : Fin 1) (r : Fin 512) (l : Fin 1)
    (b : Fin 8) (i : Fin 2048) (hb : b.val = t.val / 4) (hi : i.val = 512 * (t.val % 4) + r.val) :
    (((cfg1.win 4).blk t).view.read (Elt F) X : Vec F S1x512x1 .f32) (ix3 u r l) = (X : S8x2048x1.Idx → Elt F .f32) (ix3 b i l) := by
  rw [View.read_apply]
  show X _ = X _
  congr 1
  funext a
  apply Fin.ext
  match a with
  | ⟨0, _⟩ => show win1_4.index t 0 * 1 + 1 * u.val = b.val; rw [(idx1_4 t).1, hb]; omega
  | ⟨1, _⟩ => show win1_4.index t 1 * 512 + 1 * r.val = i.val; rw [(idx1_4 t).2.1, hi]; omega
  | ⟨2, _⟩ => show win1_4.index t 2 * 1 + 1 * l.val = l.val; rw [(idx1_4 t).2.2]; omega

/-- Window 5's block at point `t`, read at `(u, r, l)`, is its array at batch `t / 4`, row `512 · (t % 4) + r`, column `l`. -/
theorem blk1_5_read (c : Dev nD) (X : Buf (Elt F) ((c : Thread nD τ).loc main_v20)) (t : Fin cfg1.N) (u : Fin 1) (r : Fin 512) (l : Fin 128)
    (b : Fin 8) (i : Fin 2048) (hb : b.val = t.val / 4) (hi : i.val = 512 * (t.val % 4) + r.val) :
    (((cfg1.win 5).blk t).view.read (Elt F) X : Vec F S1x512x128 .f32) (ix3 u r l) = (X : S8x2048x128.Idx → Elt F .f32) (ix3 b i l) := by
  rw [View.read_apply]
  show X _ = X _
  congr 1
  funext a
  apply Fin.ext
  match a with
  | ⟨0, _⟩ => show win1_5.index t 0 * 1 + 1 * u.val = b.val; rw [(idx1_5 t).1, hb]; omega
  | ⟨1, _⟩ => show win1_5.index t 1 * 512 + 1 * r.val = i.val; rw [(idx1_5 t).2.1, hi]; omega
  | ⟨2, _⟩ => show win1_5.index t 2 * 128 + 1 * l.val = l.val; rw [(idx1_5 t).2.2]; omega

/-- The weights' block at any point, read at `(e, k)`, is the weights at `(e, k)`. -/
theorem blk1_2_read (c : Dev nD) (X : Buf (Elt F) ((c : Thread nD τ).loc main_arg2)) (t : Fin cfg1.N) (e k : Fin 128) :
    (((cfg1.win 2).blk t).view.read (Elt F) X : Vec F S128x128 .f32) (ix2 e k) = (X : S128x128.Idx → Elt F .f32) (ix2 e k) := by
  rw [View.read_apply]
  show X _ = X _
  congr 1
  funext a
  apply Fin.ext
  match a with
  | ⟨0, _⟩ => show win1_2.index t 0 * 128 + 1 * e.val = e.val; rw [(idx1_2 t).1]; omega
  | ⟨1, _⟩ => show win1_2.index t 1 * 128 + 1 * k.val = k.val; rw [(idx1_2 t).2]; omega

/-! ## The same for the blocks the region finds -/

variable (V : (c : Dev nD) → (b : Ref sig .tc) → Buf (Elt F) ((c : Thread nD τ).loc b))

theorem iblk1_0_apply (c : Dev nD) (t : Fin cfg1.N) (u : Fin 1) (r : Fin 512) (l : Fin 2048)
    (b : Fin 8) (i : Fin 2048) (hb : b.val = t.val / 4) (hi : i.val = 512 * (t.val % 4) + r.val) :
    (iblk1 V c 0 t : Vec F S1x512x2048 .f32) (ix3 u r l) = (V c main_arg1 : S8x2048x2048.Idx → Elt F .f32) (ix3 b i l) :=
  blk1_0_read c (V c main_arg1) t u r l b i hb hi

theorem iblk1_1_apply (c : Dev nD) (t : Fin cfg1.N) (u : Fin 1) (r : Fin 2048) (l : Fin 128)
    (b : Fin 8) (i : Fin 2048) (hb : b.val = t.val / 4) (hi : i.val = r.val) :
    (iblk1 V c 1 t : Vec F S1x2048x128 .f32) (ix3 u r l) = (V c main_arg0 : S8x2048x128.Idx → Elt F .f32) (ix3 b i l) :=
  blk1_1_read c (V c main_arg0) t u r l b i hb hi

theorem iblk1_3_apply (c : Dev nD) (t : Fin cfg1.N) (u : Fin 1) (r : Fin 512) (l : Fin 1)
    (b : Fin 8) (i : Fin 2048) (hb : b.val = t.val / 4) (hi : i.val = 512 * (t.val % 4) + r.val) :
    (iblk1 V c 3 t : Vec F S1x512x1 .f32) (ix3 u r l) = (V c main_v18 : S8x2048x1.Idx → Elt F .f32) (ix3 b i l) :=
  blk1_3_read c (V c main_v18) t u r l b i hb hi

theorem iblk1_4_apply (c : Dev nD) (t : Fin cfg1.N) (u : Fin 1) (r : Fin 512) (l : Fin 1)
    (b : Fin 8) (i : Fin 2048) (hb : b.val = t.val / 4) (hi : i.val = 512 * (t.val % 4) + r.val) :
    (iblk1 V c 4 t : Vec F S1x512x1 .f32) (ix3 u r l) = (V c main_v19 : S8x2048x1.Idx → Elt F .f32) (ix3 b i l) :=
  blk1_4_read c (V c main_v19) t u r l b i hb hi

theorem iblk1_2_apply (c : Dev nD) (t : Fin cfg1.N) (e k : Fin 128) :
    (iblk1 V c 2 t : Vec F S128x128 .f32) (ix2 e k) = (V c main_arg2 : S128x128.Idx → Elt F .f32) (ix2 e k) :=
  blk1_2_read c (V c main_arg2) t e k

/-! ## The tile's rows of the scratch -/

/-- Through the rectangle of the tile's rows, a load of contents `X` of the scratch's shape reads, at `(r, e)`, `X` at
    row `512 · (the row-tile coordinate) + r`, column `e`. -/
theorem ld_tile_apply {α : Type} (X : S2048x128.Idx → α) (i : grid1.Coords) (r : Fin 512) (e : Fin 128) (q : Fin 2048)
    (hq : q.val = 512 * (i 1).val + r.val) :
    (fun x => X ((Rect.unit (s := S2048x128) (k1_off1 i) S512x128.size (k1_off1_inb i)).idx x)) (ix2 r e) = X (ix2 q e) := by
  show X _ = X _
  congr 1
  funext a
  apply Fin.ext
  match a with
  | ⟨0, _⟩ => show (k1_off1 i) 0 + 1 * r.val = q.val; rw [k1_off1_eq]; show 512 * (i 1).val + 1 * r.val = q.val; omega
  | ⟨1, _⟩ => show (k1_off1 i) 1 + 1 * e.val = e.val; rw [k1_off1_eq]; show 0 + 1 * e.val = e.val; omega

end Cert.KernelIdeal.Agg

end
-- ==== Proof.AggValue.lean ====
/-
  The value of the program's second region over the extended reals: the output array after the region's last
  write-back, read at batch `b`, row `i`, column `e`, is the scaled adjacency's row applied to the hidden layer plus the
  diagonal correction — `aggK` of the reciprocal degrees, the correction coefficients, the adjacency and the hidden
  layer of the features and weights, all as the region finds them.

  The hidden layer lives in the scratch: after the body at ANY point `n` the scratch holds the hidden layer of batch
  `n / 4` (by induction on the point: a batch's first row tile stores it, whatever the scratch held; the batch's later
  tiles leave it). So at every point the output block is the aggregation of the tile's rows against that hidden layer;
  every point writes its block back, and the 32 blocks tile the output array.
-/
import proofs.«129983_j84911503442515_2_alg».proof.Proof.AggPieces
import proofs.«129983_j84911503442515_2_alg».proof.Proof.AggPay
import proofs.«129983_j84911503442515_2_alg».proof.Proof.AggBlocks
import proofs.«129983_j84911503442515_2_alg».proof.Proof.Spec

-- membership in a rectangle of the kernel's extents recurses once per coordinate of the long axes
set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.GraphConv Idealize.ShloMosaic.ValueIdx

-- the buffer contents when the region is entered, at the extended reals
variable (V : (c : Dev nD) → (b : Ref sig .tc) → Buf (Elt Ideal) ((c : Thread nD τ).loc b))

/-! ## The arrays as the specification's arguments -/

/-- The hidden layer of the features and the weights the region finds. -/
abbrev Hd (c : Dev nD) : Fin 8 → Fin 2048 → Fin 128 → EReal := hid (V c main_arg0) (V c main_arg2)
/-- The reciprocal degrees and the correction coefficients the region finds, per batch and row. -/
abbrev Dv (c : Dev nD) : Fin 8 → Fin 2048 → EReal := fun b i => V c main_v18 (ix3 b i 0)
abbrev Cf (c : Dev nD) : Fin 8 → Fin 2048 → EReal := fun b i => V c main_v19 (ix3 b i 0)

/-- What the output array is to hold: at `(b, i, e)` the aggregation of row `i` of batch `b`. -/
def target (c : Dev nD) : Buf (Elt Ideal) ((c : Thread nD τ).loc main_v20) :=
  fun y => aggK (Dv V c) (Cf V c) (V c main_arg1) (Hd V c) (y 0) (y 1) (y 2)

/-! ## The two payloads against the specification, over variables -/

/-- The hidden-layer payload of a features block that is batch `b` and a weights block that is the weights, at
    `(j, e)`: the specification's hidden layer. -/
theorem hid_of_blocks (x1 : Vec Ideal S1x2048x128 .f32) (x2 : Vec Ideal S128x128 .f32) (X : IX → EReal) (W : IW → EReal) (b : Fin 8)
    (h1 : ∀ j k, x1 (ix3 (0 : Fin 1) j k) = X (ix3 b j k)) (h2 : ∀ e k, x2 (ix2 e k) = W (ix2 e k)) (j : Fin 2048) (e : Fin 128) :
    k1_pay1 (F := Ideal) x1 x2 (ix2 j e) = hid X W b j e := by
  refine (pay1_apply x1 x2 j e).trans ?_
  unfold hid
  exact congrArg leaky (Finset.sum_congr rfl fun k _ => by rw [h1, h2])

/-- The aggregation payload of blocks that are row `i` of batch `b` — the adjacency's, the reciprocal degree's, the
    correction coefficient's —, of a scratch that holds batch `b`'s hidden layer and of tile rows whose row `r` is its row
    `i`, at `(u, r, e)`: the specification's aggregation. -/
theorem agg_of_blocks (x0 : Vec Ideal S1x512x2048 .f32) (x3 x4 : Vec Ideal S1x512x1 .f32) (hS : Vec Ideal S2048x128 .bf16)
    (hh : Vec Ideal S512x128 .bf16) (dinv coef : Fin 8 → Fin 2048 → EReal) (A : IA → EReal)
    (H : Fin 8 → Fin 2048 → Fin 128 → EReal) (b : Fin 8) (i : Fin 2048) (u : Fin 1) (r : Fin 512) (e : Fin 128)
    (h0 : ∀ j, x0 (ix3 (0 : Fin 1) r j) = A (ix3 b i j)) (h3 : x3 (ix3 (0 : Fin 1) r (0 : Fin 1)) = dinv b i)
    (h4 : x4 (ix3 (0 : Fin 1) r (0 : Fin 1)) = coef b i) (hs : ∀ j, hS (ix2 j e) = H b j e) (hr : hh (ix2 r e) = H b i e) :
    k1_pay2 (F := Ideal) x0 x3 x4 hS hh (ix3 u r e) = aggK dinv coef A H b i e := by
  refine (pay2_apply x0 x3 x4 hS hh u r e).trans ?_
  unfold aggK
  rw [h3, h4, hr]
  exact congrArg (· + coef b i * H b i e) (Finset.sum_congr rfl fun j _ => by rw [h0, hs])

/-! ## The scratch holds the batch's hidden layer -/

/-- At a batch's first row tile the body leaves the hidden layer of the point's batch in the scratch. -/
theorem scratch_first (c : Dev nD) (t : Fin cfg1.N) (h0 : t.val % 4 = 0) (b : Fin 8) (hb : b.val = t.val / 4)
    (j : Fin 2048) (e : Fin 128) : (ptA V c t h0).2 (ix2 j e) = Hd V c b j e := by
  unfold ptA
  dsimp only
  refine (congrFun (sout_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t)) (ix2 j e)).trans ?_
  exact hid_of_blocks (iblk1 V c 1 t) (iblk1 V c 2 t) (V c main_arg0) (V c main_arg2) b
    (fun j k => iblk1_1_apply V c t 0 j k b j hb rfl) (fun e k => iblk1_2_apply V c t e k) j e

/-- THE INVARIANT: after the body at any point `n` the scratch holds the hidden layer of batch `n / 4` — stored at the
    batch's first row tile, kept by its later tiles. By induction on the point. -/
theorem scratch_eq (c : Dev nD) (n : ℕ) : ∀ (hn : n < cfg1.N) (b : Fin 8), b.val = n / 4 → ∀ (j : Fin 2048) (e : Fin 128),
    (outsAt1 V c n hn).2 (ix2 j e) = Hd V c b j e := by
  induction n with
  | zero =>
    intro hn b hb j e
    exact scratch_first V c ⟨0, hn⟩ (Nat.zero_mod 4) b hb j e
  | succ n ih =>
    intro hn b hb j e
    by_cases h0 : (n + 1) % 4 = 0
    · have e1 : outsAt1 V c (n + 1) hn = ptA V c ⟨n + 1, hn⟩ h0 := dif_pos h0
      rw [e1]
      exact scratch_first V c ⟨n + 1, hn⟩ h0 b hb j e
    · have e1 : outsAt1 V c (n + 1) hn = ptB V c ⟨n + 1, hn⟩ h0 (outsAt1 V c n (Nat.lt_of_succ_lt hn)).2 := dif_neg h0
      rw [e1]
      exact ih (Nat.lt_of_succ_lt hn) b (by omega) j e

/-! ## The output block at every point -/

set_option maxHeartbeats 1600000 in
/-- At a batch's first row tile `t` the body leaves in the output block, at `(u, r, e)`, the aggregation of row
    `512 · (t % 4) + r` of batch `t / 4`: the hidden layer it aggregates against is the one it has just stored. -/
theorem out_first (c : Dev nD) (t : Fin cfg1.N) (h0 : t.val % 4 = 0) (u : Fin 1) (r : Fin 512) (e : Fin 128) (b : Fin 8) (i : Fin 2048)
    (hb : b.val = t.val / 4) (hi : i.val = 512 * (t.val % 4) + r.val) :
    (ptA V c t h0).1 (ix3 u r e) = aggK (Dv V c) (Cf V c) (V c main_arg1) (Hd V c) b i e := by
  have hq : i.val = 512 * ((grid1.coords t) 1).val + r.val := by rw [coord1 t]; exact hi
  unfold ptA
  dsimp only
  refine (congrFun (out_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t)) (ix3 u r e)).trans ?_
  have hP : ∀ (j : Fin 2048), (k1_pay1 (F := Ideal) (iblk1 V c 1 t) (iblk1 V c 2 t)) (ix2 j e) = Hd V c b j e := fun j =>
    hid_of_blocks (iblk1 V c 1 t) (iblk1 V c 2 t) (V c main_arg0) (V c main_arg2) b
      (fun j k => iblk1_1_apply V c t 0 j k b j hb rfl) (fun e k => iblk1_2_apply V c t e k) j e
  have hR : (View.ld (k1_pay1 (F := Ideal) (iblk1 V c 1 t) (iblk1 V c 2 t)) (Rect.unit (s := S2048x128) (k1_off1 (grid1.coords t)) S512x128.size (k1_off1_inb (grid1.coords t))) : Vec Ideal S512x128 .bf16) (ix2 r e) = Hd V c b i e :=
    (ld_tile_apply (k1_pay1 (F := Ideal) (iblk1 V c 1 t) (iblk1 V c 2 t)) (grid1.coords t) r e i hq).trans (hP i)
  have hA : ∀ j, (iblk1 V c 0 t : Vec Ideal S1x512x2048 .f32) (ix3 (0 : Fin 1) r j) = V c main_arg1 (ix3 b i j) :=
    fun j => iblk1_0_apply V c t 0 r j b i hb hi
  have h3 : (iblk1 V c 3 t : Vec Ideal S1x512x1 .f32) (ix3 (0 : Fin 1) r (0 : Fin 1)) = Dv V c b i :=
    iblk1_3_apply V c t 0 r 0 b i hb hi
  have h4 : (iblk1 V c 4 t : Vec Ideal S1x512x1 .f32) (ix3 (0 : Fin 1) r (0 : Fin 1)) = Cf V c b i :=
    iblk1_4_apply V c t 0 r 0 b i hb hi
  generalize (k1_pay1 (F := Ideal) (iblk1 V c 1 t) (iblk1 V c 2 t)) = P at hP hR ⊢
  exact agg_of_blocks (iblk1 V c 0 t) (iblk1 V c 3 t) (iblk1 V c 4 t) P (View.ld P (Rect.unit (s := S2048x128) (k1_off1 (grid1.coords t)) S512x128.size (k1_off1_inb (grid1.coords t))))
    (Dv V c) (Cf V c) (V c main_arg1) (Hd V c) b i u r e hA h3 h4 hP hR

set_option maxHeartbeats 1600000 in
/-- At a later row tile `t` of a batch, the scratch holding `xs0` that is the batch's hidden layer, the body leaves in the
    output block, at `(u, r, e)`, the aggregation of row `512 · (t % 4) + r` of batch `t / 4`. -/
theorem out_later (c : Dev nD) (t : Fin cfg1.N) (h0 : ¬t.val % 4 = 0) (xs0 : Vec Ideal S2048x128 .bf16)
    (u : Fin 1) (r : Fin 512) (e : Fin 128) (b : Fin 8) (i : Fin 2048)
    (hb : b.val = t.val / 4) (hi : i.val = 512 * (t.val % 4) + r.val) (hP : ∀ (j : Fin 2048), xs0 (ix2 j e) = Hd V c b j e) :
    (ptB V c t h0 xs0).1 (ix3 u r e) = aggK (Dv V c) (Cf V c) (V c main_arg1) (Hd V c) b i e := by
  have hq : i.val = 512 * ((grid1.coords t) 1).val + r.val := by rw [coord1 t]; exact hi
  unfold ptB
  dsimp only
  refine (congrFun (out_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) xs0) (ix3 u r e)).trans ?_
  have hR : (View.ld xs0 (Rect.unit (s := S2048x128) (k1_off1 (grid1.coords t)) S512x128.size (k1_off1_inb (grid1.coords t))) : Vec Ideal S512x128 .bf16) (ix2 r e) = Hd V c b i e :=
    (ld_tile_apply xs0 (grid1.coords t) r e i hq).trans (hP i)
  have hA : ∀ j, (iblk1 V c 0 t : Vec Ideal S1x512x2048 .f32) (ix3 (0 : Fin 1) r j) = V c main_arg1 (ix3 b i j) :=
    fun j => iblk1_0_apply V c t 0 r j b i hb hi
  have h3 : (iblk1 V c 3 t : Vec Ideal S1x512x1 .f32) (ix3 (0 : Fin 1) r (0 : Fin 1)) = Dv V c b i :=
    iblk1_3_apply V c t 0 r 0 b i hb hi
  have h4 : (iblk1 V c 4 t : Vec Ideal S1x512x1 .f32) (ix3 (0 : Fin 1) r (0 : Fin 1)) = Cf V c b i :=
    iblk1_4_apply V c t 0 r 0 b i hb hi
  exact agg_of_blocks (iblk1 V c 0 t) (iblk1 V c 3 t) (iblk1 V c 4 t) xs0 (View.ld xs0 (Rect.unit (s := S2048x128) (k1_off1 (grid1.coords t)) S512x128.size (k1_off1_inb (grid1.coords t))))
    (Dv V c) (Cf V c) (V c main_arg1) (Hd V c) b i u r e hA h3 h4 hP hR

/-- After the body at point `t` the output's staging buffer holds, at `(u, r, e)`, the aggregation of row
    `512 · (t % 4) + r` of batch `t / 4`. -/
theorem out_point (c : Dev nD) (t : Fin cfg1.N) (u : Fin 1) (r : Fin 512) (e : Fin 128) (b : Fin 8) (i : Fin 2048)
    (hb : b.val = t.val / 4) (hi : i.val = 512 * (t.val % 4) + r.val) :
    (outsAt1 V c t.val t.isLt).1 (ix3 u r e) = aggK (Dv V c) (Cf V c) (V c main_arg1) (Hd V c) b i e := by
  by_cases h0 : t.val % 4 = 0
  · rw [outsAt1_A V c t h0]
    exact out_first V c t h0 u r e b i hb hi
  · have hlt : t.val - 1 < cfg1.N := Nat.lt_of_le_of_lt (Nat.sub_le _ _) t.isLt
    rw [outsAt1_B V c t h0]
    exact out_later V c t h0 (outsAt1 V c (t.val - 1) hlt).2 u r e b i hb hi
      (fun j => scratch_eq V c (t.val - 1) hlt b (by omega) j e)

/-! ## From the blocks to the array -/

/-- The output window's blocks are never cut: their extents at every point, decided over the grid. -/
theorem xsize1_5 : ∀ t : Fin cfg1.N, win1_5.xsize (grid1.coords t) 0 = 1 ∧ win1_5.xsize (grid1.coords t) 1 = 512 ∧ win1_5.xsize (grid1.coords t) 2 = 128 :=
  (by decide +kernel : ∀ t : Fin grid1.N, win1_5.xsize (grid1.coords t) 0 = 1 ∧ win1_5.xsize (grid1.coords t) 1 = 512 ∧ win1_5.xsize (grid1.coords t) 2 = 128)

/-- What every point writes back is its block of the target. -/
theorem flushed_eq (c : Dev nD) (t : Fin cfg1.N) (hf : (cfg1.win 5).flush t = true) :
    (dat1 V c).flushed 5 t = ((cfg1.win 5).blk t).view.read (Elt Ideal) (target V c) := by
  have hN : cfg1.N = 32 := N_1
  have ht : t.val < 32 := lt_of_lt_of_eq t.isLt hN
  show (cfg1.win 5).cut (grid1.coords t) ((dat1 V c).after 5 t) = _
  rw [after1_5]
  funext y
  obtain ⟨u, r, e, rfl⟩ : ∃ (u : Fin 1) (r : Fin 512) (e : Fin 128), y = ix3 u r e := ⟨y 0, y 1, y 2, eq_ix3 y⟩
  have hr : r.val < 512 := r.isLt
  refine (out_point V c t u r e ⟨t.val / 4, by omega⟩ ⟨512 * (t.val % 4) + r.val, by omega⟩ rfl rfl).trans ?_
  exact (blk1_5_read c (target V c) t u r e ⟨t.val / 4, by omega⟩ ⟨512 * (t.val % 4) + r.val, by omega⟩ rfl rfl).symm

/-- Every entry of the output array is in the block of the point of its batch and row tile. -/
theorem covered (c : Dev nD) (i : S8x2048x128.Idx) :
    ∃ t : Fin cfg1.N, (cfg1.win 5).flush t = true ∧ i ∈ ((cfg1.win 5).blk t).view.set := by
  have hN : cfg1.N = 32 := N_1
  have h0 : (i 0 : Nat) < 8 := (i 0).isLt
  have h1 : (i 1 : Nat) < 2048 := (i 1).isLt
  have h2 : (i 2 : Nat) < 128 := (i 2).isLt
  have htN : 4 * (i 0 : Nat) + (i 1 : Nat) / 512 < cfg1.N := by rw [hN]; omega
  refine ⟨⟨4 * (i 0 : Nat) + (i 1 : Nat) / 512, htN⟩, flush1_5 _, ?_⟩
  generalize ht : (⟨4 * (i 0 : Nat) + (i 1 : Nat) / 512, htN⟩ : Fin cfg1.N) = t
  have hv : t.val = 4 * (i 0 : Nat) + (i 1 : Nat) / 512 := by rw [← ht]
  show i ∈ ((View.whole main_v20).slice (win1_5.rect t)).set
  rw [View.set_slice_whole, Rect.mem_set_unit]
  intro a
  match a with
  | ⟨0, _⟩ =>
    show win1_5.index t 0 * 1 ≤ (i 0 : Nat) ∧ (i 0 : Nat) < win1_5.index t 0 * 1 + win1_5.xsize (grid1.coords t) 0
    rw [(idx1_5 t).1, (xsize1_5 t).1]; omega
  | ⟨1, _⟩ =>
    show win1_5.index t 1 * 512 ≤ (i 1 : Nat) ∧ (i 1 : Nat) < win1_5.index t 1 * 512 + win1_5.xsize (grid1.coords t) 1
    rw [(idx1_5 t).2.1, (xsize1_5 t).2.1]; omega
  | ⟨2, _⟩ =>
    show win1_5.index t 2 * 128 ≤ (i 2 : Nat) ∧ (i 2 : Nat) < win1_5.index t 2 * 128 + win1_5.xsize (grid1.coords t) 2
    rw [(idx1_5 t).2.2, (xsize1_5 t).2.2]; omega

/-- So the output array ends holding the target. -/
theorem arr_eq (c : Dev nD) : (dat1 V c).arrAt 5 cfg1.N = target V c :=
  (dat1 V c).arrAt_eq_of_cover 5 (target V c) (flushed_eq V c) (covered c)

/-- THE REGION'S VALUE: the output array after the region, at `(b, i, e)`. -/
theorem out_eq (c : Dev nD) (b : Fin 8) (i : Fin 2048) (e : Fin 128) :
    (dat1 (F := Ideal) V c).arrAt 5 cfg1.N (ix3 b i e)
      = aggK (fun b i => V c main_v18 (ix3 b i 0)) (fun b i => V c main_v19 (ix3 b i 0)) (V c main_arg1)
          (hid (V c main_arg0) (V c main_arg2)) b i e :=
  congrFun (arr_eq V c) (ix3 b i e)

end Cert.KernelIdeal.Agg

end
-- ==== Proof.RefRun.lean ====
/-
  The reference program's run, read back. Its @main is a straight line of host operations: the three
  outlined selections and the rectifier are unfolded at their calls, so the whole program is one list of
  seventy-three operations. Each writes one buffer from the buffers it reads, so what a buffer holds at the
  end is the composition of the operations' functions along the data flow from the three arguments.

  The stages of that composition are named below in the order the program computes them: the symmetrised
  row sums and the mask of rows where they are nonzero; the index pairs (n, n); the diagonal gathered at
  those pairs; the new diagonal (one where the mask holds, the old entry elsewhere); the matrix with the new
  diagonal scattered in; its row sums (the degree) and their guarded reciprocal; the row-scaled matrix; the
  hidden layer (the rectified product of features and weights); and the product of the two.
-/
import proofs.«129983_j84911503442515_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- @main's operations in order, the calls unfolded: the first selection's three (the scalar one converted,
    broadcast, the select) after the gather, the second's three after the division, the rectifier's seven
    (zero, its broadcast, the comparison, the slope converted and broadcast, the product, the select) after
    the first product. -/
abbrev ops : List (HloOp τ sig (Elt F)) :=
  [ unary main_arg1 main_v0 ((transpose S8x2048x2048 [0, 2, 1] · transposes_S8x2048x2048_S8x2048x2048_0_2_1) : (⟨S8x2048x2048, .f32⟩ : BufTy).Contents (Elt F) → (⟨S8x2048x2048, .f32⟩ : BufTy).Contents (Elt F)),
    binary main_arg1 main_v0 main_v1 (addf : (⟨S8x2048x2048, .f32⟩ : BufTy).Contents (Elt F) → (⟨S8x2048x2048, .f32⟩ : BufTy).Contents (Elt F) → (⟨S8x2048x2048, .f32⟩ : BufTy).Contents (Elt F)),
    nullary main_cst (constant S_ .f32 0x00000000#32),
    binary main_v1 main_cst main_v2 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_0 (constant S_ .f32 0x00000000#32),
    unary main_cst_0 main_v3 (broadcastInDim S8x2048 ![] bcast_S_S8x2048 : (⟨S_, .f32⟩ : BufTy).Contents (Elt F) → (⟨S8x2048, .f32⟩ : BufTy).Contents (Elt F)),
    binary main_v2 main_v3 main_v4 (cmpf .une : (⟨S8x2048, .f32⟩ : BufTy).Contents (Elt F) → (⟨S8x2048, .f32⟩ : BufTy).Contents (Elt F) → (⟨S8x2048, .i1⟩ : BufTy).Contents (Elt F)),
    nullary main_v5 (iotaInDim S2048 32 0),
    nullary main_c (constantI S_ 32 0#32),
    unary main_c main_v6 (broadcastInDim S2048 ![] bcast_S_S2048 : (⟨S_, .i32⟩ : BufTy).Contents (Elt F) → (⟨S2048, .i32⟩ : BufTy).Contents (Elt F)),
    binary main_v5 main_v6 main_v7 (cmpi .slt : (⟨S2048, .i32⟩ : BufTy).Contents (Elt F) → (⟨S2048, .i32⟩ : BufTy).Contents (Elt F) → (⟨S2048, .i1⟩ : BufTy).Contents (Elt F)),
    nullary main_c_1 (constantI S_ 32 2048#32),
    unary main_c_1 main_v8 (broadcastInDim S2048 ![] bcast_S_S2048 : (⟨S_, .i32⟩ : BufTy).Contents (Elt F) → (⟨S2048, .i32⟩ : BufTy).Contents (Elt F)),
    binary main_v5 main_v8 main_v9 (addi : (⟨S2048, .i32⟩ : BufTy).Contents (Elt F) → (⟨S2048, .i32⟩ : BufTy).Contents (Elt F) → (⟨S2048, .i32⟩ : BufTy).Contents (Elt F)),
    ternary main_v7 main_v9 main_v5 main_v10 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_2 (constantI S_ 32 0#32),
    unary main_c_2 main_v11 (broadcastInDim S2048 ![] bcast_S_S2048 : (⟨S_, .i32⟩ : BufTy).Contents (Elt F) → (⟨S2048, .i32⟩ : BufTy).Contents (Elt F)),
    binary main_v5 main_v11 main_v12 (cmpi .slt : (⟨S2048, .i32⟩ : BufTy).Contents (Elt F) → (⟨S2048, .i32⟩ : BufTy).Contents (Elt F) → (⟨S2048, .i1⟩ : BufTy).Contents (Elt F)),
    nullary main_c_3 (constantI S_ 32 2048#32),
    unary main_c_3 main_v13 (broadcastInDim S2048 ![] bcast_S_S2048 : (⟨S_, .i32⟩ : BufTy).Contents (Elt F) → (⟨S2048, .i32⟩ : BufTy).Contents (Elt F)),
    binary main_v5 main_v13 main_v14 (addi : (⟨S2048, .i32⟩ : BufTy).Contents (Elt F) → (⟨S2048, .i32⟩ : BufTy).Contents (Elt F) → (⟨S2048, .i32⟩ : BufTy).Contents (Elt F)),
    ternary main_v12 main_v14 main_v5 main_v15 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v10 main_v16 (broadcastInDim S2048x1 ![0] bcast_S2048_S2048x1_0 : (⟨S2048, .i32⟩ : BufTy).Contents (Elt F) → (⟨S2048x1, .i32⟩ : BufTy).Contents (Elt F)),
    unary main_v15 main_v17 (broadcastInDim S2048x1 ![0] bcast_S2048_S2048x1_0 : (⟨S2048, .i32⟩ : BufTy).Contents (Elt F) → (⟨S2048x1, .i32⟩ : BufTy).Contents (Elt F)),
    binary main_v16 main_v17 main_v18 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_arg1 main_v18 main_v19 ((fun x i => Host.gather gather_S8x2048x2048_S2048x2_S8x2048_0_12_n_n_12_1_811 x i) : (⟨S8x2048x2048, .f32⟩ : BufTy).Contents (Elt F) → (⟨S2048x2, .i32⟩ : BufTy).Contents (Elt F) → (⟨S8x2048, .f32⟩ : BufTy).Contents (Elt F)),
    nullary main_cst_4 (constant S_ .f32 0x3F800000#32),
    TRef.unary (.of main_cst_4) main_call0.v0 id,
    TRef.unary main_call0.v0 main_call0.v1 (broadcastInDim S8x2048 ![] bcast_S_S8x2048),
    TRef.ternary (.of main_v4) main_call0.v1 (.of main_v19) main_call0.v2 select,
    nullary main_c_5 (constantI S_ 32 0#32),
    unary main_c_5 main_v21 (broadcastInDim S2048 ![] bcast_S_S2048 : (⟨S_, .i32⟩ : BufTy).Contents (Elt F) → (⟨S2048, .i32⟩ : BufTy).Contents (Elt F)),
    binary main_v5 main_v21 main_v22 (cmpi .slt : (⟨S2048, .i32⟩ : BufTy).Contents (Elt F) → (⟨S2048, .i32⟩ : BufTy).Contents (Elt F) → (⟨S2048, .i1⟩ : BufTy).Contents (Elt F)),
    nullary main_c_6 (constantI S_ 32 2048#32),
    unary main_c_6 main_v23 (broadcastInDim S2048 ![] bcast_S_S2048 : (⟨S_, .i32⟩ : BufTy).Contents (Elt F) → (⟨S2048, .i32⟩ : BufTy).Contents (Elt F)),
    binary main_v5 main_v23 main_v24 (addi : (⟨S2048, .i32⟩ : BufTy).Contents (Elt F) → (⟨S2048, .i32⟩ : BufTy).Contents (Elt F) → (⟨S2048, .i32⟩ : BufTy).Contents (Elt F)),
    ternary main_v22 main_v24 main_v5 main_v25 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_7 (constantI S_ 32 0#32),
    unary main_c_7 main_v26 (broadcastInDim S2048 ![] bcast_S_S2048 : (⟨S_, .i32⟩ : BufTy).Contents (Elt F) → (⟨S2048, .i32⟩ : BufTy).Contents (Elt F)),
    binary main_v5 main_v26 main_v27 (cmpi .slt : (⟨S2048, .i32⟩ : BufTy).Contents (Elt F) → (⟨S2048, .i32⟩ : BufTy).Contents (Elt F) → (⟨S2048, .i1⟩ : BufTy).Contents (Elt F)),
    nullary main_c_8 (constantI S_ 32 2048#32),
    unary main_c_8 main_v28 (broadcastInDim S2048 ![] bcast_S_S2048 : (⟨S_, .i32⟩ : BufTy).Contents (Elt F) → (⟨S2048, .i32⟩ : BufTy).Contents (Elt F)),
    binary main_v5 main_v28 main_v29 (addi : (⟨S2048, .i32⟩ : BufTy).Contents (Elt F) → (⟨S2048, .i32⟩ : BufTy).Contents (Elt F) → (⟨S2048, .i32⟩ : BufTy).Contents (Elt F)),
    ternary main_v27 main_v29 main_v5 main_v30 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v25 main_v31 (broadcastInDim S2048x1 ![0] bcast_S2048_S2048x1_0 : (⟨S2048, .i32⟩ : BufTy).Contents (Elt F) → (⟨S2048x1, .i32⟩ : BufTy).Contents (Elt F)),
    unary main_v30 main_v32 (broadcastInDim S2048x1 ![0] bcast_S2048_S2048x1_0 : (⟨S2048, .i32⟩ : BufTy).Contents (Elt F) → (⟨S2048x1, .i32⟩ : BufTy).Contents (Elt F)),
    binary main_v31 main_v32 main_v33 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    ternary main_arg1 main_v33 main_v20 main_v34 ((fun x i u => Host.scatter scatter_S8x2048x2048_S2048x2_S8x2048_0_12_12_1 (fun _ b => b) x i u) : (⟨S8x2048x2048, .f32⟩ : BufTy).Contents (Elt F) → (⟨S2048x2, .i32⟩ : BufTy).Contents (Elt F) → (⟨S8x2048, .f32⟩ : BufTy).Contents (Elt F) → (⟨S8x2048x2048, .f32⟩ : BufTy).Contents (Elt F)),
    nullary main_cst_9 (constant S_ .f32 0x00000000#32),
    binary main_v34 main_cst_9 main_v35 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_10 (constant S_ .f32 0x00000000#32),
    unary main_cst_10 main_v36 (broadcastInDim S8x2048 ![] bcast_S_S8x2048 : (⟨S_, .f32⟩ : BufTy).Contents (Elt F) → (⟨S8x2048, .f32⟩ : BufTy).Contents (Elt F)),
    binary main_v35 main_v36 main_v37 (cmpf .une : (⟨S8x2048, .f32⟩ : BufTy).Contents (Elt F) → (⟨S8x2048, .f32⟩ : BufTy).Contents (Elt F) → (⟨S8x2048, .i1⟩ : BufTy).Contents (Elt F)),
    nullary main_cst_11 (constant S_ .f32 0x3F800000#32),
    unary main_cst_11 main_v38 (broadcastInDim S8x2048 ![] bcast_S_S8x2048 : (⟨S_, .f32⟩ : BufTy).Contents (Elt F) → (⟨S8x2048, .f32⟩ : BufTy).Contents (Elt F)),
    binary main_v38 main_v35 main_v39 (Host.divf : (⟨S8x2048, .f32⟩ : BufTy).Contents (Elt F) → (⟨S8x2048, .f32⟩ : BufTy).Contents (Elt F) → (⟨S8x2048, .f32⟩ : BufTy).Contents (Elt F)),
    nullary main_cst_12 (constant S_ .f32 0x00000000#32),
    TRef.unary (.of main_cst_12) main_call1.v0 id,
    TRef.unary main_call1.v0 main_call1.v1 (broadcastInDim S8x2048 ![] bcast_S_S8x2048),
    TRef.ternary (.of main_v37) (.of main_v39) main_call1.v1 main_call1.v2 select,
    unary main_v40 main_v41 (broadcastInDim S8x2048x1 ![0, 1] bcast_S8x2048_S8x2048x1_0_1 : (⟨S8x2048, .f32⟩ : BufTy).Contents (Elt F) → (⟨S8x2048x1, .f32⟩ : BufTy).Contents (Elt F)),
    unary main_v41 main_v42 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v42 main_v34 main_v43 (mulf : (⟨S8x2048x2048, .f32⟩ : BufTy).Contents (Elt F) → (⟨S8x2048x2048, .f32⟩ : BufTy).Contents (Elt F) → (⟨S8x2048x2048, .f32⟩ : BufTy).Contents (Elt F)),
    binary main_arg0 main_arg2 main_v44 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    nullary main_cst_13 (constant S_ .f32 0x3C23D70A#32),
    TRef.nullary main_call2.cst (constant S_ .f32 0x00000000#32),
    TRef.unary main_call2.cst main_call2.v0 (broadcastInDim S8x2048x128 ![] bcast_S_S8x2048x128),
    TRef.binary (.of main_v44) main_call2.v0 main_call2.v1 (cmpf .oge),
    TRef.unary (.of main_cst_13) main_call2.v2 id,
    TRef.unary main_call2.v2 main_call2.v3 (broadcastInDim S8x2048x128 ![] bcast_S_S8x2048x128),
    TRef.binary main_call2.v3 (.of main_v44) main_call2.v4 mulf,
    TRef.ternary main_call2.v1 (.of main_v44) main_call2.v4 main_call2.call0.v0 select,
    binary main_v43 main_v45 main_v46 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)) ]

-- seventy-three binds re-associated: the rewrite under the chain recurses once per statement
set_option maxRecDepth 4096 in
set_option maxHeartbeats 4000000 in
/-- @main is that straight line: the two windows and the outlined functions unfolded, the sequencing
    re-associated. -/
theorem main_eq (c : Dev nD) : main (F := F) c = seq ops := by
  simp only [main, main_part0, main_part1, fn_where.body, fn_where_0.body, fn_leaky_relu.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

/-! ## The stages of the composed term -/

/-- The row sums of the symmetrised matrix `A + Aᵀ` (the transpose exchanges the last two axes), from the
    zero word. -/
def symRowSum (A : FVec F S8x2048x2048 .f32) : FVec F S8x2048 .f32 :=
  Host.reduceAdd (addf A (transpose S8x2048x2048 [0, 2, 1] A transposes_S8x2048x2048_S8x2048x2048_0_2_1))
    (constant S_ .f32 0x00000000#32) reducesTo_S8x2048x2048_S8x2048_d2 h_S_

/-- The mask of the rows whose symmetrised sum is not zero. -/
def mask (A : FVec F S8x2048x2048 .f32) : IVec S8x2048 1 :=
  cmpf .une (symRowSum A) (broadcastInDim S8x2048 ![] bcast_S_S8x2048 (constant S_ .f32 0x00000000#32))

/-- The integers `0 … 2047`. -/
def count : IVec S2048 32 := iotaInDim S2048 32 0

/-- One column of the index pairs: `n`, wrapped by `2048` where negative (it never is). -/
def idxCol : IVec S2048 32 :=
  select (cmpi .slt count (broadcastInDim S2048 ![] bcast_S_S2048 (constantI S_ 32 0#32)))
    (addi count (broadcastInDim S2048 ![] bcast_S_S2048 (constantI S_ 32 2048#32))) count

/-- The index pairs `(n, n)`: the column twice, side by side. -/
def idxPairs : IVec S2048x2 32 :=
  concatenate S2048x2 1 [⟨S2048x1, broadcastInDim S2048x1 ![0] bcast_S2048_S2048x1_0 idxCol⟩,
    ⟨S2048x1, broadcastInDim S2048x1 ![0] bcast_S2048_S2048x1_0 idxCol⟩] concatenates_S2048x1_S2048x1_S2048x2_d1

/-- The diagonal of each batch's matrix, gathered at the pairs. -/
def diagonal (A : FVec F S8x2048x2048 .f32) : FVec F S8x2048 .f32 :=
  Host.gather gather_S8x2048x2048_S2048x2_S8x2048_0_12_n_n_12_1_811 A idxPairs

/-- The new diagonal: one where the mask holds, the old entry elsewhere. -/
def newDiagonal (A : FVec F S8x2048x2048 .f32) : FVec F S8x2048 .f32 :=
  select (mask A) (broadcastInDim S8x2048 ![] bcast_S_S8x2048 (constant S_ .f32 0x3F800000#32)) (diagonal A)

/-- The matrix with the new diagonal written at the pairs. -/
def replacedMatrix (A : FVec F S8x2048x2048 .f32) : FVec F S8x2048x2048 .f32 :=
  Host.scatter scatter_S8x2048x2048_S2048x2_S8x2048_0_12_12_1 (fun _ b => b) A idxPairs (newDiagonal A)

/-- The degree: the row sums of the replaced matrix, from the zero word. -/
def degree (A : FVec F S8x2048x2048 .f32) : FVec F S8x2048 .f32 :=
  Host.reduceAdd (replacedMatrix A) (constant S_ .f32 0x00000000#32) reducesTo_S8x2048x2048_S8x2048_d2 h_S_

/-- The reciprocal of the degree where it is not zero, zero elsewhere. -/
def reciprocal (A : FVec F S8x2048x2048 .f32) : FVec F S8x2048 .f32 :=
  select (cmpf .une (degree A) (broadcastInDim S8x2048 ![] bcast_S_S8x2048 (constant S_ .f32 0x00000000#32)))
    (Host.divf (broadcastInDim S8x2048 ![] bcast_S_S8x2048 (constant S_ .f32 0x3F800000#32)) (degree A))
    (broadcastInDim S8x2048 ![] bcast_S_S8x2048 (constant S_ .f32 0x00000000#32))

/-- The replaced matrix with each row scaled by its reciprocal degree. -/
def normalized (A : FVec F S8x2048x2048 .f32) : FVec F S8x2048x2048 .f32 :=
  mulf (broadcastInDim S8x2048x2048 ![0, 1, 2] bcast_S8x2048x1_S8x2048x2048_0_1_2
      (broadcastInDim S8x2048x1 ![0, 1] bcast_S8x2048_S8x2048x1_0_1 (reciprocal A))) (replacedMatrix A)

/-- The features times the transposed weights: the contraction over the last axis of both. -/
def linear (x : FVec F S8x2048x128 .f32) (W : FVec F S128x128 .f32) : FVec F S8x2048x128 .f32 :=
  Host.dotGeneral dot_S8x2048x128_S128x128_S8x2048x128_2_1_01_0_n_n none x W

/-- The hidden layer: the product where it is at least zero, the slope times it elsewhere. -/
def hidden (x : FVec F S8x2048x128 .f32) (W : FVec F S128x128 .f32) : FVec F S8x2048x128 .f32 :=
  select (cmpf .oge (linear x W) (broadcastInDim S8x2048x128 ![] bcast_S_S8x2048x128 (constant S_ .f32 0x00000000#32)))
    (linear x W)
    (mulf (broadcastInDim S8x2048x128 ![] bcast_S_S8x2048x128 (constant S_ .f32 0x3C23D70A#32)) (linear x W))

/-- The whole result: the normalised matrix applied to the hidden layer, batch by batch. -/
def result (x : FVec F S8x2048x128 .f32) (A : FVec F S8x2048x2048 .f32) (W : FVec F S128x128 .f32) :
    FVec F S8x2048x128 .f32 :=
  Host.dotGeneral dot_S8x2048x2048_S8x2048x128_S8x2048x128_2_1_1_2_0_0 none (normalized A) (hidden x W)

/-! ## What the buffers hold after the line -/

attribute [local irreducible] Host.reduceAdd Host.gather Host.scatter FloatOps.dotGeneral transpose concatenate broadcastInDim in
set_option maxRecDepth 8192 in
set_option maxHeartbeats 4000000 in
/-- The result buffer holds the composed term: each operation's result read at its own buffer, every other
    buffer left as it was; the outlined functions' typed references move contents along an equation of
    types that is the identity at these literal references. -/
theorem out_eq (V : Valuation τ sig (Elt F)) :
    after ops V (main_v46 : DevRef τ sig)
      = result (V (main_arg0 : DevRef τ sig)) (V (main_arg1 : DevRef τ sig)) (V (main_arg2 : DevRef τ sig)) := by
  after_results_simp
  rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v46)
          = result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v46).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference program's composed term, read one element at a time at the extended reals, is the
  specification's `outR`.

  Each stage of the term is read at an index: the integer column of the index pairs is the row number (the
  wrap by 2048 applies only below zero, and a row number is never negative); both components of pair `n`
  are `n`; the gather at those pairs reads the entries `(b, n, n)` (in range, so not clamped); the scatter
  overwrites exactly the entries `(b, n, n)` — its updates land at pairwise distinct places inside the
  matrix, so every place holds either its one update or the operand's entry; the sums over the last axis
  from the zero word are plain row sums; the comparisons against zero and the selects on them are the
  specification's `if`s; the two products are sums over the one contracted axis.
-/
import proofs.«129983_j84911503442515_2_alg».proof.Proof.RefRun
import proofs.«129983_j84911503442515_2_alg».proof.Proof.Spec
import Idealize.ShloMosaic.Lib.IdealHost
import Idealize.ShloMosaic.Lib.StackMember
import Idealize.ShloMosaic.Lib.Pipeline.Value

noncomputable section

namespace Cert.ReferenceIdeal.RefRun

open Cert.ReferenceIdeal Cert.ReferenceIdeal.Gen Idealize.ShloMosaic Idealize.ShloMosaic.ValueIdx Cert.GraphConv
open scoped BigOperators

/-! ## The index pairs -/

/-- A natural below 2048, as a 32-bit word read signed, is itself. -/
theorem toInt_ofNat_small (n : Nat) (hn : n < 2048) : (BitVec.ofNat 32 n).toInt = n := by
  rw [BitVec.toInt_eq_toNat_cond, BitVec.toNat_ofNat]
  have h : n % 2 ^ 32 = n := Nat.mod_eq_of_lt (by omega)
  rw [h]; split <;> omega

/-- Such a word is not below zero in the signed order. -/
theorem small_not_neg (n : Nat) (hn : n < 2048) : IntOp.cmpi .slt (BitVec.ofNat 32 n) 0#32 = 0#1 := by
  have h : (BitVec.ofNat 32 n).slt 0#32 = false := by
    rw [BitVec.slt, toInt_ofNat_small n hn]; simp
  simp [IntOp.cmpi, h]

/-- The index column at `n` is the word `n`: the wrap by 2048 is taken only below zero. -/
theorem idxCol_apply (j : S2048.Idx) : idxCol j = BitVec.ofNat 32 (j 0).val := by
  unfold idxCol count
  rw [select_apply]
  have h : cmpi .slt (iotaInDim S2048 32 0) (broadcastInDim S2048 ![] bcast_S_S2048 (constantI S_ 32 0#32)) j = 0#1 :=
    small_not_neg _ (j 0).isLt
  rw [h, select_zero]; rfl

/-- Both components of the pair at `n` are the word `n`. -/
theorem idxPairs_apply (n : Fin 2048) (c : Fin 2) : idxPairs (ix2 n c) = BitVec.ofNat 32 n.val := by
  unfold idxPairs
  have hb : ∀ j : S2048x1.Idx, (j 0).val = n.val →
      broadcastInDim S2048x1 ![0] bcast_S2048_S2048x1_0 idxCol j = BitVec.ofNat 32 n.val := fun j hj => by
    rw [broadcastInDim_apply (k := ix1 n) (hk := fun a => by
      match a with
      | ⟨0, _⟩ => exact hj.symm), idxCol_apply]
  match c with
  | ⟨0, _⟩ =>
    refine (concatenate_pair_apply_left (t := S2048x2) (s₁ := S2048x1) (s₂ := S2048x1) (1 : Fin 2) _ _ concatenates_S2048x1_S2048x1_S2048x2_d1 (ix2 n ⟨0, by omega⟩) rfl (ix2 n ⟨0, Nat.one_pos⟩) (fun b => ?_)).trans (hb _ rfl)
    match b with
    | ⟨0, _⟩ => rfl
    | ⟨1, _⟩ => rfl
  | ⟨1, _⟩ =>
    refine (concatenate_pair_apply_right (t := S2048x2) (s₁ := S2048x1) (s₂ := S2048x1) (1 : Fin 2) _ _ concatenates_S2048x1_S2048x1_S2048x2_d1 (ix2 n ⟨1, by omega⟩) rfl rfl (ix2 n ⟨0, Nat.one_pos⟩) (fun b hb' => ?_) rfl).trans (hb _ rfl)
    match b with
    | ⟨0, _⟩ => rfl
    | ⟨1, _⟩ => exact absurd rfl hb'

/-- … at any index of the pairs: the word of its row. -/
theorem idxPairs_apply' (j : S2048x2.Idx) : idxPairs j = BitVec.ofNat 32 (j 0).val := by
  obtain ⟨n, c, rfl⟩ : ∃ (n : Fin 2048) (c : Fin 2), j = ix2 n c := ⟨j 0, j 1, eq_ix2 j⟩
  exact idxPairs_apply n c

/-! ## The gather of the diagonal -/

/-- The start-indices index the gather reads component `c` of the pair for result `(b, n)` at: `(n, c)`. -/
theorem gather_siIdx (b : Fin 8) (n : Fin 2048) (c : Fin gather_S8x2048x2048_S2048x2_S8x2048_0_12_n_n_12_1_811.startIndexMap.length) :
    gather_S8x2048x2048_S2048x2_S8x2048_0_12_n_n_12_1_811.siIdx (ix2 b n) c = ix2 n (⟨c.val, c.isLt⟩ : Fin 2) := by
  funext a
  refine Fin.ext ?_
  match a with
  | ⟨0, _⟩ => rfl
  | ⟨1, _⟩ => rfl

/-- The gather at `(b, n)` reads the operand at `(b, n, n)`: the first axis is the window's offset, the other
    two are collapsed and start at the pair's two components, which are in range and so not clamped. -/
theorem gather_idx (b : Fin 8) (n : Fin 2048) :
    gather_S8x2048x2048_S2048x2_S8x2048_0_12_n_n_12_1_811.operandIdx (ix2 b n) idxPairs = ix3 b n n := by
  funext a
  refine Fin.ext ?_
  show gather_S8x2048x2048_S2048x2_S8x2048_0_12_n_n_12_1_811.start (ix2 b n) idxPairs a + gather_S8x2048x2048_S2048x2_S8x2048_0_12_n_n_12_1_811.batchCoord (ix2 b n) a + gather_S8x2048x2048_S2048x2_S8x2048_0_12_n_n_12_1_811.offCoord (ix2 b n) a = _
  rw [GatherDims.batchCoord_eq_zero _ _ _ List.not_mem_nil, Nat.add_zero]
  have hn := n.isLt
  match a with
  | ⟨0, _⟩ =>
    have hs : gather_S8x2048x2048_S2048x2_S8x2048_0_12_n_n_12_1_811.start (ix2 b n) idxPairs ⟨0, by decide⟩ = 0 := by
      unfold GatherDims.start; rw [dif_neg (by decide)]
    have ho : gather_S8x2048x2048_S2048x2_S8x2048_0_12_n_n_12_1_811.offCoord (ix2 b n) ⟨0, by decide⟩ = b.val := by
      unfold GatherDims.offCoord; rw [dif_pos (by decide)]; rfl
    exact (congrArg₂ (· + ·) hs ho).trans (Nat.zero_add _)
  | ⟨1, _⟩ =>
    have ho : gather_S8x2048x2048_S2048x2_S8x2048_0_12_n_n_12_1_811.offCoord (ix2 b n) ⟨1, by decide⟩ = 0 := GatherDims.offCoord_eq_zero _ _ _ (by decide)
    have hs : gather_S8x2048x2048_S2048x2_S8x2048_0_12_n_n_12_1_811.start (ix2 b n) idxPairs ⟨1, by decide⟩ = n.val := by
      unfold GatherDims.start
      rw [dif_pos (by decide), gather_siIdx, idxPairs_apply, toInt_ofNat_small _ hn, Int.toNat_natCast]
      show min n.val (2048 - 1) = n.val
      omega
    exact (congrArg₂ (· + ·) hs ho).trans (Nat.add_zero _)
  | ⟨2, _⟩ =>
    have ho : gather_S8x2048x2048_S2048x2_S8x2048_0_12_n_n_12_1_811.offCoord (ix2 b n) ⟨2, by decide⟩ = 0 := GatherDims.offCoord_eq_zero _ _ _ (by decide)
    have hs : gather_S8x2048x2048_S2048x2_S8x2048_0_12_n_n_12_1_811.start (ix2 b n) idxPairs ⟨2, by decide⟩ = n.val := by
      unfold GatherDims.start
      rw [dif_pos (by decide), gather_siIdx, idxPairs_apply, toInt_ofNat_small _ hn, Int.toNat_natCast]
      show min n.val (2048 - 1) = n.val
      omega
    exact (congrArg₂ (· + ·) hs ho).trans (Nat.add_zero _)

/-- The gathered diagonal at `(b, n)` is the entry `(b, n, n)`. -/
theorem diagonal_apply (A : FVec Ideal S8x2048x2048 .f32) (b : Fin 8) (n : Fin 2048) :
    diagonal A (ix2 b n) = A (ix3 b n n) := by
  unfold diagonal Host.gather
  rw [gather_idx]

/-! ## A scatter that overwrites, at indices that do not collide -/

section ScatterSet

variable {α ι κ : Type} [DecidableEq ι]

/-- Overwriting in turn at the places `ρ n` leaves a place none of them names as it was. -/
theorem foldl_set_miss (ρ : κ → ι) (v : κ → α) (l : List κ) (r : ι → α) (i : ι) (h : ∀ n ∈ l, ρ n ≠ i) :
    (l.foldl (fun r n => fun i' => if i' = ρ n then v n else r i') r) i = r i := by
  induction l generalizing r with
  | nil => rfl
  | cons n t ih =>
    rw [List.foldl_cons, ih _ (fun m hm => h m (List.mem_cons_of_mem _ hm))]
    exact if_neg (fun e => h n List.mem_cons_self e.symm)

/-- … and, the places distinct, the place `ρ n₀` holds `v n₀`: later writes go elsewhere. -/
theorem foldl_set_hit (ρ : κ → ι) (hρ : Function.Injective ρ) (v : κ → α) (l : List κ) (hl : l.Nodup) (r : ι → α)
    (n₀ : κ) (hn : n₀ ∈ l) :
    (l.foldl (fun r n => fun i' => if i' = ρ n then v n else r i') r) (ρ n₀) = v n₀ := by
  induction l generalizing r with
  | nil => exact absurd hn List.not_mem_nil
  | cons n t ih =>
    rw [List.foldl_cons]
    rcases List.mem_cons.mp hn with rfl | hmem
    · rw [foldl_set_miss ρ v t _ _ (fun m hm e => (List.nodup_cons.mp hl).1 (by rw [← hρ e]; exact hm))]
      exact if_pos rfl
    · exact ih (List.nodup_cons.mp hl).2 _ hmem

end ScatterSet

section ScatterApply

variable {α : Type} {s si u : Shape} {w : Nat}

/-- A scatter whose body returns the update, every update landing inside at `ρ j` with `ρ` injective: the
    result holds update `j` at `ρ j` and the operand everywhere else. -/
theorem scatter_set_apply (d : ScatterDims s si u) (x : s.Idx → α) (idx : IVec si w) (upd : u.Idx → α)
    (ρ : u.Idx → s.Idx) (hρ : ∀ j, d.resultIdx? j idx = some (ρ j)) (hinj : Function.Injective ρ) :
    (∀ j, Host.scatter d (fun _ b => b) x idx upd (ρ j) = upd j)
      ∧ (∀ i, (∀ j, ρ j ≠ i) → Host.scatter d (fun _ b => b) x idx upd i = x i) := by
  unfold Host.scatter
  simp only [hρ]
  constructor
  · intro j
    have h := foldl_set_hit (fun n => ρ (u.rowMajor.symm n)) (hinj.comp u.rowMajor.symm.injective)
      (fun n => upd (u.rowMajor.symm n)) (List.finRange u.numel) (List.nodup_finRange _) x (u.rowMajor j) (List.mem_finRange _)
    simpa using h
  · intro i hi
    exact foldl_set_miss (fun n => ρ (u.rowMajor.symm n)) (fun n => upd (u.rowMajor.symm n)) _ x i (fun n _ => hi _)

end ScatterApply

/-! ## The scatter of the new diagonal -/

/-- The scatter-indices index update `u` reads component `c` of its pair at: `(u 1, c)`. -/
theorem scatter_siIdx (u : S8x2048.Idx) (c : Fin scatter_S8x2048x2048_S2048x2_S8x2048_0_12_12_1.scatterDimsToOperandDims.length) :
    scatter_S8x2048x2048_S2048x2_S8x2048_0_12_12_1.siIdx u c = @ix2 2048 2 (u 1) ⟨c.val, c.isLt⟩ := by
  funext a
  refine Fin.ext ?_
  match a with
  | ⟨0, _⟩ => rfl
  | ⟨1, _⟩ => rfl

/-- Update `u = (b, n)` starts at `(0, n, n)` and its window coordinate is `(b, 0, 0)`: their sum on each axis. -/
theorem scatter_start_window (u : S8x2048.Idx) (a : Fin 3) :
    scatter_S8x2048x2048_S2048x2_S8x2048_0_12_12_1.start u idxPairs a + (scatter_S8x2048x2048_S2048x2_S8x2048_0_12_12_1.window u a : Int) = ((ix3 (u 0) (u 1) (u 1) : S8x2048x2048.Idx) a).val := by
  have hn : (u 1).val < 2048 := (u 1).isLt
  match a with
  | ⟨0, _⟩ =>
    have hs : scatter_S8x2048x2048_S2048x2_S8x2048_0_12_12_1.start u idxPairs ⟨0, by decide⟩ = 0 := by
      unfold ScatterDims.start; rw [dif_neg (by decide)]
    have hw : scatter_S8x2048x2048_S2048x2_S8x2048_0_12_12_1.window u ⟨0, by decide⟩ = (u 0).val := by
      unfold ScatterDims.window; rw [dif_pos (by decide)]; rfl
    rw [hs, hw, Int.zero_add]
  | ⟨1, _⟩ =>
    have hs : scatter_S8x2048x2048_S2048x2_S8x2048_0_12_12_1.start u idxPairs ⟨1, by decide⟩ = ((u 1).val : Int) := by
      unfold ScatterDims.start
      rw [dif_pos (by decide), scatter_siIdx, idxPairs_apply']
      exact toInt_ofNat_small _ hn
    have hw : scatter_S8x2048x2048_S2048x2_S8x2048_0_12_12_1.window u ⟨1, by decide⟩ = 0 := by
      unfold ScatterDims.window; rw [dif_neg (by decide)]
    rw [hs, hw]; simp
  | ⟨2, _⟩ =>
    have hs : scatter_S8x2048x2048_S2048x2_S8x2048_0_12_12_1.start u idxPairs ⟨2, by decide⟩ = ((u 1).val : Int) := by
      unfold ScatterDims.start
      rw [dif_pos (by decide), scatter_siIdx, idxPairs_apply']
      exact toInt_ofNat_small _ hn
    have hw : scatter_S8x2048x2048_S2048x2_S8x2048_0_12_12_1.window u ⟨2, by decide⟩ = 0 := by
      unfold ScatterDims.window; rw [dif_neg (by decide)]
    rw [hs, hw]; simp

/-- Every update lands inside the operand, update `(b, n)` at `(b, n, n)`. -/
theorem scatter_idx (u : S8x2048.Idx) :
    scatter_S8x2048x2048_S2048x2_S8x2048_0_12_12_1.resultIdx? u idxPairs = some (ix3 (u 0) (u 1) (u 1)) := by
  unfold ScatterDims.resultIdx?
  have h : ∀ a, 0 ≤ scatter_S8x2048x2048_S2048x2_S8x2048_0_12_12_1.start u idxPairs a + scatter_S8x2048x2048_S2048x2_S8x2048_0_12_12_1.window u a
      ∧ scatter_S8x2048x2048_S2048x2_S8x2048_0_12_12_1.start u idxPairs a + scatter_S8x2048x2048_S2048x2_S8x2048_0_12_12_1.window u a < S8x2048x2048.size a := fun a => by
    rw [scatter_start_window u a]
    exact ⟨Int.natCast_nonneg _, by exact_mod_cast ((ix3 (u 0) (u 1) (u 1) : S8x2048x2048.Idx) a).isLt⟩
  rw [dif_pos h]
  congr 1
  funext a
  refine Fin.ext ?_
  show (scatter_S8x2048x2048_S2048x2_S8x2048_0_12_12_1.start u idxPairs a + scatter_S8x2048x2048_S2048x2_S8x2048_0_12_12_1.window u a).toNat = _
  rw [scatter_start_window u a, Int.toNat_natCast]
  rfl

/-- Distinct updates land at distinct places. -/
theorem scatter_inj : Function.Injective (fun u : S8x2048.Idx => (ix3 (u 0) (u 1) (u 1) : S8x2048x2048.Idx)) := by
  intro u v e
  funext c
  match c with
  | ⟨0, _⟩ => exact congrFun e 0
  | ⟨1, _⟩ => exact congrFun e 1

/-! ## The stages at an index -/

/-- A select on a decided proposition is the `if`. -/
theorem select_ofBool {α : Type} (P : Prop) [Decidable P] (a b : α) :
    Scalar.select (BitVec.ofBool (decide P)) a b = if P then a else b := by
  by_cases h : P <;> simp [Scalar.select, h]

/-- The witness that names the coordinate a sum over the last axis inserts. -/
theorem reduces_last : S8x2048x2048.Reduces [2] S8x2048 := by decide

/-- A sum over the last axis from the zero word, at `(b, i)`: the plain sum of the row. -/
theorem rowReduce_apply (M : FVec Ideal S8x2048x2048 .f32) (b : Fin 8) (i : Fin 2048) :
    Host.reduceAdd (F := Ideal) M (constant S_ .f32 0x00000000#32) reducesTo_S8x2048x2048_S8x2048_d2 h_S_ (ix2 b i)
      = ∑ j : Fin 2048, M (ix3 b i j) := by
  rw [hostReduceAdd_apply, Ideal.hostReduceAdd_single reducesTo_S8x2048x2048_S8x2048_d2 reduces_last,
    constant_apply, Ideal.ofBits_zero_f32, zero_add]
  refine Finset.sum_congr rfl fun j _ => congrArg M ?_
  funext a
  refine Fin.ext ?_
  match a with
  | ⟨0, _⟩ => rfl
  | ⟨1, _⟩ => rfl
  | ⟨2, _⟩ => rfl

/-- The symmetrised row sum at `(b, i)`: the transpose reads `(b, j, i)` at `(b, i, j)`. -/
theorem symRowSum_apply (A : FVec Ideal S8x2048x2048 .f32) (b : Fin 8) (i : Fin 2048) :
    symRowSum A (ix2 b i) = ∑ j : Fin 2048, (A (ix3 b i j) + A (ix3 b j i)) := by
  unfold symRowSum
  rw [rowReduce_apply]
  refine Finset.sum_congr rfl fun j _ => ?_
  rw [addf_apply]
  congr 1
  exact transpose_apply _ _ _ _ (ix3 b j i) (fun c => by
    match c with
    | ⟨0, _⟩ => rfl
    | ⟨1, _⟩ => rfl
    | ⟨2, _⟩ => rfl)

/-- The new diagonal at `(b, i)` is the specification's. -/
theorem newDiagonal_apply (A : FVec Ideal S8x2048x2048 .f32) (b : Fin 8) (i : Fin 2048) :
    newDiagonal A (ix2 b i) = newDiagR A b i := by
  unfold newDiagonal newDiagR mask
  rw [select_apply, cmpf_apply, symRowSum_apply, broadcastInDim_scalar_apply, broadcastInDim_scalar_apply, constant_apply,
    constant_apply, Ideal.ofBits_zero_f32, Ideal.ofBits_one_f32, diagonal_apply]
  show Scalar.select (BitVec.ofBool (decide (_ ≠ (0 : EReal)))) _ _ = _
  rw [select_ofBool]

/-- The replaced matrix at `(b, i, j)` is the specification's: the scatter writes `(b, i, i)` and nothing else. -/
theorem replacedMatrix_apply (A : FVec Ideal S8x2048x2048 .f32) (b : Fin 8) (i j : Fin 2048) :
    replacedMatrix A (ix3 b i j) = replaced A b i j := by
  unfold replacedMatrix replaced
  have H := scatter_set_apply scatter_S8x2048x2048_S2048x2_S8x2048_0_12_12_1 A idxPairs (newDiagonal A)
    (fun u => (ix3 (u 0) (u 1) (u 1) : S8x2048x2048.Idx)) scatter_idx scatter_inj
  by_cases hji : j = i
  · subst hji
    rw [if_pos rfl]
    exact (H.1 (ix2 b j)).trans (newDiagonal_apply A b j)
  · rw [if_neg hji]
    refine H.2 (ix3 b i j) (fun u e => hji ?_)
    have h1 : u 1 = i := congrFun e 1
    have h2 : u 1 = j := congrFun e 2
    exact h2.symm.trans h1

/-- The degree at `(b, i)` is the specification's. -/
theorem degree_apply (A : FVec Ideal S8x2048x2048 .f32) (b : Fin 8) (i : Fin 2048) :
    degree A (ix2 b i) = degR A b i := by
  unfold degree degR
  rw [rowReduce_apply]
  exact Finset.sum_congr rfl fun j _ => replacedMatrix_apply A b i j

/-- The guarded reciprocal at `(b, i)` is the specification's. -/
theorem reciprocal_apply (A : FVec Ideal S8x2048x2048 .f32) (b : Fin 8) (i : Fin 2048) :
    reciprocal A (ix2 b i) = dinvR A b i := by
  unfold reciprocal dinvR recip
  rw [select_apply, cmpf_apply, hostDivf_apply, degree_apply, broadcastInDim_scalar_apply, broadcastInDim_scalar_apply,
    constant_apply, constant_apply, Ideal.ofBits_zero_f32, Ideal.ofBits_one_f32]
  show Scalar.select (BitVec.ofBool (decide (_ ≠ (0 : EReal)))) _ _ = _
  rw [select_ofBool]

/-- The row-scaled matrix at `(b, i, j)`: the reciprocal of row `i`'s degree times the replaced entry. -/
theorem normalized_apply (A : FVec Ideal S8x2048x2048 .f32) (b : Fin 8) (i j : Fin 2048) :
    normalized A (ix3 b i j) = dinvR A b i * replaced A b i j := by
  unfold normalized
  rw [mulf_apply, replacedMatrix_apply]
  congr 1
  rw [broadcastInDim_apply (k := (ix3 b i ⟨0, Nat.one_pos⟩ : S8x2048x1.Idx)) (hk := fun a => by
    match a with
    | ⟨0, _⟩ => rfl
    | ⟨1, _⟩ => rfl
    | ⟨2, _⟩ => rfl)]
  rw [broadcastInDim_apply (k := (ix2 b i : S8x2048.Idx)) (hk := fun a => by
    match a with
    | ⟨0, _⟩ => rfl
    | ⟨1, _⟩ => rfl)]
  exact reciprocal_apply A b i

/-! ## The two products -/

/-- The first product at `(b, j, e)`: the contraction over the last axis of both operands. -/
theorem linear_apply (x : FVec Ideal S8x2048x128 .f32) (W : FVec Ideal S128x128 .f32) (b : Fin 8) (j : Fin 2048)
    (e : Fin 128) : linear x W (ix3 b j e) = ∑ k : Fin 128, x (ix3 b j k) * W (ix2 e k) := by
  unfold linear
  show FloatOps.dotGeneral dot_S8x2048x128_S128x128_S8x2048x128_2_1_01_0_n_n none _ x W (ix3 b j e) = _
  rw [Ideal.dotGeneral_apply, ← Equiv.sum_comp (contrEquiv1 dot_S8x2048x128_S128x128_S8x2048x128_2_1_01_0_n_n 128 rfl rfl).symm]
  refine Finset.sum_congr rfl fun c _ => ?_
  have c3 := contrEquiv1_symm_val dot_S8x2048x128_S128x128_S8x2048x128_2_1_01_0_n_n 128 rfl rfl c
  have l3 : dot_S8x2048x128_S128x128_S8x2048x128_2_1_01_0_n_n.lhsIdx (ix3 b j e) ((contrEquiv1 dot_S8x2048x128_S128x128_S8x2048x128_2_1_01_0_n_n 128 rfl rfl).symm c) = ix3 b j c := by
    funext ax; apply Fin.ext
    match ax with
    | ⟨0, _⟩ => simp [DotDims.lhsIdx, dot_S8x2048x128_S128x128_S8x2048x128_2_1_01_0_n_n]; rfl
    | ⟨1, _⟩ => simp [DotDims.lhsIdx, dot_S8x2048x128_S128x128_S8x2048x128_2_1_01_0_n_n]; rfl
    | ⟨2, _⟩ => simp [DotDims.lhsIdx, dot_S8x2048x128_S128x128_S8x2048x128_2_1_01_0_n_n]; exact c3
  have r3 : dot_S8x2048x128_S128x128_S8x2048x128_2_1_01_0_n_n.rhsIdx (ix3 b j e) ((contrEquiv1 dot_S8x2048x128_S128x128_S8x2048x128_2_1_01_0_n_n 128 rfl rfl).symm c) = ix2 e c := by
    funext ax; apply Fin.ext
    match ax with
    | ⟨0, _⟩ => simp [DotDims.rhsIdx, dot_S8x2048x128_S128x128_S8x2048x128_2_1_01_0_n_n]; rfl
    | ⟨1, _⟩ => simp [DotDims.rhsIdx, dot_S8x2048x128_S128x128_S8x2048x128_2_1_01_0_n_n]; exact c3
  rw [l3, r3]

/-- The hidden layer at `(b, j, e)` is the specification's: the comparison is `0 ≤ ·`, the other branch the slope's product. -/
theorem hidden_apply (x : FVec Ideal S8x2048x128 .f32) (W : FVec Ideal S128x128 .f32) (b : Fin 8) (j : Fin 2048)
    (e : Fin 128) : hidden x W (ix3 b j e) = hid x W b j e := by
  unfold hidden hid leaky GraphConv.slope
  rw [select_apply, cmpf_apply, mulf_apply, linear_apply, broadcastInDim_scalar_apply, broadcastInDim_scalar_apply,
    constant_apply, constant_apply, Ideal.ofBits_zero_f32]
  show Scalar.select (BitVec.ofBool (decide ((0 : EReal) ≤ _))) _ _ = _
  rw [select_ofBool]

/-- The whole result at `(b, i, e)` is the specification's: the second product contracts the matrix's last axis
    with the hidden layer's middle one, batch by batch. -/
theorem result_apply (x : FVec Ideal S8x2048x128 .f32) (A : FVec Ideal S8x2048x2048 .f32) (W : FVec Ideal S128x128 .f32)
    (b : Fin 8) (i : Fin 2048) (e : Fin 128) : result (F := Ideal) x A W (ix3 b i e) = outR x A W b i e := by
  unfold result outR
  refine (StackMember.dotGeneral_stack_apply (G := 8) (m := 2048) (n := 128) (k := 2048)
    dot_S8x2048x2048_S8x2048x128_S8x2048x128_2_1_1_2_0_0_wf none (normalized A) (hidden x W) b i e).trans ?_
  exact Finset.sum_congr rfl fun j _ => by rw [normalized_apply, hidden_apply]

end Cert.ReferenceIdeal.RefRun

end
-- ==== Proof.Math.lean ====
/-
  The two arrangements of the normalised aggregation are one function on finite inputs.

  Fix a batch and a row `i`. Replacing the diagonal entry `a i i` of the row by `nd` before summing changes the row
  sum by `nd - a i i`, and changes the row's product with the hidden layer by `(nd - a i i) · h i` scaled by the
  row's factor: this is distributivity and cancellation, which hold for real numbers and fail at the infinities, so
  every entry is first written as a real number (the inputs are finite, the rectifier's slope is a finite word,
  sums and products of reals are reals) and the law is proved there.
-/
import proofs.«129983_j84911503442515_2_alg».proof.Proof.Spec

noncomputable section

namespace Cert.GraphConv

open Idealize.ShloMosaic Idealize.ShloMosaic.ValueIdx

/-! ## Reals inside the extended reals -/

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The reciprocal of a real degree is the real reciprocal (zero at zero). -/
theorem recip_coe (r : ℝ) : recip (r : EReal) = ((r⁻¹ : ℝ) : EReal) := by
  unfold recip Ideal.div
  by_cases h : r = 0
  · subst h; simp
  · have h' : (r : EReal) ≠ 0 := by exact_mod_cast h
    rw [if_pos h', if_neg h', one_mul, EReal.coe_inv]

/-- The rectifier's slope is a finite word. -/
theorem slope_real : ∃ s : ℝ, slope = (s : EReal) := by
  unfold slope Ideal.ofBits Ideal.ieee
  simp
  exact ⟨(10737418 : ℝ) * ((2 : ℝ) ^ 30)⁻¹, by push_cast; rfl⟩

/-- The rectifier of a real is a real. -/
theorem leaky_real (v : ℝ) : ∃ r : ℝ, leaky (v : EReal) = (r : EReal) := by
  obtain ⟨s, hs⟩ := slope_real
  unfold leaky
  split
  · exact ⟨v, rfl⟩
  · exact ⟨s * v, by rw [hs, EReal.coe_mul]⟩

/-! ## The law over the reals -/

section Law
variable {n : ℕ}

/-- Exchanging one term of a sum. -/
theorem sum_exchange (f : Fin n → ℝ) (i : Fin n) (nd : ℝ) :
    ∑ j : Fin n, (if j = i then nd else f j) = (∑ j : Fin n, f j - f i) + nd := by
  have h : ∀ j, (if j = i then nd else f j) = f j + (if j = i then nd - f i else 0) := by
    intro j; split_ifs with hj
    · subst hj; ring
    · ring
  simp only [h, Finset.sum_add_distrib, Finset.sum_ite_eq', Finset.mem_univ, if_true]
  ring

/-- The row with one entry exchanged, scaled and applied to a vector: the unexchanged row's product plus the
    correction at the exchanged place. -/
theorem dot_exchange (f g : Fin n → ℝ) (i : Fin n) (nd s : ℝ) :
    ∑ j : Fin n, (s * (if j = i then nd else f j)) * g j
      = (∑ j : Fin n, (s * f j) * g j) + (s * nd - s * f i) * g i := by
  have h : ∀ j, (s * (if j = i then nd else f j)) * g j = (s * f j) * g j + (if j = i then (s * nd - s * f i) * g i else 0) := by
    intro j; split_ifs with hj
    · subst hj; ring
    · ring
  simp only [h, Finset.sum_add_distrib, Finset.sum_ite_eq', Finset.mem_univ, if_true]

end Law

/-! ## The two sides agree on finite inputs -/

/-- Every entry of an array is a real number. -/
def Finite {ι : Type} (f : ι → EReal) : Prop := ∀ j, ∃ r : ℝ, f j = (r : EReal)

theorem hid_real {x : IX → EReal} {W : IW → EReal} (hx : Finite x) (hW : Finite W) (b : Fin 8) (j : Fin 2048) (e : Fin 128) :
    ∃ r : ℝ, hid x W b j e = (r : EReal) := by
  choose xr hxr using hx
  choose wr hwr using hW
  unfold hid
  have : (∑ k : Fin 128, x (ix3 b j k) * W (ix2 e k)) = ((∑ k : Fin 128, xr (ix3 b j k) * wr (ix2 e k) : ℝ) : EReal) := by
    rw [coe_sum]; exact Finset.sum_congr rfl fun k _ => by rw [hxr, hwr, EReal.coe_mul]
  rw [this]; exact leaky_real _

/-- THE LAW: on finite inputs the side that corrects the diagonal afterwards and the side that replaces it first
    compute the same entry. -/
theorem outK_eq_outR {x : IX → EReal} {A : IA → EReal} {W : IW → EReal} (hx : Finite x) (hA : Finite A) (hW : Finite W)
    (b : Fin 8) (i : Fin 2048) (e : Fin 128) : outK x A W b i e = outR x A W b i e := by
  choose a ha using hA
  choose hr hhr using hid_real hx hW
  have hA' : A = fun j => (a j : EReal) := funext ha
  subst hA'
  -- the three sums of the row and column, and the symmetrised sum, as reals
  have hrs : rowSum (fun j => (a j : EReal)) b i = ((∑ j : Fin 2048, a (ix3 b i j) : ℝ) : EReal) := by
    unfold rowSum; rw [coe_sum]
  have hcs : colSum (fun j => (a j : EReal)) b i = ((∑ j : Fin 2048, a (ix3 b j i) : ℝ) : EReal) := by
    unfold colSum; rw [coe_sum]
  have hsym : (∑ j : Fin 2048, (((a (ix3 b i j) : ℝ) : EReal) + ((a (ix3 b j i) : ℝ) : EReal)))
      = (((∑ j : Fin 2048, a (ix3 b i j)) + (∑ j : Fin 2048, a (ix3 b j i)) : ℝ) : EReal) := by
    rw [← Finset.sum_add_distrib, coe_sum]; exact Finset.sum_congr rfl fun j _ => by rw [EReal.coe_add]
  set rs : ℝ := ∑ j : Fin 2048, a (ix3 b i j) with hrs_def
  set cs : ℝ := ∑ j : Fin 2048, a (ix3 b j i) with hcs_def
  -- the new diagonal entry, the same real on both sides
  set nd : ℝ := if rs + cs ≠ 0 then 1 else a (ix3 b i i) with hnd_def
  have hndK : newDiagK (rs : EReal) (cs : EReal) ((a (ix3 b i i) : ℝ) : EReal) = (nd : EReal) := by
    unfold newDiagK
    by_cases h : rs + cs ≠ 0
    · have h' : ((rs : EReal) + (cs : EReal)) ≠ 0 := by rw [← EReal.coe_add]; exact_mod_cast h
      rw [if_pos h', hnd_def, if_pos h]; simp
    · have h' : ¬ ((rs : EReal) + (cs : EReal)) ≠ 0 := by rw [← EReal.coe_add]; exact_mod_cast h
      rw [if_neg h', hnd_def, if_neg h]
  have hndR : newDiagR (fun j => (a j : EReal)) b i = (nd : EReal) := by
    unfold newDiagR
    rw [hsym]
    by_cases h : rs + cs ≠ 0
    · have h' : (((rs + cs : ℝ)) : EReal) ≠ 0 := by exact_mod_cast h
      rw [if_pos h', hnd_def, if_pos h]; simp
    · have h' : ¬ (((rs + cs : ℝ)) : EReal) ≠ 0 := by exact_mod_cast h
      rw [if_neg h', hnd_def, if_neg h]
  -- the replaced row, as reals
  have hrep : ∀ j, replaced (fun j => (a j : EReal)) b i j = (((if j = i then nd else a (ix3 b i j)) : ℝ) : EReal) := by
    intro j; unfold replaced; rw [hndR]; split_ifs <;> rfl
  -- the degree, the same real on both sides
  have hdegR : degR (fun j => (a j : EReal)) b i = (((rs - a (ix3 b i i)) + nd : ℝ) : EReal) := by
    unfold degR; simp only [hrep]; rw [← coe_sum, sum_exchange]
  have hdegK : degK (rs : EReal) (cs : EReal) ((a (ix3 b i i) : ℝ) : EReal) = (((rs - a (ix3 b i i)) + nd : ℝ) : EReal) := by
    unfold degK; rw [hndK, ← EReal.coe_sub, ← EReal.coe_add]
  set dv : ℝ := ((rs - a (ix3 b i i)) + nd)⁻¹ with hdv_def
  have hdinvR : dinvR (fun j => (a j : EReal)) b i = (dv : EReal) := by unfold dinvR; rw [hdegR, recip_coe]
  have hdinvK : dinvK (rs : EReal) (cs : EReal) ((a (ix3 b i i) : ℝ) : EReal) = (dv : EReal) := by unfold dinvK; rw [hdegK, recip_coe]
  have hcoefK : coefK (rs : EReal) (cs : EReal) ((a (ix3 b i i) : ℝ) : EReal) = ((dv * nd - dv * a (ix3 b i i) : ℝ) : EReal) := by
    unfold coefK; rw [hdinvK, hndK, ← EReal.coe_mul, ← EReal.coe_mul, ← EReal.coe_sub]
  -- both sides over the reals
  unfold outK outR aggK
  simp only [hrs, hcs, diagOf, hdinvK, hcoefK, hdinvR, hrep, hhr]
  have hL : (∑ j : Fin 2048, ((dv : EReal) * ((a (ix3 b i j) : ℝ) : EReal)) * ((hr b j e : ℝ) : EReal))
      = ((∑ j : Fin 2048, (dv * a (ix3 b i j)) * hr b j e : ℝ) : EReal) := by
    rw [coe_sum]; exact Finset.sum_congr rfl fun j _ => by rw [EReal.coe_mul, EReal.coe_mul]
  have hR : (∑ j : Fin 2048, ((dv : EReal) * (((if j = i then nd else a (ix3 b i j)) : ℝ) : EReal)) * ((hr b j e : ℝ) : EReal))
      = ((∑ j : Fin 2048, (dv * (if j = i then nd else a (ix3 b i j))) * hr b j e : ℝ) : EReal) := by
    rw [coe_sum]; exact Finset.sum_congr rfl fun j _ => by rw [EReal.coe_mul, EReal.coe_mul]
  rw [hL, hR, ← EReal.coe_mul, ← EReal.coe_add, dot_exchange]

end Cert.GraphConv

end
-- ==== Proof.Finite.lean ====
/-
  The precondition says every entry of the three inputs is a real number.

  The printed predicate is, per input, "all of |v| < +∞" (an and-reduction of elementwise comparisons against the
  infinity word), and the conjunction of the three. An extended real whose absolute value is below +∞ is neither
  infinity, so it is a real.
-/
import proofs.«129983_j84911503442515_2_alg».proof.Proof.Math
import proofs.«129983_j84911503442515_2_alg».proof.Pre_finite_inputs
import Idealize.ShloMosaic.Lib.ReduceAll
import Idealize.ShloMosaic.Lib.Affine
import Idealize.ShloMosaic.Lib.IdealHost

noncomputable section

namespace Cert.GraphConv

open Idealize.ShloMosaic Idealize.ShloMosaic.ValueIdx

instance : Subsingleton Cert.Pre_finite_inputs.S_.Idx := ⟨fun a b => funext fun d => d.elim0⟩

/-- The binary32 infinity word is `+∞`. -/
theorem ofBits_inf : Ideal.ofBits .f32 0x7F800000#32 = (⊤ : EReal) := by simp [Ideal.ofBits, Ideal.ieee]

/-- An extended real whose absolute value is below `+∞` is a real. -/
theorem real_of_abs_lt_top (v : EReal) (h : Ideal.cmp .olt (max v (-v)) ⊤ = 1#1) : ∃ r : ℝ, v = (r : EReal) := by
  unfold Ideal.cmp at h
  have hlt : max v (-v) < ⊤ := by
    by_contra hn
    simp [hn] at h
  induction v using EReal.rec with
  | bot => simp at hlt
  | coe r => exact ⟨r, rfl⟩
  | top => simp at hlt

variable [Cert.Pre_finite_inputs.Facts]

/-- One input's "all finite" gives each entry as a real. -/
theorem finite_of_all {s : Shape} {axes : List (Fin s.rank)} (x : FVec Ideal s .f32)
    (hb : Cert.Pre_finite_inputs.S_.BroadcastsInDim s ![]) (hr : s.ReducesTo axes Cert.Pre_finite_inputs.S_)
    (hu : 0 < Cert.Pre_finite_inputs.S_.numel)
    (e : Host.reduce IntOp.andi (cmpf .olt (Host.absf x) (broadcastInDim s ![] hb (constant Cert.Pre_finite_inputs.S_ .f32 0x7F800000#32)))
      (constantI Cert.Pre_finite_inputs.S_ 1 1#1) hr hu ix0 = 1#1) : Finite x := by
  intro j
  have hj := Host.reduce_andi_all _ _ hr hu ix0 e j
  have hj' : Ideal.cmp .olt (max (x j) (-(x j))) ⊤ = 1#1 := by
    rw [← ofBits_inf]; exact hj
  exact real_of_abs_lt_top _ hj'

/-- The precondition, decoded. -/
theorem finite_of_pre (x : FVec Ideal Cert.Pre_finite_inputs.S8x2048x128 .f32) (A : FVec Ideal Cert.Pre_finite_inputs.S8x2048x2048 .f32)
    (W : FVec Ideal Cert.Pre_finite_inputs.S128x128 .f32)
    (h : Cert.Pre_finite_inputs.fn (F := Ideal) x A W = fun _ => 1#1) : Finite x ∧ Finite A ∧ Finite W := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨finite_of_all x _ _ _ h0', finite_of_all A _ _ _ h1, finite_of_all W _ _ _ h2⟩

end Cert.GraphConv

end
-- ==== Proof.Claims.lean ====
/-
  The certificate's five claims.

  The frames are the two programs' runs with the results dropped. The equivalence: the kernel program's result is
  the specification's `outK` of its arguments (the two regions' values through the host operations), the
  reference's is `outR` of the same arguments, and on finite inputs — which the precondition gives — the two are
  one function: replacing a row's diagonal entry before summing, or correcting the sums afterwards, is the same
  over the reals.
-/
import proofs.«129983_j84911503442515_2_alg».proof.Defs
import proofs.«129983_j84911503442515_2_alg».proof.Proof.Gen.Kernel
import proofs.«129983_j84911503442515_2_alg».proof.Proof.Gen.KernelIdeal
import proofs.«129983_j84911503442515_2_alg».proof.Proof.Gen.ReferenceIdeal
import proofs.«129983_j84911503442515_2_alg».proof.Proof.Gen.Pre_finite_inputs
import proofs.«129983_j84911503442515_2_alg».proof.Proof.Halves
import proofs.«129983_j84911503442515_2_alg».proof.Proof.WHalves
import proofs.«129983_j84911503442515_2_alg».proof.Proof.KValue
import proofs.«129983_j84911503442515_2_alg».proof.Proof.SumsValue
import proofs.«129983_j84911503442515_2_alg».proof.Proof.AggValue
import proofs.«129983_j84911503442515_2_alg».proof.Proof.RefRun
import proofs.«129983_j84911503442515_2_alg».proof.Proof.RefValue
import proofs.«129983_j84911503442515_2_alg».proof.Proof.Finite

noncomputable section

namespace Cert.Proof.Claims

open Idealize.ShloMosaic Idealize.ShloMosaic.TcCoe Idealize.SL.Sem Idealize.ShloMosaic.ValueIdx Cert.GraphConv

theorem frame_k : Cert.frame_Kernel := fun m ρ _ => Cert.Kernel.Halves.frame m ρ
theorem frame_ki : Cert.frame_KernelIdeal := fun m ρ _ => Cert.KernelIdeal.Halves.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

open Cert.KernelIdeal in
/-- The kernel program's result buffer ends at the specification's `outK` of the arguments. -/
theorem kernel_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20)
          = (fun j => outK (m ((c.tc : Thread nD τ).loc main_arg0)) (m ((c.tc : Thread nD τ).loc main_arg1))
              (m ((c.tc : Thread nD τ).loc main_arg2)) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (Run.run_all Halves.half0 Halves.half1 m ρ)
  · refine (h c _ (Run.mem_uc main_v20 (by decide))).trans (funext fun j => ?_)
    obtain ⟨b, i, e, rfl⟩ : ∃ (b : Fin 8) (i : Fin 2048) (e : Fin 128), j = ix3 b i e := ⟨j 0, j 1, j 2, eq_ix3 j⟩
    exact KValue.W7_result Halves.half0 Halves.half1 (fun V c b i => Sums.rowsum_eq V c b i) (fun V c b i => Sums.diag_eq V c b i)
      (fun V c b i => Sums.colsum_eq V c b i) (fun V c b i e => Agg.out_eq V c b i e) m ρ c _ _ _
  · exact (h c _ (Run.mem_uc main_arg0 (by decide))).trans (Frame.W7_arg0 Halves.half0 Halves.half1 m ρ c)
  · exact (h c _ (Run.mem_uc main_arg1 (by decide))).trans (Frame.W7_arg1 Halves.half0 Halves.half1 m ρ c)
  · exact (h c _ (Run.mem_uc main_arg2 (by decide))).trans (Frame.W7_arg2 Halves.half0 Halves.half1 m ρ c)

theorem algebraic : Cert.algebraic_KernelIdeal_ReferenceIdeal := by
  intro m ρ m' ρ' hpre hagree
  refine ⟨_, kernel_result m ρ, ?_⟩
  refine (θ_run Cert.ReferenceIdeal.defs _ _).mono (fun r h c => ⟨(h c).1.trans ?_, (h c).2⟩)
    (Cert.ReferenceIdeal.RefRun.run (F := Ideal) m' ρ')
  obtain ⟨hx, hA, hW⟩ := finite_of_pre _ _ _ (hpre c)
  rw [(hagree c).1, (hagree c).2.1, (hagree c).2.2]
  funext j
  obtain ⟨b, i, e, rfl⟩ : ∃ (b : Fin 8) (i : Fin 2048) (e : Fin 128), j = ix3 b i e := ⟨j 0, j 1, j 2, eq_ix3 j⟩
  rw [Cert.ReferenceIdeal.RefRun.result_apply]
  exact (outK_eq_outR hx hA hW b i e).symm

end Cert.Proof.Claims

end
-- ==== Proof.lean ====
/-
  The proof of the certificate's claim: each program's stated facts, then the five claims (Proof/Claims.lean) —
  the three programs run to the end with their arguments unchanged, the idealization rewrote nothing, and the
  idealized kernel program and the idealized reference compute the same result on finite inputs.
-/
import proofs.«129983_j84911503442515_2_alg».proof.Defs
import proofs.«129983_j84911503442515_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
